-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S64x10 .f32) (main_arg17 : FVec F S10 .f32) (main_v63 : IVec S_ 1) (main_v67 : IVec S_ 1) : IVec S_ 1 :=
  let main_v68 : IVec S_ 1 := andi main_v63 main_v67
  let main_v69 : FVec F S64x10 .f32 := Host.absf main_arg16
  let main_cst_26 : FVec F S_ .f32 := constant S_ .f32 0x7F800000#32
  let main_v70 : FVec F S64x10 .f32 := broadcastInDim S64x10 ![] bcast_S_S64x10 main_cst_26
  let main_v71 : IVec S64x10 1 := cmpf .olt main_v69 main_v70
  let main_c_27 : IVec S_ 1 := constantI S_ 1 1#1
  let main_v72 : IVec S_ 1 := (fun x v => Host.reduce IntOp.andi x v reducesTo_S64x10_S_d0_1 h_S_) main_v71 main_c_27
  let main_v73 : IVec S_ 1 := andi main_v68 main_v72
  let main_v74 : FVec F S10 .f32 := Host.absf main_arg17
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg13 : FVec F S128 .f32) (main_arg14 : FVec F S128x64 .f32) (main_arg15 : FVec F S64 .f32) (main_arg16 : FVec F S64x10 .f32) (main_arg17 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S128x128 .f32) (main_arg10 : FVec F S128x128 .f32) (main_arg11 : FVec F S128 .f32) (main_arg12 : FVec F S128x128 .f32) (main_arg13 : FVec F S128 .f32) (main_arg14 : FVec F S128x64 .f32) (main_arg15 : FVec F S64 .f32) (main_arg16 : FVec F S64x10 .f32) (main_arg17 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128 .f32) (main_arg14 : FVec F S128x64 .f32) (main_arg15 : FVec F S64 .f32) (main_arg16 : FVec F S64x10 .f32) (main_arg17 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : IVec S50000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128 .f32) (main_arg14 : FVec F S128x64 .f32) (main_arg15 : FVec F S64 .f32) (main_arg16 : FVec F S64x10 .f32) (main_arg17 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S500 : Shape := ⟨1, ![500]⟩
abbrev S500x1 : Shape := ⟨2, ![500, 1]⟩
abbrev S800000x128 : Shape := ⟨2, ![800000, 128]⟩
abbrev S1x128 : Shape := ⟨2, ![1, 128]⟩
abbrev S500x128 : Shape := ⟨2, ![500, 128]⟩
abbrev S1x64 : Shape := ⟨2, ![1, 64]⟩
abbrev S1x10 : Shape := ⟨2, ![1, 10]⟩
abbrev S500x10 : Shape := ⟨2, ![500, 10]⟩
abbrev S10000x128 : Shape := ⟨2, ![10000, 128]⟩
abbrev S500x64 : Shape := ⟨2, ![500, 64]⟩

abbrev nBuf : Space → Nat
  | .hbm => 133
  | .vmem => 35
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128, .f32⟩
  | 14 => ⟨S128x64, .f32⟩
  | 15 => ⟨S64, .f32⟩
  | 16 => ⟨S64x10, .f32⟩
  | 17 => ⟨S10, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .f32⟩
  | 34 => ⟨S50000x1, .f32⟩
  | 35 => ⟨S_, .f32⟩
  | 36 => ⟨S50000, .f32⟩
  | 37 => ⟨S_, .f32⟩
  | 38 => ⟨S500, .f32⟩
  | 39 => ⟨S50000x1, .i32⟩
  | 40 => ⟨S500, .f32⟩
  | 41 => ⟨S_, .f32⟩
  | 42 => ⟨S500, .f32⟩
  | 43 => ⟨S500, .f32⟩
  | 44 => ⟨S_, .f32⟩
  | 45 => ⟨S500, .f32⟩
  | 46 => ⟨S500, .f32⟩
  | 47 => ⟨S500x1, .f32⟩
  | 48 => ⟨S50000x128, .bf16⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .bf16⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000x128, .f32⟩
  | 64 => ⟨S50000x128, .f32⟩
  | 65 => ⟨S50000x128, .bf16⟩
  | 66 => ⟨S1x128, .f32⟩
  | 67 => ⟨S50000x128, .bf16⟩
  | 68 => ⟨S50000x128, .f32⟩
  | 69 => ⟨S_, .f32⟩
  | 70 => ⟨S500x128, .f32⟩
  | 71 => ⟨S50000x1, .i32⟩
  | 72 => ⟨S500x128, .f32⟩
  | 73 => ⟨S500x128, .f32⟩
  | 74 => ⟨S500x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .bf16⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x128, .f32⟩
  | 90 => ⟨S50000x128, .f32⟩
  | 91 => ⟨S50000x128, .bf16⟩
  | 92 => ⟨S1x128, .f32⟩
  | 93 => ⟨S50000x128, .bf16⟩
  | 94 => ⟨S50000x128, .f32⟩
  | 95 => ⟨S_, .f32⟩
  | 96 => ⟨S500x128, .f32⟩
  | 97 => ⟨S50000x1, .i32⟩
  | 98 => ⟨S500x128, .f32⟩
  | 99 => ⟨S500x128, .f32⟩
  | 100 => ⟨S500x128, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x128, .bf16⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000x128, .f32⟩
  | 116 => ⟨S50000x128, .f32⟩
  | 117 => ⟨S50000x128, .bf16⟩
  | 118 => ⟨S1x128, .f32⟩
  | 119 => ⟨S50000x128, .bf16⟩
  | 120 => ⟨S50000x128, .f32⟩
  | 121 => ⟨S_, .f32⟩
  | 122 => ⟨S500x128, .f32⟩
  | 123 => ⟨S50000x1, .i32⟩
  | 124 => ⟨S500x128, .f32⟩
  | 125 => ⟨S500x128, .f32⟩
  | 126 => ⟨S500x128, .f32⟩
  | 127 => ⟨S500x128, .f32⟩
  | _ => ⟨S50000x128, .f32⟩

abbrev hbmTy0_1 (i : Nat) : BufTy := match i % 128 with
  | 0 => ⟨S500x128, .f32⟩
  | 1 => ⟨S1x128, .f32⟩
  | 2 => ⟨S1x64, .f32⟩
  | 3 => ⟨S1x10, .f32⟩
  | 4 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .bf16⟩
  | .local _ .vmem, ⟨1, _⟩ => ⟨S10000x128, .bf16⟩
  | .local _ .vmem, ⟨2, _⟩ => ⟨S10000x128, .bf16⟩
  | .local _ .vmem, ⟨3, _⟩ => ⟨S10000x128, .bf16⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S10000x128, .bf16⟩
  | .local _ .vmem, ⟨8, _⟩ => ⟨S10000x128, .bf16⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | .local _ .vmem, ⟨12, _⟩ => ⟨S10000x128, .bf16⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S10000x128, .bf16⟩
  | .local _ .vmem, ⟨17, _⟩ => ⟨S10000x128, .bf16⟩
  | .local _ .vmem, ⟨18, _⟩ => ⟨S10000x128, .bf16⟩
  | .local _ .vmem, ⟨19, _⟩ => ⟨S10000x128, .bf16⟩
  | .local _ .vmem, ⟨20, _⟩ => ⟨S10000x128, .bf16⟩
  | .local _ .vmem, ⟨21, _⟩ => ⟨S10000x128, .bf16⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S10000x128, .bf16⟩
  | .local _ .vmem, ⟨26, _⟩ => ⟨S10000x128, .bf16⟩
  | .local _ .vmem, ⟨27, _⟩ => ⟨S500x128, .f32⟩
  | .local _ .vmem, ⟨28, _⟩ => ⟨S128x128, .f32⟩
  | .local _ .vmem, ⟨29, _⟩ => ⟨S1x128, .f32⟩
  | .local _ .vmem, ⟨30, _⟩ => ⟨S128x64, .f32⟩
  | .local _ .vmem, ⟨31, _⟩ => ⟨S1x64, .f32⟩
  | .local _ .vmem, ⟨32, _⟩ => ⟨S64x10, .f32⟩
  | .local _ .vmem, ⟨33, _⟩ => ⟨S1x10, .f32⟩
  | .local _ .vmem, ⟨34, _⟩ => ⟨S500x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_cst : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_cst_2 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_call0_cst_5 : Ref sig .tc := ⟨.hbm, 41, rfl⟩
abbrev main_call0_v17 : Ref sig .tc := ⟨.hbm, 42, rfl⟩
abbrev main_call0_v18 : Ref sig .tc := ⟨.hbm, 43, rfl⟩
abbrev main_call0_cst_6 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_call0_v22 : Ref sig .tc := ⟨.hbm, 48, rfl⟩
abbrev main_call0_c : Ref sig .tc := ⟨.hbm, 49, rfl⟩
abbrev main_call0_v23 : Ref sig .tc := ⟨.hbm, 50, rfl⟩
abbrev main_call0_v24 : Ref sig .tc := ⟨.hbm, 51, rfl⟩
abbrev main_call0_c_7 : Ref sig .tc := ⟨.hbm, 52, rfl⟩
abbrev main_call0_v25 : Ref sig .tc := ⟨.hbm, 53, rfl⟩
abbrev main_call0_v26 : Ref sig .tc := ⟨.hbm, 54, rfl⟩
abbrev main_call0_v27 : Ref sig .tc := ⟨.hbm, 55, rfl⟩
abbrev main_call0_v28 : Ref sig .tc := ⟨.hbm, 56, rfl⟩
abbrev main_call0_v29 : Ref sig .tc := ⟨.hbm, 57, rfl⟩
abbrev main_call0_v30 : Ref sig .tc := ⟨.hbm, 58, rfl⟩
abbrev main_call0_cst_8 : Ref sig .tc := ⟨.hbm, 59, rfl⟩
abbrev main_call0_v31 : Ref sig .tc := ⟨.hbm, 60, rfl⟩
abbrev main_call0_v32 : Ref sig .tc := ⟨.hbm, 61, rfl⟩
abbrev main_call0_v33 : Ref sig .tc := ⟨.hbm, 62, rfl⟩
abbrev main_call0_v34 : Ref sig .tc := ⟨.hbm, 63, rfl⟩
abbrev main_call0_v35 : Ref sig .tc := ⟨.hbm, 64, rfl⟩
abbrev main_call0_v36 : Ref sig .tc := ⟨.hbm, 65, rfl⟩
abbrev main_call0_v37 : Ref sig .tc := ⟨.hbm, 66, rfl⟩
abbrev main_call0_v38 : Ref sig .tc := ⟨.hbm, 67, rfl⟩
abbrev main_call0_v39 : Ref sig .tc := ⟨.hbm, 68, rfl⟩
abbrev main_call0_cst_9 : Ref sig .tc := ⟨.hbm, 69, rfl⟩
abbrev main_call0_v40 : Ref sig .tc := ⟨.hbm, 70, rfl⟩
abbrev main_call0_v41 : Ref sig .tc := ⟨.hbm, 71, rfl⟩
abbrev main_call0_v42 : Ref sig .tc := ⟨.hbm, 72, rfl⟩
abbrev main_call0_v43 : Ref sig .tc := ⟨.hbm, 73, rfl⟩
abbrev main_call0_v44 : Ref sig .tc := ⟨.hbm, 74, rfl⟩
abbrev main_call0_c_10 : Ref sig .tc := ⟨.hbm, 75, rfl⟩
abbrev main_call0_v45 : Ref sig .tc := ⟨.hbm, 76, rfl⟩
abbrev main_call0_v46 : Ref sig .tc := ⟨.hbm, 77, rfl⟩
abbrev main_call0_c_11 : Ref sig .tc := ⟨.hbm, 78, rfl⟩
abbrev main_call0_v47 : Ref sig .tc := ⟨.hbm, 79, rfl⟩
abbrev main_call0_v48 : Ref sig .tc := ⟨.hbm, 80, rfl⟩
abbrev main_call0_v49 : Ref sig .tc := ⟨.hbm, 81, rfl⟩
abbrev main_call0_v50 : Ref sig .tc := ⟨.hbm, 82, rfl⟩
abbrev main_call0_v51 : Ref sig .tc := ⟨.hbm, 83, rfl⟩
abbrev main_call0_v52 : Ref sig .tc := ⟨.hbm, 84, rfl⟩
abbrev main_call0_cst_12 : Ref sig .tc := ⟨.hbm, 85, rfl⟩
abbrev main_call0_v53 : Ref sig .tc := ⟨.hbm, 86, rfl⟩
abbrev main_call0_v54 : Ref sig .tc := ⟨.hbm, 87, rfl⟩
abbrev main_call0_v55 : Ref sig .tc := ⟨.hbm, 88, rfl⟩
abbrev main_call0_v56 : Ref sig .tc := ⟨.hbm, 89, rfl⟩
abbrev main_call0_v57 : Ref sig .tc := ⟨.hbm, 90, rfl⟩
abbrev main_call0_v58 : Ref sig .tc := ⟨.hbm, 91, rfl⟩
abbrev main_call0_v59 : Ref sig .tc := ⟨.hbm, 92, rfl⟩
abbrev main_call0_v60 : Ref sig .tc := ⟨.hbm, 93, rfl⟩
abbrev main_call0_v61 : Ref sig .tc := ⟨.hbm, 94, rfl⟩
abbrev main_call0_cst_13 : Ref sig .tc := ⟨.hbm, 95, rfl⟩
abbrev main_call0_v62 : Ref sig .tc := ⟨.hbm, 96, rfl⟩
abbrev main_call0_v63 : Ref sig .tc := ⟨.hbm, 97, rfl⟩
abbrev main_call0_v64 : Ref sig .tc := ⟨.hbm, 98, rfl⟩
abbrev main_call0_v65 : Ref sig .tc := ⟨.hbm, 99, rfl⟩
abbrev main_call0_v66 : Ref sig .tc := ⟨.hbm, 100, rfl⟩
abbrev main_call0_c_14 : Ref sig .tc := ⟨.hbm, 101, rfl⟩
abbrev main_call0_v67 : Ref sig .tc := ⟨.hbm, 102, rfl⟩
abbrev main_call0_v68 : Ref sig .tc := ⟨.hbm, 103, rfl⟩
abbrev main_call0_c_15 : Ref sig .tc := ⟨.hbm, 104, rfl⟩
abbrev main_call0_v69 : Ref sig .tc := ⟨.hbm, 105, rfl⟩
abbrev main_call0_v70 : Ref sig .tc := ⟨.hbm, 106, rfl⟩
abbrev main_call0_v71 : Ref sig .tc := ⟨.hbm, 107, rfl⟩
abbrev main_call0_v72 : Ref sig .tc := ⟨.hbm, 108, rfl⟩
abbrev main_call0_v73 : Ref sig .tc := ⟨.hbm, 109, rfl⟩
abbrev main_call0_v74 : Ref sig .tc := ⟨.hbm, 110, rfl⟩
abbrev main_call0_cst_16 : Ref sig .tc := ⟨.hbm, 111, rfl⟩
abbrev main_call0_v75 : Ref sig .tc := ⟨.hbm, 112, rfl⟩
abbrev main_call0_v76 : Ref sig .tc := ⟨.hbm, 113, rfl⟩
abbrev main_call0_v77 : Ref sig .tc := ⟨.hbm, 114, rfl⟩
abbrev main_call0_v78 : Ref sig .tc := ⟨.hbm, 115, rfl⟩
abbrev main_call0_v79 : Ref sig .tc := ⟨.hbm, 116, rfl⟩
abbrev main_call0_v80 : Ref sig .tc := ⟨.hbm, 117, rfl⟩
abbrev main_call0_v81 : Ref sig .tc := ⟨.hbm, 118, rfl⟩
abbrev main_call0_v82 : Ref sig .tc := ⟨.hbm, 119, rfl⟩
abbrev main_call0_v83 : Ref sig .tc := ⟨.hbm, 120, rfl⟩
abbrev main_call0_cst_17 : Ref sig .tc := ⟨.hbm, 121, rfl⟩
abbrev main_call0_v84 : Ref sig .tc := ⟨.hbm, 122, rfl⟩
abbrev main_call0_v85 : Ref sig .tc := ⟨.hbm, 123, rfl⟩
abbrev main_call0_v86 : Ref sig .tc := ⟨.hbm, 124, rfl⟩
abbrev main_call0_v87 : Ref sig .tc := ⟨.hbm, 125, rfl⟩
abbrev main_call0_v88 : Ref sig .tc := ⟨.hbm, 126, rfl⟩
abbrev main_call0_v89 : Ref sig .tc := ⟨.hbm, 127, rfl⟩
abbrev main_call0_v90 : Ref sig .tc := ⟨.hbm, 128, rfl⟩
abbrev main_call0_v91 : Ref sig .tc := ⟨.hbm, 129, rfl⟩
abbrev main_call0_v92 : Ref sig .tc := ⟨.hbm, 130, rfl⟩
abbrev main_call0_v93 : Ref sig .tc := ⟨.hbm, 131, rfl⟩
abbrev main_v0 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S500x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S500x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bitsLt_bf16_f32 : FTy.bits .bf16 < FTy.bits .f32
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  bcast_S_S500x128 : S_.BroadcastsInDim S500x128 (![] : Fin 0 → Fin S500x128.rank)
  bcast_S500x1_S500x128_0_1 : S500x1.BroadcastsInDim S500x128 (![0, 1] : Fin 2 → Fin S500x128.rank)
  shapeCasts_S64_S1x64 : S64.ShapeCasts S1x64
  shapeCasts_S10_S1x10 : S10.ShapeCasts S1x10
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  inb_S500x128_S500x128_0_0 : ∀ a, (![0, 0] : Fin 2 → Nat) a + S500x128.size a ≤ S500x128.size a
  h_S500x128 : 0 < S500x128.numel
  shapeCasts_S500x128_S500x128 : S500x128.ShapeCasts S500x128
  broadcasts_S1x128_S500x128 : S1x128.Broadcasts S500x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S500x64 : S1x64.Broadcasts S500x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S500x10 : S1x10.Broadcasts S500x10
  reduces_S500x10_S500 : S500x10.Reduces [1] S500
  shapeCasts_S500_S500x1 : S500.ShapeCasts S500x1
  broadcasts_S500x1_S500x10 : S500x1.Broadcasts S500x10
  inb_S500x10_S500x10_0_0 : ∀ a, (![0, 0] : Fin 2 → Nat) a + S500x10.size a ≤ S500x10.size a
  h_S500x10 : 0 < S500x10.numel
  scatter_S50000_S800000x1_S800000_n_0_0_1_wf : ScatterDims.WF S50000 S800000x1 S800000 [] [0] [0] 1
  scatter_S500_S50000x1_S50000_n_0_0_1_wf : ScatterDims.WF S500 S50000x1 S50000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S500x128_S50000x1_S50000x128_1_0_0_1_wf : ScatterDims.WF S500x128 S50000x1 S50000x128 [1] [0] [0] 1
  dot_S10000x128_S128x128_S10000x128_1_0_0_1_n_n_wf : DotDims.WF S10000x128 S128x128 S10000x128 [1] [0] [0] [1] [] []
  dot_S500x128_S128x128_S500x128_1_0_0_1_n_n_wf : DotDims.WF S500x128 S128x128 S500x128 [1] [0] [0] [1] [] []
  dot_S500x128_S128x64_S500x64_1_0_0_1_n_n_wf : DotDims.WF S500x128 S128x64 S500x64 [1] [0] [0] [1] [] []
  dot_S500x64_S64x10_S500x10_1_0_0_1_n_n_wf : DotDims.WF S500x64 S64x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .bf16 = 32 ∨ (Rect.block (s := S50000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .bf16 = 32 ∨ (Rect.block (s := S50000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .bf16 = 32 ∨ (Rect.block (s := S50000x128) S10000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .bf16 = 32 ∨ (Rect.block (s := S50000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .bf16 = 32 ∨ (Rect.block (s := S50000x128) S10000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .bf16 = 32 ∨ (Rect.block (s := S50000x128) S10000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .bf16 = 32 ∨ (Rect.block (s := S50000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S50000x128.size a
  hwx2_5 : ∀ i : grid2.Coords, EltTy.bits .bf16 = 32 ∨ (Rect.block (s := S50000x128) S10000x128.size (cc2_transform_5 i) (hinb2_5 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S500x128.size a ≤ S500x128.size a
  hwx3_0 : ∀ i : grid3.Coords, EltTy.bits .f32 = 32 ∨ (Rect.block (s := S500x128) S500x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x10.size a ≤ S64x10.size a
  hwx3_5 : ∀ i : grid3.Coords, EltTy.bits .f32 = 32 ∨ (Rect.block (s := S64x10) S64x10.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x10.size a ≤ S1x10.size a
  hwx3_6 : ∀ i : grid3.Coords, EltTy.bits .f32 = 32 ∨ (Rect.block (s := S1x10) S1x10.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S500x10.size a ≤ S500x10.size a
  hwx3_7 : ∀ i : grid3.Coords, EltTy.bits .f32 = 32 ∨ (Rect.block (s := S500x10) S500x10.size (cc3_transform_7 i) (hinb3_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

abbrev win0_0 : Pipeline.Window sig grid0 :=
  Pipeline.Window.ofSpec (Memref.whole main_call0_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v36) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v37) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v38) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v38) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v58) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v60) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v60) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v80) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v81) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v82) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v90) S500x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v91) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v92) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg16) S64x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v93) S1x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v0) S500x10.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S500 : Shape := ⟨1, ![500]⟩
abbrev S500x1 : Shape := ⟨2, ![500, 1]⟩
abbrev S800000x128 : Shape := ⟨2, ![800000, 128]⟩
abbrev S1x128 : Shape := ⟨2, ![1, 128]⟩
abbrev S500x128 : Shape := ⟨2, ![500, 128]⟩
abbrev S500x64 : Shape := ⟨2, ![500, 64]⟩
abbrev S1x64 : Shape := ⟨2, ![1, 64]⟩
abbrev S500x10 : Shape := ⟨2, ![500, 10]⟩
abbrev S1x10 : Shape := ⟨2, ![1, 10]⟩

abbrev nBuf : Space → Nat
  | .hbm => 173
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128, .f32⟩
  | 14 => ⟨S128x64, .f32⟩
  | 15 => ⟨S64, .f32⟩
  | 16 => ⟨S64x10, .f32⟩
  | 17 => ⟨S10, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .f32⟩
  | 34 => ⟨S50000x1, .f32⟩
  | 35 => ⟨S_, .f32⟩
  | 36 => ⟨S50000, .f32⟩
  | 37 => ⟨S_, .f32⟩
  | 38 => ⟨S500, .f32⟩
  | 39 => ⟨S50000x1, .i32⟩
  | 40 => ⟨S500, .f32⟩
  | 41 => ⟨S_, .f32⟩
  | 42 => ⟨S500, .f32⟩
  | 43 => ⟨S500, .f32⟩
  | 44 => ⟨S_, .f32⟩
  | 45 => ⟨S500, .f32⟩
  | 46 => ⟨S500, .f32⟩
  | 47 => ⟨S500x1, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000x128, .f32⟩
  | 62 => ⟨S50000x128, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .f32⟩
  | 73 => ⟨S500x128, .f32⟩
  | 74 => ⟨S50000x1, .i32⟩
  | 75 => ⟨S500x128, .f32⟩
  | 76 => ⟨S500x128, .f32⟩
  | 77 => ⟨S500x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S50000x128, .f32⟩
  | 93 => ⟨S50000x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .f32⟩
  | 103 => ⟨S500x128, .f32⟩
  | 104 => ⟨S50000x1, .i32⟩
  | 105 => ⟨S500x128, .f32⟩
  | 106 => ⟨S500x128, .f32⟩
  | 107 => ⟨S500x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S50000x128, .f32⟩
  | 122 => ⟨S50000x128, .f32⟩
  | 123 => ⟨S50000x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S_, .f32⟩
  | 5 => ⟨S500x128, .f32⟩
  | 6 => ⟨S50000x1, .i32⟩
  | 7 => ⟨S500x128, .f32⟩
  | 8 => ⟨S500x128, .f32⟩
  | 9 => ⟨S500x128, .f32⟩
  | 10 => ⟨S500x128, .f32⟩
  | 11 => ⟨S500x128, .f32⟩
  | 12 => ⟨S500x128, .f32⟩
  | 13 => ⟨S1x128, .f32⟩
  | 14 => ⟨S500x128, .f32⟩
  | 15 => ⟨S500x128, .f32⟩
  | 16 => ⟨S_, .f32⟩
  | 17 => ⟨S500x128, .f32⟩
  | 18 => ⟨S500x128, .f32⟩
  | 19 => ⟨S500x64, .f32⟩
  | 20 => ⟨S1x64, .f32⟩
  | 21 => ⟨S500x64, .f32⟩
  | 22 => ⟨S500x64, .f32⟩
  | 23 => ⟨S_, .f32⟩
  | 24 => ⟨S500x64, .f32⟩
  | 25 => ⟨S500x64, .f32⟩
  | 26 => ⟨S500x10, .f32⟩
  | 27 => ⟨S1x10, .f32⟩
  | 28 => ⟨S500x10, .f32⟩
  | 29 => ⟨S500x10, .f32⟩
  | 30 => ⟨S_, .f32⟩
  | 31 => ⟨S500, .f32⟩
  | 32 => ⟨S_, .f32⟩
  | 33 => ⟨S500, .f32⟩
  | 34 => ⟨S500, .f32⟩
  | 35 => ⟨S500x1, .f32⟩
  | 36 => ⟨S500x10, .f32⟩
  | 37 => ⟨S500x10, .f32⟩
  | 38 => ⟨S500x10, .f32⟩
  | 39 => ⟨S_, .f32⟩
  | 40 => ⟨S500, .f32⟩
  | 41 => ⟨S500x1, .f32⟩
  | 42 => ⟨S500x1, .f32⟩
  | 43 => ⟨S500x10, .f32⟩
  | 44 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_cst_4 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_5 : Ref sig .tc := ⟨.hbm, 41, rfl⟩
abbrev main_v17 : Ref sig .tc := ⟨.hbm, 42, rfl⟩
abbrev main_v18 : Ref sig .tc := ⟨.hbm, 43, rfl⟩
abbrev main_cst_6 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c : Ref sig .tc := ⟨.hbm, 48, rfl⟩
abbrev main_v22 : Ref sig .tc := ⟨.hbm, 49, rfl⟩
abbrev main_v23 : Ref sig .tc := ⟨.hbm, 50, rfl⟩
abbrev main_c_7 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_8 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call0_cst : Ref sig .tc := ⟨.hbm, 69, rfl⟩
abbrev main_call0_v0 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_10 : Ref sig .tc := ⟨.hbm, 78, rfl⟩
abbrev main_v46 : Ref sig .tc := ⟨.hbm, 79, rfl⟩
abbrev main_v47 : Ref sig .tc := ⟨.hbm, 80, rfl⟩
abbrev main_c_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_12 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_call1_cst : Ref sig .tc := ⟨.hbm, 99, rfl⟩
abbrev main_call1_v0 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_14 : Ref sig .tc := ⟨.hbm, 108, rfl⟩
abbrev main_v70 : Ref sig .tc := ⟨.hbm, 109, rfl⟩
abbrev main_v71 : Ref sig .tc := ⟨.hbm, 110, rfl⟩
abbrev main_c_15 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_16 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call2_cst : Ref sig .tc := ⟨.hbm, 129, rfl⟩
abbrev main_call2_v0 : Ref sig .tc := ⟨.hbm, 130, rfl⟩
abbrev main_v88 : Ref sig .tc := ⟨.hbm, 131, rfl⟩
abbrev main_cst_17 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_call3_cst : Ref sig .tc := ⟨.hbm, 144, rfl⟩
abbrev main_call3_v0 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_call4_cst : Ref sig .tc := ⟨.hbm, 151, rfl⟩
abbrev main_call4_v0 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_call5_cst : Ref sig .tc := ⟨.hbm, 158, rfl⟩
abbrev main_call5_v0 : Ref sig .tc := ⟨.hbm, 159, rfl⟩
abbrev main_call5_cst_0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_call5_v5 : Ref sig .tc := ⟨.hbm, 165, rfl⟩
abbrev main_call5_v6 : Ref sig .tc := ⟨.hbm, 166, rfl⟩
abbrev main_call5_cst_1 : Ref sig .tc := ⟨.hbm, 167, rfl⟩
abbrev main_call5_v7 : Ref sig .tc := ⟨.hbm, 168, rfl⟩
abbrev main_call5_v8 : Ref sig .tc := ⟨.hbm, 169, rfl⟩
abbrev main_call5_v9 : Ref sig .tc := ⟨.hbm, 170, rfl⟩
abbrev main_call5_v10 : Ref sig .tc := ⟨.hbm, 171, rfl⟩
abbrev main_v110 : Ref sig .tc := ⟨.hbm, 172, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500x128 : S_.BroadcastsInDim S500x128 (![] : Fin 0 → Fin S500x128.rank)
  bcast_S500x1_S500x128_0_1 : S500x1.BroadcastsInDim S500x128 (![0, 1] : Fin 2 → Fin S500x128.rank)
  bcast_S1x128_S500x128_0_1 : S1x128.BroadcastsInDim S500x128 (![0, 1] : Fin 2 → Fin S500x128.rank)
  bcast_S64_S1x64_1 : S64.BroadcastsInDim S1x64 (![1] : Fin 1 → Fin S1x64.rank)
  bcast_S1x64_S500x64_0_1 : S1x64.BroadcastsInDim S500x64 (![0, 1] : Fin 2 → Fin S500x64.rank)
  bcast_S_S500x64 : S_.BroadcastsInDim S500x64 (![] : Fin 0 → Fin S500x64.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  reducesTo_S500x10_S500_d1 : S500x10.ReducesTo [1] S500
  h_S_ : 0 < S_.numel
  bcast_S500x1_S500x10_0_1 : S500x1.BroadcastsInDim S500x10 (![0, 1] : Fin 2 → Fin S500x10.rank)
  scatter_S50000_S800000x1_S800000_n_0_0_1_wf : ScatterDims.WF S50000 S800000x1 S800000 [] [0] [0] 1
  scatter_S500_S50000x1_S50000_n_0_0_1_wf : ScatterDims.WF S500 S50000x1 S50000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S500x128_S50000x1_S50000x128_1_0_0_1_wf : ScatterDims.WF S500x128 S50000x1 S50000x128 [1] [0] [0] 1
  dot_S500x128_S128x128_S500x128_1_0_0_1_n_n_wf : DotDims.WF S500x128 S128x128 S500x128 [1] [0] [0] [1] [] []
  dot_S500x128_S128x64_S500x64_1_0_0_1_n_n_wf : DotDims.WF S500x128 S128x64 S500x64 [1] [0] [0] [1] [] []
  dot_S500x64_S64x10_S500x10_1_0_0_1_n_n_wf : DotDims.WF S500x64 S64x10 S500x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

class Facts : Prop extends Facts₀ where

variable [Facts]
-- ==== Proof.KRun.lean ====
/-
  The idealized program's run with its RESULT kept: every weakly fair execution of @main terminates, nothing
  faulting, and the result array ends at the last boundary's contents of the fold through @main (the four host
  stretches and the four kernel regions, `Gen.W8`), the argument arrays as launched. The frame statement keeps
  only the arguments; the value claims need the result as well.
-/
import proofs.«120171_j13091060318589_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run of the segments of @main, read at the result buffer as well as at the arguments: the last thread
    state holds every unscoped buffer at the last boundary's contents, the result's among them. -/
theorem run_out : θ_run defs (onTc (τ := τ) (main (F := F))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c)⟩)

end Cert.KernelIdeal.Out

end
-- ==== Proof.Spec.lean ====
/-
  The mathematics shared by the two programs, over plain index functions into the extended reals.

  One GraphSAGE layer (mean aggregation already applied): row `r` of the output is
  `max (h[r,:]·Wl[:,q] + agg[r,:]·Wr[:,q] + b[q]) 0` — two length-128 dot products, a bias, a clamp at zero.
  A row of the output depends on the SAME row of `h` and of `agg` only, which is why the layer may be computed
  over any partition of the rows into blocks.
-/
import Idealize.ShloMosaic.PureOps.Ideal
import Idealize.ShloMosaic.Lib.ValueIdx

noncomputable section

namespace Cert.Spec

open Idealize.ShloMosaic

/-- The entry (row of `i`, `k`) of an array with `n` rows and 128 columns. -/
abbrev rowK {n : Nat} (i : (⟨2, ![n, 128]⟩ : Shape).Idx) (k : Fin 128) : (⟨2, ![n, 128]⟩ : Shape).Idx := fun a => match a with
  | ⟨0, _⟩ => ⟨(i 0).val, (i 0).isLt⟩
  | ⟨1, _⟩ => ⟨k.val, k.isLt⟩

/-- The entry (`k`, column of `i`) of a 128 × 128 weight matrix. -/
abbrev kCol {n : Nat} (i : (⟨2, ![n, 128]⟩ : Shape).Idx) (k : Fin 128) : (⟨2, ![128, 128]⟩ : Shape).Idx := fun a => match a with
  | ⟨0, _⟩ => ⟨k.val, k.isLt⟩
  | ⟨1, _⟩ => ⟨(i 1).val, (i 1).isLt⟩

/-- The bias entry under column of `i`, the bias kept as a 1 × 128 row. -/
abbrev biasCol {n : Nat} (i : (⟨2, ![n, 128]⟩ : Shape).Idx) : (⟨2, ![1, 128]⟩ : Shape).Idx := fun a => match a with
  | ⟨0, _⟩ => ⟨0, Nat.one_pos⟩
  | ⟨1, _⟩ => ⟨(i 1).val, (i 1).isLt⟩

/-- One layer at one output entry, from the rows of `h` and `agg`, the two weight matrices and the bias row. The
    zero it clamps at is kept as the float word both programs print. -/
def sageAt {n : Nat} (h agg : (⟨2, ![n, 128]⟩ : Shape).Idx → EReal) (wl wr : (⟨2, ![128, 128]⟩ : Shape).Idx → EReal)
    (b : (⟨2, ![1, 128]⟩ : Shape).Idx → EReal) (i : (⟨2, ![n, 128]⟩ : Shape).Idx) : EReal :=
  max ((∑ k : Fin 128, h (rowK i k) * wl (kCol i k)) + (∑ k : Fin 128, agg (rowK i k) * wr (kCol i k)) + b (biasCol i))
    (Ideal.ofBits .f32 0x00000000#32)

/-- The layer over all 50000 nodes. -/
def sageG (h agg : (⟨2, ![50000, 128]⟩ : Shape).Idx → EReal) (wl wr : (⟨2, ![128, 128]⟩ : Shape).Idx → EReal)
    (b : (⟨2, ![1, 128]⟩ : Shape).Idx → EReal) : (⟨2, ![50000, 128]⟩ : Shape).Idx → EReal :=
  fun i => sageAt h agg wl wr b i

end Cert.Spec

end
-- ==== Proof.Sage0.lean ====
/-
  Kernel region 0 (one GraphSAGE layer over 5 blocks of 10000 rows). Whatever the region finds in its five input
  arrays, its output array ends holding the layer of them, row by row: block `t` of the output is computed from
  block `t` of the node features and of the aggregated messages (rows 10000·t … 10000·t + 9999) and from the whole
  weight matrices and bias, and a row of the layer depends on that row of its inputs only; the five blocks tile
  the 50000 rows.
-/
import proofs.«120171_j13091060318589_2_alg».proof.Proof.Gen.KernelIdeal.Frame
import proofs.«120171_j13091060318589_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Sage0

open Cert.KernelIdeal Cert.KernelIdeal.Gen Cert.Spec
open Idealize.ShloMosaic Idealize.ShloMosaic.TcCoe Idealize.SL.Sem
open Idealize.ShloMosaic.Pipeline (Dat)

local notation "DK" => dot_S10000x128_S128x128_S10000x128_1_0_0_1_n_n

theorem hz : (![0, 0] : Fin 2 → Nat) = fun _ => 0 := funext fun a => by fin_cases a <;> rfl

/-! ## The block's arithmetic at one entry -/

theorem lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block's matrix product into a zero accumulator, at one entry: the dot product of the row with the column. -/
theorem mm_apply (l : FVec Ideal S10000x128 .bf16) (r : FVec Ideal S128x128 .bf16) (j : S10000x128.Idx) :
    FloatOps.matmul (F := Ideal) dot_S10000x128_S128x128_S10000x128_1_0_0_1_n_n none l r (constant (F := Ideal) S10000x128 .f32 0x00000000#32) j
      = ∑ k : Fin 128, l (rowK j k) * r (kCol j k) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = rowK j k := funext fun a => Fin.ext (by
    match a with
    | ⟨0, _⟩ => exact lhs0 _ _
    | ⟨1, _⟩ => exact (dot_S10000x128_S128x128_S10000x128_1_0_0_1_n_n.lhsIdx_val_of_single rfl j _).trans hk)
  have er : dot_S10000x128_S128x128_S10000x128_1_0_0_1_n_n.rhsIdx j ((ValueIdx.contrEquiv1 dot_S10000x128_S128x128_S10000x128_1_0_0_1_n_n 128 rfl rfl).symm k) = kCol j k := funext fun a => Fin.ext (by
    match a with
    | ⟨0, _⟩ => exact (dot_S10000x128_S128x128_S10000x128_1_0_0_1_n_n.rhsIdx_val_of_single rfl j _).trans hk
    | ⟨1, _⟩ => exact rhs1 _ _)
  rw [el, er]

/-- The bias row spread over the block, at one entry: the bias under that entry's column. -/
theorem bias_apply (x4 : FVec Ideal S1x128 .f32) (j : S10000x128.Idx) :
    broadcastTo S10000x128 x4 broadcasts_S1x128_S10000x128 j = x4 (biasCol j) :=
  broadcastTo_apply x4 broadcasts_S1x128_S10000x128 j (biasCol j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- What the body stores, at one entry of the block: the layer's formula on the blocks it loaded (the changes of
    float format and the same-shape casts are identities on the extended reals). -/
theorem pay_apply (x0 x1 : Vec Ideal S10000x128 .bf16) (x2 x3 : Vec Ideal S128x128 .f32) (x4 : Vec Ideal S1x128 .f32) (j : S10000x128.Idx) :
    k0_pay1 x0 x1 x2 x3 x4 j = sageAt x0 x1 x2 x3 x4 j := by
  unfold k0_pay1 sageAt
  simp only [shapeCast_self]
  show max ((FloatOps.matmul (F := Ideal) dot_S10000x128_S128x128_S10000x128_1_0_0_1_n_n none x0 x2 (constant (F := Ideal) S10000x128 .f32 0x00000000#32) j
      + FloatOps.matmul (F := Ideal) dot_S10000x128_S128x128_S10000x128_1_0_0_1_n_n none x1 x3 (constant (F := Ideal) S10000x128 .f32 0x00000000#32) j)
      + broadcastTo S10000x128 x4 broadcasts_S1x128_S10000x128 j) (Ideal.ofBits .f32 0x00000000#32) = _
  rw [mm_apply, mm_apply, bias_apply]

/-! ## The region -/

variable (V : (c : Dev nD) → (b : Ref sig .tc) → Buf (Elt Ideal) ((c : Thread nD τ).loc b))

/-- The printed index maps over the five points: the row-blocked windows sit at block `t`, the whole-array windows at 0. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 5 :=
  (by decide +kernel : ∀ t : Fin grid0.N, _)

/-- Block `t` of a row-blocked window is rows 10000·t … 10000·t + 9999 of its array. -/
theorem rows_apply (c : Dev nD) (t : Fin cfg0.N) (y : S10000x128.Idx) (i : S50000x128.Idx)
    (h0 : (i 0).val = 10000 * t.val + (y 0).val) (h1 : (i 1).val = (y 1).val) :
    (iblk0 V c 0 t : Vec Ideal S10000x128 .bf16) y = (V c main_call0_v22 : S50000x128.Idx → EReal) i
    ∧ (iblk0 V c 1 t : Vec Ideal S10000x128 .bf16) y = (V c main_call0_v36 : S50000x128.Idx → EReal) i := by
  obtain ⟨e00, e01, e10, e11, -⟩ := idx_facts t
  constructor
  · unfold iblk0
    rw [View.read_apply]
    show V c main_call0_v22 _ = V c main_call0_v22 i
    refine congrArg (V c main_call0_v22) (funext fun a => Fin.ext ?_)
    match a with
    | ⟨0, _⟩ => show win0_0.index t (0 : Fin 2) * 10000 + 1 * (y 0).val = (i 0).val; omega
    | ⟨1, _⟩ => show win0_0.index t (1 : Fin 2) * 128 + 1 * (y 1).val = (i 1).val; omega
  · unfold iblk0
    rw [View.read_apply]
    show V c main_call0_v36 _ = V c main_call0_v36 i
    refine congrArg (V c main_call0_v36) (funext fun a => Fin.ext ?_)
    match a with
    | ⟨0, _⟩ => show win0_1.index t (0 : Fin 2) * 10000 + 1 * (y 0).val = (i 0).val; omega
    | ⟨1, _⟩ => show win0_1.index t (1 : Fin 2) * 128 + 1 * (y 1).val = (i 1).val; omega

/-- The weight windows' one block is the whole matrix, at every point. -/
theorem weights_apply (c : Dev nD) (t : Fin cfg0.N) (y i : S128x128.Idx)
    (h0 : (i 0).val = (y 0).val) (h1 : (i 1).val = (y 1).val) :
    (iblk0 V c 2 t : Vec Ideal S128x128 .f32) y = (V c main_arg3 : S128x128.Idx → EReal) i
    ∧ (iblk0 V c 3 t : Vec Ideal S128x128 .f32) y = (V c main_arg4 : S128x128.Idx → EReal) i := by
  obtain ⟨-, -, -, -, e20, e21, e30, e31, -⟩ := idx_facts t
  constructor
  · unfold iblk0
    rw [View.read_apply]
    show V c main_arg3 _ = V c main_arg3 i
    refine congrArg (V c main_arg3) (funext fun a => Fin.ext ?_)
    match a with
    | ⟨0, _⟩ => show win0_2.index t (0 : Fin 2) * 128 + 1 * (y 0).val = (i 0).val; omega
    | ⟨1, _⟩ => show win0_2.index t (1 : Fin 2) * 128 + 1 * (y 1).val = (i 1).val; omega
  · unfold iblk0
    rw [View.read_apply]
    show V c main_arg4 _ = V c main_arg4 i
    refine congrArg (V c main_arg4) (funext fun a => Fin.ext ?_)
    match a with
    | ⟨0, _⟩ => show win0_3.index t (0 : Fin 2) * 128 + 1 * (y 0).val = (i 0).val; omega
    | ⟨1, _⟩ => show win0_3.index t (1 : Fin 2) * 128 + 1 * (y 1).val = (i 1).val; omega

/-- The bias window's one block is the whole bias row. -/
theorem bias_row_apply (c : Dev nD) (t : Fin cfg0.N) (y i : S1x128.Idx)
    (h0 : (i 0).val = (y 0).val) (h1 : (i 1).val = (y 1).val) :
    (iblk0 V c 4 t : Vec Ideal S1x128 .f32) y = (V c main_call0_v37 : S1x128.Idx → EReal) i := by
  obtain ⟨-, -, -, -, -, -, -, -, e40, e41, -⟩ := idx_facts t
  unfold iblk0
  rw [View.read_apply]
  show V c main_call0_v37 _ = V c main_call0_v37 i
  refine congrArg (V c main_call0_v37) (funext fun a => Fin.ext ?_)
  match a with
  | ⟨0, _⟩ => show win0_4.index t (0 : Fin 2) * 1 + 1 * (y 0).val = (i 0).val; omega
  | ⟨1, _⟩ => show win0_4.index t (1 : Fin 2) * 128 + 1 * (y 1).val = (i 1).val; omega

/-- WHAT POINT `t` WRITES BACK is block `t` of the layer of the arrays the region found: the entry (p, q) of the block
    is the layer's entry (10000·t + p, q), whose two dot products run over row 10000·t + p of the inputs — row p of
    their blocks. -/
theorem flushed_eq (c : Dev nD) (t : Fin cfg0.N) :
    (dat0 V c).flushed 5 t = ((cfg0.win 5).blk t).view.read (Elt Ideal)
      (sageG (V c main_call0_v22) (V c main_call0_v36) (V c main_arg3) (V c main_arg4) (V c main_call0_v37)) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x128) hz, View.ld_unit_zero (S := S1x128) hz]
  funext j
  obtain ⟨-, -, -, -, -, -, -, -, -, -, e50, e51, -⟩ := idx_facts t
  have hE0 : ((((cfg0.win 5).blk t).view.emb j) 0).val = 10000 * t.val + (j 0).val := by
    show win0_5.index t (0 : Fin 2) * 10000 + 1 * (j 0).val = _; omega
  have hE1 : ((((cfg0.win 5).blk t).view.emb j) 1).val = (j 1).val := by
    show win0_5.index t (1 : Fin 2) * 128 + 1 * (j 1).val = _; omega
  show k0_pay1 (iblk0 V c 0 t) (iblk0 V c 1 t) (iblk0 V c 2 t) (iblk0 V c 3 t) (iblk0 V c 4 t) j
      = sageG (V c main_call0_v22) (V c main_call0_v36) (V c main_arg3) (V c main_arg4) (V c main_call0_v37) (((cfg0.win 5).blk t).view.emb j)
  refine (pay_apply _ _ _ _ _ j).trans ?_
  unfold sageG sageAt
  refine congrArg₂ max (congrArg₂ (· + ·) (congrArg₂ (· + ·) ?_ ?_) ?_) rfl
  · exact Finset.sum_congr rfl fun k _ => congrArg₂ (· * ·)
      (rows_apply V c t (rowK j k) (rowK (((cfg0.win 5).blk t).view.emb j) k) hE0 rfl).1
      (weights_apply V c t (kCol j k) (kCol (((cfg0.win 5).blk t).view.emb j) k) rfl hE1).1
  · exact Finset.sum_congr rfl fun k _ => congrArg₂ (· * ·)
      (rows_apply V c t (rowK j k) (rowK (((cfg0.win 5).blk t).view.emb j) k) hE0 rfl).2
      (weights_apply V c t (kCol j k) (kCol (((cfg0.win 5).blk t).view.emb j) k) rfl hE1).2
  · exact bias_row_apply V c t (biasCol j) (biasCol (((cfg0.win 5).blk t).view.emb j)) rfl hE1

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_call0_v38).slice (win0_5.rect t)).set ↔ _
  rw [View.set_slice_whole, Rect.mem_set_unit]
  exact Iff.rfl

/-- The five blocks tile the 50000 rows: row `r` is in block `r / 10000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 5 := N_0
  refine ⟨⟨(i 0).val / 10000, by omega⟩, flush0_5 _, ?_⟩
  rw [mem_blk]
  obtain ⟨-, -, -, -, -, -, -, -, -, -, e50, e51, -⟩ := idx_facts ⟨(i 0).val / 10000, by omega⟩
  intro a
  match a with
  | ⟨0, _⟩ =>
    show win0_5.index ⟨(i 0).val / 10000, _⟩ (0 : Fin 2) * 10000 ≤ (i 0).val ∧ (i 0).val < win0_5.index ⟨(i 0).val / 10000, _⟩ (0 : Fin 2) * 10000 + 10000
    rw [e50]; show (i 0).val / 10000 * 10000 ≤ (i 0).val ∧ (i 0).val < (i 0).val / 10000 * 10000 + 10000; omega
  | ⟨1, _⟩ =>
    show win0_5.index ⟨(i 0).val / 10000, _⟩ (1 : Fin 2) * 128 ≤ (i 1).val ∧ (i 1).val < win0_5.index ⟨(i 0).val / 10000, _⟩ (1 : Fin 2) * 128 + 128
    rw [e51]; omega

/-- THE OUTPUT ARRAY after the region: the layer of the arrays the region found. -/
theorem final (c : Dev nD) : (dat0 V c).arrAt 5 cfg0.N
    = sageG (V c main_call0_v22) (V c main_call0_v36) (V c main_arg3) (V c main_arg4) (V c main_call0_v37) :=
  (dat0 V c).arrAt_eq_of_cover 5 _ (fun t _ => flushed_eq V c t) cover

end Cert.KernelIdeal.Sage0

end
-- ==== Proof.Sage1.lean ====
/-
  Kernel region 1 (one GraphSAGE layer over 5 blocks of 10000 rows). Whatever the region finds in its five input
  arrays, its output array ends holding the layer of them, row by row: block `t` of the output is computed from
  block `t` of the node features and of the aggregated messages (rows 10000·t … 10000·t + 9999) and from the whole
  weight matrices and bias, and a row of the layer depends on that row of its inputs only; the five blocks tile
  the 50000 rows.
-/
import proofs.«120171_j13091060318589_2_alg».proof.Proof.Gen.KernelIdeal.Frame
import proofs.«120171_j13091060318589_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Sage1

open Cert.KernelIdeal Cert.KernelIdeal.Gen Cert.Spec
open Idealize.ShloMosaic Idealize.ShloMosaic.TcCoe Idealize.SL.Sem
open Idealize.ShloMosaic.Pipeline (Dat)

local notation "DK" => dot_S10000x128_S128x128_S10000x128_1_0_0_1_n_n

theorem hz : (![0, 0] : Fin 2 → Nat) = fun _ => 0 := funext fun a => by fin_cases a <;> rfl

/-! ## The block's arithmetic at one entry -/

theorem lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block's matrix product into a zero accumulator, at one entry: the dot product of the row with the column. -/
theorem mm_apply (l : FVec Ideal S10000x128 .bf16) (r : FVec Ideal S128x128 .bf16) (j : S10000x128.Idx) :
    FloatOps.matmul (F := Ideal) dot_S10000x128_S128x128_S10000x128_1_0_0_1_n_n none l r (constant (F := Ideal) S10000x128 .f32 0x00000000#32) j
      = ∑ k : Fin 128, l (rowK j k) * r (kCol j k) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = rowK j k := funext fun a => Fin.ext (by
    match a with
    | ⟨0, _⟩ => exact lhs0 _ _
    | ⟨1, _⟩ => exact (dot_S10000x128_S128x128_S10000x128_1_0_0_1_n_n.lhsIdx_val_of_single rfl j _).trans hk)
  have er : dot_S10000x128_S128x128_S10000x128_1_0_0_1_n_n.rhsIdx j ((ValueIdx.contrEquiv1 dot_S10000x128_S128x128_S10000x128_1_0_0_1_n_n 128 rfl rfl).symm k) = kCol j k := funext fun a => Fin.ext (by
    match a with
    | ⟨0, _⟩ => exact (dot_S10000x128_S128x128_S10000x128_1_0_0_1_n_n.rhsIdx_val_of_single rfl j _).trans hk
    | ⟨1, _⟩ => exact rhs1 _ _)
  rw [el, er]

/-- The bias row spread over the block, at one entry: the bias under that entry's column. -/
theorem bias_apply (x4 : FVec Ideal S1x128 .f32) (j : S10000x128.Idx) :
    broadcastTo S10000x128 x4 broadcasts_S1x128_S10000x128 j = x4 (biasCol j) :=
  broadcastTo_apply x4 broadcasts_S1x128_S10000x128 j (biasCol j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- What the body stores, at one entry of the block: the layer's formula on the blocks it loaded (the changes of
    float format and the same-shape casts are identities on the extended reals). -/
theorem pay_apply (x0 x1 : Vec Ideal S10000x128 .bf16) (x2 x3 : Vec Ideal S128x128 .f32) (x4 : Vec Ideal S1x128 .f32) (j : S10000x128.Idx) :
    k1_pay1 x0 x1 x2 x3 x4 j = sageAt x0 x1 x2 x3 x4 j := by
  unfold k1_pay1 sageAt
  simp only [shapeCast_self]
  show max ((FloatOps.matmul (F := Ideal) dot_S10000x128_S128x128_S10000x128_1_0_0_1_n_n none x0 x2 (constant (F := Ideal) S10000x128 .f32 0x00000000#32) j
      + FloatOps.matmul (F := Ideal) dot_S10000x128_S128x128_S10000x128_1_0_0_1_n_n none x1 x3 (constant (F := Ideal) S10000x128 .f32 0x00000000#32) j)
      + broadcastTo S10000x128 x4 broadcasts_S1x128_S10000x128 j) (Ideal.ofBits .f32 0x00000000#32) = _
  rw [mm_apply, mm_apply, bias_apply]

/-! ## The region -/

variable (V : (c : Dev nD) → (b : Ref sig .tc) → Buf (Elt Ideal) ((c : Thread nD τ).loc b))

/-- The printed index maps over the five points: the row-blocked windows sit at block `t`, the whole-array windows at 0. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 5 :=
  (by decide +kernel : ∀ t : Fin grid1.N, _)

/-- Block `t` of a row-blocked window is rows 10000·t … 10000·t + 9999 of its array. -/
theorem rows_apply (c : Dev nD) (t : Fin cfg1.N) (y : S10000x128.Idx) (i : S50000x128.Idx)
    (h0 : (i 0).val = 10000 * t.val + (y 0).val) (h1 : (i 1).val = (y 1).val) :
    (iblk1 V c 0 t : Vec Ideal S10000x128 .bf16) y = (V c main_call0_v38 : S50000x128.Idx → EReal) i
    ∧ (iblk1 V c 1 t : Vec Ideal S10000x128 .bf16) y = (V c main_call0_v58 : S50000x128.Idx → EReal) i := by
  obtain ⟨e00, e01, e10, e11, -⟩ := idx_facts t
  constructor
  · unfold iblk1
    rw [View.read_apply]
    show V c main_call0_v38 _ = V c main_call0_v38 i
    refine congrArg (V c main_call0_v38) (funext fun a => Fin.ext ?_)
    match a with
    | ⟨0, _⟩ => show win1_0.index t (0 : Fin 2) * 10000 + 1 * (y 0).val = (i 0).val; omega
    | ⟨1, _⟩ => show win1_0.index t (1 : Fin 2) * 128 + 1 * (y 1).val = (i 1).val; omega
  · unfold iblk1
    rw [View.read_apply]
    show V c main_call0_v58 _ = V c main_call0_v58 i
    refine congrArg (V c main_call0_v58) (funext fun a => Fin.ext ?_)
    match a with
    | ⟨0, _⟩ => show win1_1.index t (0 : Fin 2) * 10000 + 1 * (y 0).val = (i 0).val; omega
    | ⟨1, _⟩ => show win1_1.index t (1 : Fin 2) * 128 + 1 * (y 1).val = (i 1).val; omega

/-- The weight windows' one block is the whole matrix, at every point. -/
theorem weights_apply (c : Dev nD) (t : Fin cfg1.N) (y i : S128x128.Idx)
    (h0 : (i 0).val = (y 0).val) (h1 : (i 1).val = (y 1).val) :
    (iblk1 V c 2 t : Vec Ideal S128x128 .f32) y = (V c main_arg6 : S128x128.Idx → EReal) i
    ∧ (iblk1 V c 3 t : Vec Ideal S128x128 .f32) y = (V c main_arg7 : S128x128.Idx → EReal) i := by
  obtain ⟨-, -, -, -, e20, e21, e30, e31, -⟩ := idx_facts t
  constructor
  · unfold iblk1
    rw [View.read_apply]
    show V c main_arg6 _ = V c main_arg6 i
    refine congrArg (V c main_arg6) (funext fun a => Fin.ext ?_)
    match a with
    | ⟨0, _⟩ => show win1_2.index t (0 : Fin 2) * 128 + 1 * (y 0).val = (i 0).val; omega
    | ⟨1, _⟩ => show win1_2.index t (1 : Fin 2) * 128 + 1 * (y 1).val = (i 1).val; omega
  · unfold iblk1
    rw [View.read_apply]
    show V c main_arg7 _ = V c main_arg7 i
    refine congrArg (V c main_arg7) (funext fun a => Fin.ext ?_)
    match a with
    | ⟨0, _⟩ => show win1_3.index t (0 : Fin 2) * 128 + 1 * (y 0).val = (i 0).val; omega
    | ⟨1, _⟩ => show win1_3.index t (1 : Fin 2) * 128 + 1 * (y 1).val = (i 1).val; omega

/-- The bias window's one block is the whole bias row. -/
theorem bias_row_apply (c : Dev nD) (t : Fin cfg1.N) (y i : S1x128.Idx)
    (h0 : (i 0).val = (y 0).val) (h1 : (i 1).val = (y 1).val) :
    (iblk1 V c 4 t : Vec Ideal S1x128 .f32) y = (V c main_call0_v59 : S1x128.Idx → EReal) i := by
  obtain ⟨-, -, -, -, -, -, -, -, e40, e41, -⟩ := idx_facts t
  unfold iblk1
  rw [View.read_apply]
  show V c main_call0_v59 _ = V c main_call0_v59 i
  refine congrArg (V c main_call0_v59) (funext fun a => Fin.ext ?_)
  match a with
  | ⟨0, _⟩ => show win1_4.index t (0 : Fin 2) * 1 + 1 * (y 0).val = (i 0).val; omega
  | ⟨1, _⟩ => show win1_4.index t (1 : Fin 2) * 128 + 1 * (y 1).val = (i 1).val; omega

/-- WHAT POINT `t` WRITES BACK is block `t` of the layer of the arrays the region found: the entry (p, q) of the block
    is the layer's entry (10000·t + p, q), whose two dot products run over row 10000·t + p of the inputs — row p of
    their blocks. -/
theorem flushed_eq (c : Dev nD) (t : Fin cfg1.N) :
    (dat1 V c).flushed 5 t = ((cfg1.win 5).blk t).view.read (Elt Ideal)
      (sageG (V c main_call0_v38) (V c main_call0_v58) (V c main_arg6) (V c main_arg7) (V c main_call0_v59)) := by
  show (cfg1.win 5).cut (grid1.coords t) ((dat1 V c).after 5 t) = _
  rw [after1_5]
  unfold out1_5
  rw [View.canon_unit_zero hz]
  simp only [View.ld_unit_zero (S := S10000x128) hz, View.ld_unit_zero (S := S128x128) hz, View.ld_unit_zero (S := S1x128) hz]
  funext j
  obtain ⟨-, -, -, -, -, -, -, -, -, -, e50, e51, -⟩ := idx_facts t
  have hE0 : ((((cfg1.win 5).blk t).view.emb j) 0).val = 10000 * t.val + (j 0).val := by
    show win1_5.index t (0 : Fin 2) * 10000 + 1 * (j 0).val = _; omega
  have hE1 : ((((cfg1.win 5).blk t).view.emb j) 1).val = (j 1).val := by
    show win1_5.index t (1 : Fin 2) * 128 + 1 * (j 1).val = _; omega
  show k1_pay1 (iblk1 V c 0 t) (iblk1 V c 1 t) (iblk1 V c 2 t) (iblk1 V c 3 t) (iblk1 V c 4 t) j
      = sageG (V c main_call0_v38) (V c main_call0_v58) (V c main_arg6) (V c main_arg7) (V c main_call0_v59) (((cfg1.win 5).blk t).view.emb j)
  refine (pay_apply _ _ _ _ _ j).trans ?_
  unfold sageG sageAt
  refine congrArg₂ max (congrArg₂ (· + ·) (congrArg₂ (· + ·) ?_ ?_) ?_) rfl
  · exact Finset.sum_congr rfl fun k _ => congrArg₂ (· * ·)
      (rows_apply V c t (rowK j k) (rowK (((cfg1.win 5).blk t).view.emb j) k) hE0 rfl).1
      (weights_apply V c t (kCol j k) (kCol (((cfg1.win 5).blk t).view.emb j) k) rfl hE1).1
  · exact Finset.sum_congr rfl fun k _ => congrArg₂ (· * ·)
      (rows_apply V c t (rowK j k) (rowK (((cfg1.win 5).blk t).view.emb j) k) hE0 rfl).2
      (weights_apply V c t (kCol j k) (kCol (((cfg1.win 5).blk t).view.emb j) k) rfl hE1).2
  · exact bias_row_apply V c t (biasCol j) (biasCol (((cfg1.win 5).blk t).view.emb j)) rfl hE1

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_call0_v60).slice (win1_5.rect t)).set ↔ _
  rw [View.set_slice_whole, Rect.mem_set_unit]
  exact Iff.rfl

/-- The five blocks tile the 50000 rows: row `r` is in block `r / 10000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 5 := N_1
  refine ⟨⟨(i 0).val / 10000, by omega⟩, flush1_5 _, ?_⟩
  rw [mem_blk]
  obtain ⟨-, -, -, -, -, -, -, -, -, -, e50, e51, -⟩ := idx_facts ⟨(i 0).val / 10000, by omega⟩
  intro a
  match a with
  | ⟨0, _⟩ =>
    show win1_5.index ⟨(i 0).val / 10000, _⟩ (0 : Fin 2) * 10000 ≤ (i 0).val ∧ (i 0).val < win1_5.index ⟨(i 0).val / 10000, _⟩ (0 : Fin 2) * 10000 + 10000
    rw [e50]; show (i 0).val / 10000 * 10000 ≤ (i 0).val ∧ (i 0).val < (i 0).val / 10000 * 10000 + 10000; omega
  | ⟨1, _⟩ =>
    show win1_5.index ⟨(i 0).val / 10000, _⟩ (1 : Fin 2) * 128 ≤ (i 1).val ∧ (i 1).val < win1_5.index ⟨(i 0).val / 10000, _⟩ (1 : Fin 2) * 128 + 128
    rw [e51]; omega

/-- THE OUTPUT ARRAY after the region: the layer of the arrays the region found. -/
theorem final (c : Dev nD) : (dat1 V c).arrAt 5 cfg1.N
    = sageG (V c main_call0_v38) (V c main_call0_v58) (V c main_arg6) (V c main_arg7) (V c main_call0_v59) :=
  (dat1 V c).arrAt_eq_of_cover 5 _ (fun t _ => flushed_eq V c t) cover

end Cert.KernelIdeal.Sage1

end
-- ==== Proof.Sage2.lean ====
/-
  Kernel region 2 (one GraphSAGE layer over 5 blocks of 10000 rows). Whatever the region finds in its five input
  arrays, its output array ends holding the layer of them, row by row: block `t` of the output is computed from
  block `t` of the node features and of the aggregated messages (rows 10000·t … 10000·t + 9999) and from the whole
  weight matrices and bias, and a row of the layer depends on that row of its inputs only; the five blocks tile
  the 50000 rows.
-/
import proofs.«120171_j13091060318589_2_alg».proof.Proof.Gen.KernelIdeal.Frame
import proofs.«120171_j13091060318589_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Sage2

open Cert.KernelIdeal Cert.KernelIdeal.Gen Cert.Spec
open Idealize.ShloMosaic Idealize.ShloMosaic.TcCoe Idealize.SL.Sem
open Idealize.ShloMosaic.Pipeline (Dat)

local notation "DK" => dot_S10000x128_S128x128_S10000x128_1_0_0_1_n_n

theorem hz : (![0, 0] : Fin 2 → Nat) = fun _ => 0 := funext fun a => by fin_cases a <;> rfl

/-! ## The block's arithmetic at one entry -/

theorem lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block's matrix product into a zero accumulator, at one entry: the dot product of the row with the column. -/
theorem mm_apply (l : FVec Ideal S10000x128 .bf16) (r : FVec Ideal S128x128 .bf16) (j : S10000x128.Idx) :
    FloatOps.matmul (F := Ideal) dot_S10000x128_S128x128_S10000x128_1_0_0_1_n_n none l r (constant (F := Ideal) S10000x128 .f32 0x00000000#32) j
      = ∑ k : Fin 128, l (rowK j k) * r (kCol j k) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = rowK j k := funext fun a => Fin.ext (by
    match a with
    | ⟨0, _⟩ => exact lhs0 _ _
    | ⟨1, _⟩ => exact (dot_S10000x128_S128x128_S10000x128_1_0_0_1_n_n.lhsIdx_val_of_single rfl j _).trans hk)
  have er : dot_S10000x128_S128x128_S10000x128_1_0_0_1_n_n.rhsIdx j ((ValueIdx.contrEquiv1 dot_S10000x128_S128x128_S10000x128_1_0_0_1_n_n 128 rfl rfl).symm k) = kCol j k := funext fun a => Fin.ext (by
    match a with
    | ⟨0, _⟩ => exact (dot_S10000x128_S128x128_S10000x128_1_0_0_1_n_n.rhsIdx_val_of_single rfl j _).trans hk
    | ⟨1, _⟩ => exact rhs1 _ _)
  rw [el, er]

/-- The bias row spread over the block, at one entry: the bias under that entry's column. -/
theorem bias_apply (x4 : FVec Ideal S1x128 .f32) (j : S10000x128.Idx) :
    broadcastTo S10000x128 x4 broadcasts_S1x128_S10000x128 j = x4 (biasCol j) :=
  broadcastTo_apply x4 broadcasts_S1x128_S10000x128 j (biasCol j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- What the body stores, at one entry of the block: the layer's formula on the blocks it loaded (the changes of
    float format and the same-shape casts are identities on the extended reals). -/
theorem pay_apply (x0 x1 : Vec Ideal S10000x128 .bf16) (x2 x3 : Vec Ideal S128x128 .f32) (x4 : Vec Ideal S1x128 .f32) (j : S10000x128.Idx) :
    k2_pay1 x0 x1 x2 x3 x4 j = sageAt x0 x1 x2 x3 x4 j := by
  unfold k2_pay1 sageAt
  simp only [shapeCast_self]
  show max ((FloatOps.matmul (F := Ideal) dot_S10000x128_S128x128_S10000x128_1_0_0_1_n_n none x0 x2 (constant (F := Ideal) S10000x128 .f32 0x00000000#32) j
      + FloatOps.matmul (F := Ideal) dot_S10000x128_S128x128_S10000x128_1_0_0_1_n_n none x1 x3 (constant (F := Ideal) S10000x128 .f32 0x00000000#32) j)
      + broadcastTo S10000x128 x4 broadcasts_S1x128_S10000x128 j) (Ideal.ofBits .f32 0x00000000#32) = _
  rw [mm_apply, mm_apply, bias_apply]

/-! ## The region -/

variable (V : (c : Dev nD) → (b : Ref sig .tc) → Buf (Elt Ideal) ((c : Thread nD τ).loc b))

/-- The printed index maps over the five points: the row-blocked windows sit at block `t`, the whole-array windows at 0. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 5 :=
  (by decide +kernel : ∀ t : Fin grid2.N, _)

/-- Block `t` of a row-blocked window is rows 10000·t … 10000·t + 9999 of its array. -/
theorem rows_apply (c : Dev nD) (t : Fin cfg2.N) (y : S10000x128.Idx) (i : S50000x128.Idx)
    (h0 : (i 0).val = 10000 * t.val + (y 0).val) (h1 : (i 1).val = (y 1).val) :
    (iblk2 V c 0 t : Vec Ideal S10000x128 .bf16) y = (V c main_call0_v60 : S50000x128.Idx → EReal) i
    ∧ (iblk2 V c 1 t : Vec Ideal S10000x128 .bf16) y = (V c main_call0_v80 : S50000x128.Idx → EReal) i := by
  obtain ⟨e00, e01, e10, e11, -⟩ := idx_facts t
  constructor
  · unfold iblk2
    rw [View.read_apply]
    show V c main_call0_v60 _ = V c main_call0_v60 i
    refine congrArg (V c main_call0_v60) (funext fun a => Fin.ext ?_)
    match a with
    | ⟨0, _⟩ => show win2_0.index t (0 : Fin 2) * 10000 + 1 * (y 0).val = (i 0).val; omega
    | ⟨1, _⟩ => show win2_0.index t (1 : Fin 2) * 128 + 1 * (y 1).val = (i 1).val; omega
  · unfold iblk2
    rw [View.read_apply]
    show V c main_call0_v80 _ = V c main_call0_v80 i
    refine congrArg (V c main_call0_v80) (funext fun a => Fin.ext ?_)
    match a with
    | ⟨0, _⟩ => show win2_1.index t (0 : Fin 2) * 10000 + 1 * (y 0).val = (i 0).val; omega
    | ⟨1, _⟩ => show win2_1.index t (1 : Fin 2) * 128 + 1 * (y 1).val = (i 1).val; omega

/-- The weight windows' one block is the whole matrix, at every point. -/
theorem weights_apply (c : Dev nD) (t : Fin cfg2.N) (y i : S128x128.Idx)
    (h0 : (i 0).val = (y 0).val) (h1 : (i 1).val = (y 1).val) :
    (iblk2 V c 2 t : Vec Ideal S128x128 .f32) y = (V c main_arg9 : S128x128.Idx → EReal) i
    ∧ (iblk2 V c 3 t : Vec Ideal S128x128 .f32) y = (V c main_arg10 : S128x128.Idx → EReal) i := by
  obtain ⟨-, -, -, -, e20, e21, e30, e31, -⟩ := idx_facts t
  constructor
  · unfold iblk2
    rw [View.read_apply]
    show V c main_arg9 _ = V c main_arg9 i
    refine congrArg (V c main_arg9) (funext fun a => Fin.ext ?_)
    match a with
    | ⟨0, _⟩ => show win2_2.index t (0 : Fin 2) * 128 + 1 * (y 0).val = (i 0).val; omega
    | ⟨1, _⟩ => show win2_2.index t (1 : Fin 2) * 128 + 1 * (y 1).val = (i 1).val; omega
  · unfold iblk2
    rw [View.read_apply]
    show V c main_arg10 _ = V c main_arg10 i
    refine congrArg (V c main_arg10) (funext fun a => Fin.ext ?_)
    match a with
    | ⟨0, _⟩ => show win2_3.index t (0 : Fin 2) * 128 + 1 * (y 0).val = (i 0).val; omega
    | ⟨1, _⟩ => show win2_3.index t (1 : Fin 2) * 128 + 1 * (y 1).val = (i 1).val; omega

/-- The bias window's one block is the whole bias row. -/
theorem bias_row_apply (c : Dev nD) (t : Fin cfg2.N) (y i : S1x128.Idx)
    (h0 : (i 0).val = (y 0).val) (h1 : (i 1).val = (y 1).val) :
    (iblk2 V c 4 t : Vec Ideal S1x128 .f32) y = (V c main_call0_v81 : S1x128.Idx → EReal) i := by
  obtain ⟨-, -, -, -, -, -, -, -, e40, e41, -⟩ := idx_facts t
  unfold iblk2
  rw [View.read_apply]
  show V c main_call0_v81 _ = V c main_call0_v81 i
  refine congrArg (V c main_call0_v81) (funext fun a => Fin.ext ?_)
  match a with
  | ⟨0, _⟩ => show win2_4.index t (0 : Fin 2) * 1 + 1 * (y 0).val = (i 0).val; omega
  | ⟨1, _⟩ => show win2_4.index t (1 : Fin 2) * 128 + 1 * (y 1).val = (i 1).val; omega

/-- WHAT POINT `t` WRITES BACK is block `t` of the layer of the arrays the region found: the entry (p, q) of the block
    is the layer's entry (10000·t + p, q), whose two dot products run over row 10000·t + p of the inputs — row p of
    their blocks. -/
theorem flushed_eq (c : Dev nD) (t : Fin cfg2.N) :
    (dat2 V c).flushed 5 t = ((cfg2.win 5).blk t).view.read (Elt Ideal)
      (sageG (V c main_call0_v60) (V c main_call0_v80) (V c main_arg9) (V c main_arg10) (V c main_call0_v81)) := by
  show (cfg2.win 5).cut (grid2.coords t) ((dat2 V c).after 5 t) = _
  rw [after2_5]
  unfold out2_5
  rw [View.canon_unit_zero hz]
  simp only [View.ld_unit_zero (S := S10000x128) hz, View.ld_unit_zero (S := S128x128) hz, View.ld_unit_zero (S := S1x128) hz]
  funext j
  obtain ⟨-, -, -, -, -, -, -, -, -, -, e50, e51, -⟩ := idx_facts t
  have hE0 : ((((cfg2.win 5).blk t).view.emb j) 0).val = 10000 * t.val + (j 0).val := by
    show win2_5.index t (0 : Fin 2) * 10000 + 1 * (j 0).val = _; omega
  have hE1 : ((((cfg2.win 5).blk t).view.emb j) 1).val = (j 1).val := by
    show win2_5.index t (1 : Fin 2) * 128 + 1 * (j 1).val = _; omega
  show k2_pay1 (iblk2 V c 0 t) (iblk2 V c 1 t) (iblk2 V c 2 t) (iblk2 V c 3 t) (iblk2 V c 4 t) j
      = sageG (V c main_call0_v60) (V c main_call0_v80) (V c main_arg9) (V c main_arg10) (V c main_call0_v81) (((cfg2.win 5).blk t).view.emb j)
  refine (pay_apply _ _ _ _ _ j).trans ?_
  unfold sageG sageAt
  refine congrArg₂ max (congrArg₂ (· + ·) (congrArg₂ (· + ·) ?_ ?_) ?_) rfl
  · exact Finset.sum_congr rfl fun k _ => congrArg₂ (· * ·)
      (rows_apply V c t (rowK j k) (rowK (((cfg2.win 5).blk t).view.emb j) k) hE0 rfl).1
      (weights_apply V c t (kCol j k) (kCol (((cfg2.win 5).blk t).view.emb j) k) rfl hE1).1
  · exact Finset.sum_congr rfl fun k _ => congrArg₂ (· * ·)
      (rows_apply V c t (rowK j k) (rowK (((cfg2.win 5).blk t).view.emb j) k) hE0 rfl).2
      (weights_apply V c t (kCol j k) (kCol (((cfg2.win 5).blk t).view.emb j) k) rfl hE1).2
  · exact bias_row_apply V c t (biasCol j) (biasCol (((cfg2.win 5).blk t).view.emb j)) rfl hE1

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_call0_v82).slice (win2_5.rect t)).set ↔ _
  rw [View.set_slice_whole, Rect.mem_set_unit]
  exact Iff.rfl

/-- The five blocks tile the 50000 rows: row `r` is in block `r / 10000`. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 5 := N_2
  refine ⟨⟨(i 0).val / 10000, by omega⟩, flush2_5 _, ?_⟩
  rw [mem_blk]
  obtain ⟨-, -, -, -, -, -, -, -, -, -, e50, e51, -⟩ := idx_facts ⟨(i 0).val / 10000, by omega⟩
  intro a
  match a with
  | ⟨0, _⟩ =>
    show win2_5.index ⟨(i 0).val / 10000, _⟩ (0 : Fin 2) * 10000 ≤ (i 0).val ∧ (i 0).val < win2_5.index ⟨(i 0).val / 10000, _⟩ (0 : Fin 2) * 10000 + 10000
    rw [e50]; show (i 0).val / 10000 * 10000 ≤ (i 0).val ∧ (i 0).val < (i 0).val / 10000 * 10000 + 10000; omega
  | ⟨1, _⟩ =>
    show win2_5.index ⟨(i 0).val / 10000, _⟩ (1 : Fin 2) * 128 ≤ (i 1).val ∧ (i 1).val < win2_5.index ⟨(i 0).val / 10000, _⟩ (1 : Fin 2) * 128 + 128
    rw [e51]; omega

/-- THE OUTPUT ARRAY after the region: the layer of the arrays the region found. -/
theorem final (c : Dev nD) : (dat2 V c).arrAt 5 cfg2.N
    = sageG (V c main_call0_v60) (V c main_call0_v80) (V c main_arg9) (V c main_arg10) (V c main_call0_v81) :=
  (dat2 V c).arrAt_eq_of_cover 5 _ (fun t _ => flushed_eq V c t) cover

end Cert.KernelIdeal.Sage2

end
-- ==== Proof.Mlp.lean ====
/-
  The kernel's last region (the head on the pooled graph features): one grid point, every window one block that
  is its whole array. Whatever the region finds in its seven input arrays, the result array ends holding the
  body's arithmetic of them — the three dense layers and the row-wise log-softmax, as the body computes them.
-/
import proofs.«120171_j13091060318589_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Mlp

open Cert.KernelIdeal Cert.KernelIdeal.Gen
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The body's arithmetic of its seven loaded blocks: the shifted logits minus the log of their row sums of exponentials. -/
def mlpK (x0 : Vec Ideal S500x128 .f32) (x1 : Vec Ideal S128x128 .f32) (x2 : Vec Ideal S1x128 .f32) (x3 : Vec Ideal S128x64 .f32)
    (x4 : Vec Ideal S1x64 .f32) (x5 : Vec Ideal S64x10 .f32) (x6 : Vec Ideal S1x10 .f32) : Vec Ideal S500x10 .f32 :=
  k3_pay1 (k3_pay2 x0 x1 x2 x3 x4 x5 x6) (k3_pay3 x0 x1 x2 x3 x4 x5 x6)

variable (V : (c : Dev nD) → (b : Ref sig .tc) → Buf (Elt Ideal) ((c : Thread nD τ).loc b))

/-- The printed index maps at the one point: every window sits at block (0, 0). -/
theorem idx_facts : ∀ t : Fin cfg3.N,
      win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

theorem blk0 (c : Dev nD) (t : Fin cfg3.N) : (iblk3 V c 0 t : S500x128.Idx → EReal) = V c main_call0_v90 := by
  have e := idx_facts t
  funext y
  unfold iblk3
  rw [View.read_apply]
  show V c main_call0_v90 _ = V c main_call0_v90 y
  refine congrArg (V c main_call0_v90) (funext fun a => Fin.ext ?_)
  match a with
  | ⟨0, _⟩ => show win3_0.index t (0 : Fin 2) * 500 + 1 * (y 0).val = (y 0).val; omega
  | ⟨1, _⟩ => show win3_0.index t (1 : Fin 2) * 128 + 1 * (y 1).val = (y 1).val; omega

theorem blk1 (c : Dev nD) (t : Fin cfg3.N) : (iblk3 V c 1 t : S128x128.Idx → EReal) = V c main_arg12 := by
  have e := idx_facts t
  funext y
  unfold iblk3
  rw [View.read_apply]
  show V c main_arg12 _ = V c main_arg12 y
  refine congrArg (V c main_arg12) (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

theorem blk2 (c : Dev nD) (t : Fin cfg3.N) : (iblk3 V c 2 t : S1x128.Idx → EReal) = V c main_call0_v91 := by
  have e := idx_facts t
  funext y
  unfold iblk3
  rw [View.read_apply]
  show V c main_call0_v91 _ = V c main_call0_v91 y
  refine congrArg (V c main_call0_v91) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

theorem blk3 (c : Dev nD) (t : Fin cfg3.N) : (iblk3 V c 3 t : S128x64.Idx → EReal) = V c main_arg14 := by
  have e := idx_facts t
  funext y
  unfold iblk3
  rw [View.read_apply]
  show V c main_arg14 _ = V c main_arg14 y
  refine congrArg (V c main_arg14) (funext fun a => Fin.ext ?_)
  match a with
  | ⟨0, _⟩ => show win3_3.index t (0 : Fin 2) * 128 + 1 * (y 0).val = (y 0).val; omega
  | ⟨1, _⟩ => show win3_3.index t (1 : Fin 2) * 64 + 1 * (y 1).val = (y 1).val; omega

theorem blk4 (c : Dev nD) (t : Fin cfg3.N) : (iblk3 V c 4 t : S1x64.Idx → EReal) = V c main_call0_v92 := by
  have e := idx_facts t
  funext y
  unfold iblk3
  rw [View.read_apply]
  show V c main_call0_v92 _ = V c main_call0_v92 y
  refine congrArg (V c main_call0_v92) (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

theorem blk5 (c : Dev nD) (t : Fin cfg3.N) : (iblk3 V c 5 t : S64x10.Idx → EReal) = V c main_arg16 := by
  have e := idx_facts t
  funext y
  unfold iblk3
  rw [View.read_apply]
  show V c main_arg16 _ = V c main_arg16 y
  refine congrArg (V c main_arg16) (funext fun a => Fin.ext ?_)
  match a with
  | ⟨0, _⟩ => show win3_5.index t (0 : Fin 2) * 64 + 1 * (y 0).val = (y 0).val; omega
  | ⟨1, _⟩ => show win3_5.index t (1 : Fin 2) * 10 + 1 * (y 1).val = (y 1).val; omega

theorem blk6 (c : Dev nD) (t : Fin cfg3.N) : (iblk3 V c 6 t : S1x10.Idx → EReal) = V c main_call0_v93 := by
  have e := idx_facts t
  funext y
  unfold iblk3
  rw [View.read_apply]
  show V c main_call0_v93 _ = V c main_call0_v93 y
  refine congrArg (V c main_call0_v93) (funext fun a => Fin.ext ?_)
  match a with
  | ⟨0, _⟩ => show win3_6.index t (0 : Fin 2) * 1 + 1 * (y 0).val = (y 0).val; omega
  | ⟨1, _⟩ => show win3_6.index t (1 : Fin 2) * 10 + 1 * (y 1).val = (y 1).val; omega

/-- WHAT THE POINT WRITES BACK is the body's arithmetic of the arrays the region found. -/
theorem flushed_eq (c : Dev nD) (t : Fin cfg3.N) :
    (dat3 V c).flushed 7 t = ((cfg3.win 7).blk t).view.read (Elt Ideal)
      (mlpK (V c main_call0_v90) (V c main_arg12) (V c main_call0_v91) (V c main_arg14) (V c main_call0_v92) (V c main_arg16) (V c main_call0_v93)) := by
  show (cfg3.win 7).cut (grid3.coords t) ((dat3 V c).after 7 t) = _
  rw [after3_7]
  unfold out3_7
  rw [View.canon_unit_zero hz]
  simp only [View.ld_unit_zero (S := S500x128) hz, View.ld_unit_zero (S := S128x128) hz, View.ld_unit_zero (S := S1x128) hz,
    View.ld_unit_zero (S := S128x64) hz, View.ld_unit_zero (S := S1x64) hz, View.ld_unit_zero (S := S64x10) hz, View.ld_unit_zero (S := S1x10) hz]
  have e := idx_facts t
  funext j
  have hE : ((cfg3.win 7).blk t).view.emb j = j := funext fun a => Fin.ext (by
    match a with
    | ⟨0, _⟩ => show win3_7.index t (0 : Fin 2) * 500 + 1 * (j 0).val = (j 0).val; omega
    | ⟨1, _⟩ => show win3_7.index t (1 : Fin 2) * 10 + 1 * (j 1).val = (j 1).val; omega)
  show k3_pay1 (k3_pay2 (iblk3 V c 0 t) (iblk3 V c 1 t) (iblk3 V c 2 t) (iblk3 V c 3 t) (iblk3 V c 4 t) (iblk3 V c 5 t) (iblk3 V c 6 t))
        (k3_pay3 (iblk3 V c 0 t) (iblk3 V c 1 t) (iblk3 V c 2 t) (iblk3 V c 3 t) (iblk3 V c 4 t) (iblk3 V c 5 t) (iblk3 V c 6 t)) j
      = mlpK (V c main_call0_v90) (V c main_arg12) (V c main_call0_v91) (V c main_arg14) (V c main_call0_v92) (V c main_arg16) (V c main_call0_v93) (((cfg3.win 7).blk t).view.emb j)
  rw [hE]
  unfold mlpK
  exact congrFun (congrArg₂ k3_pay1
    (by rw [show (iblk3 V c 0 t : S500x128.Idx → EReal) = _ from blk0 V c t, show (iblk3 V c 1 t : S128x128.Idx → EReal) = _ from blk1 V c t,
          show (iblk3 V c 2 t : S1x128.Idx → EReal) = _ from blk2 V c t, show (iblk3 V c 3 t : S128x64.Idx → EReal) = _ from blk3 V c t,
          show (iblk3 V c 4 t : S1x64.Idx → EReal) = _ from blk4 V c t, show (iblk3 V c 5 t : S64x10.Idx → EReal) = _ from blk5 V c t,
          show (iblk3 V c 6 t : S1x10.Idx → EReal) = _ from blk6 V c t])
    (by rw [show (iblk3 V c 0 t : S500x128.Idx → EReal) = _ from blk0 V c t, show (iblk3 V c 1 t : S128x128.Idx → EReal) = _ from blk1 V c t,
          show (iblk3 V c 2 t : S1x128.Idx → EReal) = _ from blk2 V c t, show (iblk3 V c 3 t : S128x64.Idx → EReal) = _ from blk3 V c t,
          show (iblk3 V c 4 t : S1x64.Idx → EReal) = _ from blk4 V c t, show (iblk3 V c 5 t : S64x10.Idx → EReal) = _ from blk5 V c t,
          show (iblk3 V c 6 t : S1x10.Idx → EReal) = _ from blk6 V c t])) j

theorem mem_blk (t : Fin cfg3.N) (i : S500x10.Idx) :
    i ∈ ((cfg3.win 7).blk t).view.set ↔ ∀ a : Fin 2, win3_7.index t a * S500x10.size a ≤ (i a).val ∧ (i a).val < win3_7.index t a * S500x10.size a + S500x10.size a := by
  show i ∈ ((View.whole main_v0).slice (win3_7.rect t)).set ↔ _
  rw [View.set_slice_whole, Rect.mem_set_unit]
  exact Iff.rfl

/-- The one block is the whole result array. -/
theorem cover (i : S500x10.Idx) : ∃ t : Fin cfg3.N, (cfg3.win 7).flush t = true ∧ i ∈ ((cfg3.win 7).blk t).view.set := by
  have hi0 : (i 0).val < 500 := (i 0).isLt
  have hi1 : (i 1).val < 10 := (i 1).isLt
  refine ⟨t3_0, flush3_7 _, ?_⟩
  rw [mem_blk]
  have e := idx_facts t3_0
  intro a
  match a with
  | ⟨0, _⟩ => show win3_7.index t3_0 (0 : Fin 2) * 500 ≤ (i 0).val ∧ (i 0).val < win3_7.index t3_0 (0 : Fin 2) * 500 + 500; omega
  | ⟨1, _⟩ => show win3_7.index t3_0 (1 : Fin 2) * 10 ≤ (i 1).val ∧ (i 1).val < win3_7.index t3_0 (1 : Fin 2) * 10 + 10; omega

/-- THE RESULT ARRAY after the region. -/
theorem final (c : Dev nD) : (dat3 V c).arrAt 7 cfg3.N
    = mlpK (V c main_call0_v90) (V c main_arg12) (V c main_call0_v91) (V c main_arg14) (V c main_call0_v92) (V c main_arg16) (V c main_call0_v93) :=
  (dat3 V c).arrAt_eq_of_cover 7 _ (fun t _ => flushed_eq V c t) cover

end Cert.KernelIdeal.Mlp

end
-- ==== Proof.RefFns.lean ====
/-
  The reference program's stages as functions of ARBITRARY operands (the generated stage functions take the
  program's arguments; here the node features `h` going into a layer, and the pooled features going into the
  head, are parameters), so that the same function can be applied to what the kernel's regions leave.

  `aggR`  : mean aggregation over incoming edges — gather the source rows, scatter-add them at the destination
            rows, scale each row by 1 / max(in-degree, 1).
  `poolR` : mean pooling over graphs — scatter-add the node rows at their graph's row, scale by 1 / max(count, 1).
  `sageR` : one layer, `max (h·Wl + agg·Wr + b) 0`.
  `mlpR`  : the head — two dense layers clamped at zero, a third dense layer, then log-softmax along the rows
            (shift by the row maximum, subtract the log of the row sum of exponentials).

  The program repeats the same constants and the same edge- and batch-derived arrays under new names in every
  layer; the short lemmas below identify each repetition with its first occurrence.
-/
import proofs.«120171_j13091060318589_2_alg».proof.Proof.Gen.ReferenceIdeal.Read

noncomputable section

namespace Cert.ReferenceIdeal.Fns

open Cert.ReferenceIdeal Cert.ReferenceIdeal.Gen Cert.ReferenceIdeal.Read Idealize.ShloMosaic Idealize.ShloMosaic.TcCoe

variable {F : FTy → Type} [FloatOps F]

/-- The destination nodes as the scatter's index column. -/
def dstColR (dst : (⟨S800000, .i32⟩ : BufTy).Contents (Elt F)) : (⟨S800000x1, .i32⟩ : BufTy).Contents (Elt F) :=
  broadcastInDim S800000x1 ![0] bcast_S800000_S800000x1_0 dst

/-- The source nodes as the gather's index column (a negative index counted from the end, as array indexing does). -/
def idxColR (src : (⟨S800000, .i32⟩ : BufTy).Contents (Elt F)) : (⟨S800000x1, .i32⟩ : BufTy).Contents (Elt F) :=
  broadcastInDim S800000x1 ![0] bcast_S800000_S800000x1_0
    (select (cmpi .slt src (val_main_v22 (F := F))) (addi src (val_main_v24 (F := F))) src)

/-- The inverse in-degree column spread over the 128 features. -/
def dinvBcR (dinv : (⟨S50000x1, .f32⟩ : BufTy).Contents (Elt F)) : (⟨S50000x128, .f32⟩ : BufTy).Contents (Elt F) :=
  broadcastInDim S50000x128 ![0, 1] bcast_S50000x1_S50000x128_0_1 dinv

/-- Rows of `h` gathered at an index column. -/
def gatherR (h : (⟨S50000x128, .f32⟩ : BufTy).Contents (Elt F)) (idx : (⟨S800000x1, .i32⟩ : BufTy).Contents (Elt F)) : (⟨S800000x128, .f32⟩ : BufTy).Contents (Elt F) :=
  Host.gather gather_S50000x128_S800000x1_S800000x128_1_0_n_n_0_1_1128 h idx

/-- Edge rows added into node rows. -/
def scatterNodesR (z : (⟨S50000x128, .f32⟩ : BufTy).Contents (Elt F)) (idx : (⟨S800000x1, .i32⟩ : BufTy).Contents (Elt F)) (u : (⟨S800000x128, .f32⟩ : BufTy).Contents (Elt F)) : (⟨S50000x128, .f32⟩ : BufTy).Contents (Elt F) :=
  Host.scatterAdd scatter_S50000x128_S800000x1_S800000x128_1_0_0_1 z idx u

/-- Mean aggregation, its three edge-derived operands explicit: the inverse in-degree column, the source and the
    destination node of each edge. -/
def aggOf (dinv : (⟨S50000x1, .f32⟩ : BufTy).Contents (Elt F)) (src dst : (⟨S800000, .i32⟩ : BufTy).Contents (Elt F)) (h : (⟨S50000x128, .f32⟩ : BufTy).Contents (Elt F)) : (⟨S50000x128, .f32⟩ : BufTy).Contents (Elt F) :=
  mulf (scatterNodesR (val_main_v29 (F := F)) (dstColR dst) (gatherR h (idxColR src))) (dinvBcR dinv)

def aggR (x1 : (⟨S2x800000, .i32⟩ : BufTy).Contents (Elt F)) (h : (⟨S50000x128, .f32⟩ : BufTy).Contents (Elt F)) : (⟨S50000x128, .f32⟩ : BufTy).Contents (Elt F) :=
  aggOf (val_main_v12 (F := F) x1) (val_main_v1 (F := F) x1) (val_main_v3 (F := F) x1) h

/-- How many edges arrive at each node. -/
def countNodesR (dstcol : (⟨S800000x1, .i32⟩ : BufTy).Contents (Elt F)) : (⟨S50000, .f32⟩ : BufTy).Contents (Elt F) :=
  Host.scatterAdd scatter_S50000_S800000x1_S800000_n_0_0_1 (val_main_v5 (F := F)) dstcol (val_main_v4 (F := F))

/-- 1 / max(count, 1) per node, as a column. -/
def invNodesR (cnt : (⟨S50000, .f32⟩ : BufTy).Contents (Elt F)) : (⟨S50000x1, .f32⟩ : BufTy).Contents (Elt F) :=
  broadcastInDim S50000x1 ![0] bcast_S50000_S50000x1_0 (Host.divf (val_main_v10 (F := F)) (maximumf cnt (val_main_v8 (F := F))))

theorem dinvR_eq (x1 : (⟨S2x800000, .i32⟩ : BufTy).Contents (Elt F)) : val_main_v12 (F := F) x1 = invNodesR (countNodesR (dstColR (val_main_v3 (F := F) x1))) := by
  unfold val_main_v12 val_main_v11 val_main_v9 val_main_v7 val_main_v6 invNodesR countNodesR dstColR
  rfl

/-- How many nodes each graph has. -/
def countGraphsR (batchcol : (⟨S50000x1, .i32⟩ : BufTy).Contents (Elt F)) : (⟨S500, .f32⟩ : BufTy).Contents (Elt F) :=
  Host.scatterAdd scatter_S500_S50000x1_S50000_n_0_0_1 (val_main_v14 (F := F)) batchcol (val_main_v13 (F := F))

/-- 1 / max(count, 1) per graph, as a column. -/
def invGraphsR (cnt : (⟨S500, .f32⟩ : BufTy).Contents (Elt F)) : (⟨S500x1, .f32⟩ : BufTy).Contents (Elt F) :=
  broadcastInDim S500x1 ![0] bcast_S500_S500x1_0 (Host.divf (val_main_v19 (F := F)) (maximumf cnt (val_main_v17 (F := F))))

/-- The graph of each node as the scatter's index column. -/
def batchColR (batch : (⟨S50000, .i32⟩ : BufTy).Contents (Elt F)) : (⟨S50000x1, .i32⟩ : BufTy).Contents (Elt F) :=
  broadcastInDim S50000x1 ![0] bcast_S50000_S50000x1_0 batch

theorem cinvR_eq (x2 : (⟨S50000, .i32⟩ : BufTy).Contents (Elt F)) : val_main_v21 (F := F) x2 = invGraphsR (countGraphsR (batchColR x2)) := by
  unfold val_main_v21 val_main_v20 val_main_v18 val_main_v16 val_main_v15 invGraphsR countGraphsR batchColR
  rfl

/-- The inverse graph-size column spread over the 128 features. -/
def cinvBcR (cinv : (⟨S500x1, .f32⟩ : BufTy).Contents (Elt F)) : (⟨S500x128, .f32⟩ : BufTy).Contents (Elt F) :=
  broadcastInDim S500x128 ![0, 1] bcast_S500x1_S500x128_0_1 cinv

/-- Node rows added into graph rows. -/
def scatterGraphsR (z : (⟨S500x128, .f32⟩ : BufTy).Contents (Elt F)) (idx : (⟨S50000x1, .i32⟩ : BufTy).Contents (Elt F)) (u : (⟨S50000x128, .f32⟩ : BufTy).Contents (Elt F)) : (⟨S500x128, .f32⟩ : BufTy).Contents (Elt F) :=
  Host.scatterAdd scatter_S500x128_S50000x1_S50000x128_1_0_0_1 z idx u

/-- Mean pooling, the inverse graph-size column and the graph of each node explicit. -/
def poolOf (cinv : (⟨S500x1, .f32⟩ : BufTy).Contents (Elt F)) (batch : (⟨S50000, .i32⟩ : BufTy).Contents (Elt F)) (h : (⟨S50000x128, .f32⟩ : BufTy).Contents (Elt F)) : (⟨S500x128, .f32⟩ : BufTy).Contents (Elt F) :=
  mulf (scatterGraphsR (val_main_v41 (F := F)) (batchColR batch) h) (cinvBcR cinv)

def poolR (x2 : (⟨S50000, .i32⟩ : BufTy).Contents (Elt F)) (h : (⟨S50000x128, .f32⟩ : BufTy).Contents (Elt F)) : (⟨S500x128, .f32⟩ : BufTy).Contents (Elt F) :=
  poolOf (val_main_v21 (F := F) x2) x2 h

def sageR (h agg : (⟨S50000x128, .f32⟩ : BufTy).Contents (Elt F)) (wl wr : (⟨S128x128, .f32⟩ : BufTy).Contents (Elt F)) (b : (⟨S128, .f32⟩ : BufTy).Contents (Elt F)) : (⟨S50000x128, .f32⟩ : BufTy).Contents (Elt F) :=
  maximumf (addf (addf (Host.dotGeneral dot_S50000x128_S128x128_S50000x128_1_0_0_1_n_n none h wl)
      (Host.dotGeneral dot_S50000x128_S128x128_S50000x128_1_0_0_1_n_n none agg wr)) (val_main_v38 (F := F) b))
    (val_main_call0_v0 (F := F))

/-- Each row's maximum, spread back over the row. -/
def maxColR (z : (⟨S500x10, .f32⟩ : BufTy).Contents (Elt F)) : (⟨S500x10, .f32⟩ : BufTy).Contents (Elt F) :=
  broadcastInDim S500x10 ![0, 1] bcast_S500x1_S500x10_0_1 (broadcastInDim S500x1 ![0] bcast_S500_S500x1_0
    (maximumf (val_main_call5_v1 (F := F)) (Host.reduce FloatOps.maximumf z (val_main_call5_cst (F := F)) reducesTo_S500x10_S500_d1 h_S_)))

/-- A row shifted by its maximum. -/
def shiftR (z : (⟨S500x10, .f32⟩ : BufTy).Contents (Elt F)) : (⟨S500x10, .f32⟩ : BufTy).Contents (Elt F) :=
  subf z (maxColR z)

/-- The log of each row's sum of exponentials, spread back over the row. -/
def lseColR (s : (⟨S500x10, .f32⟩ : BufTy).Contents (Elt F)) : (⟨S500x10, .f32⟩ : BufTy).Contents (Elt F) :=
  broadcastInDim S500x10 ![0, 1] bcast_S500x1_S500x10_0_1 (Host.log (broadcastInDim S500x1 ![0] bcast_S500_S500x1_0
    (Host.reduceAdd (Host.exp s) (val_main_call5_cst_1 (F := F)) reducesTo_S500x10_S500_d1 h_S_)))

def logSoftmaxR (z : (⟨S500x10, .f32⟩ : BufTy).Contents (Elt F)) : (⟨S500x10, .f32⟩ : BufTy).Contents (Elt F) :=
  subf (shiftR z) (lseColR (shiftR z))

def dense1 (g : (⟨S500x128, .f32⟩ : BufTy).Contents (Elt F)) (w : (⟨S128x128, .f32⟩ : BufTy).Contents (Elt F)) (b : (⟨S128, .f32⟩ : BufTy).Contents (Elt F)) : (⟨S500x128, .f32⟩ : BufTy).Contents (Elt F) :=
  maximumf (addf (Host.dotGeneral dot_S500x128_S128x128_S500x128_1_0_0_1_n_n none g w) (val_main_v98 (F := F) b)) (val_main_call3_v0 (F := F))

def dense2 (g : (⟨S500x128, .f32⟩ : BufTy).Contents (Elt F)) (w : (⟨S128x64, .f32⟩ : BufTy).Contents (Elt F)) (b : (⟨S64, .f32⟩ : BufTy).Contents (Elt F)) : (⟨S500x64, .f32⟩ : BufTy).Contents (Elt F) :=
  maximumf (addf (Host.dotGeneral dot_S500x128_S128x64_S500x64_1_0_0_1_n_n none g w) (val_main_v103 (F := F) b)) (val_main_call4_v0 (F := F))

def dense3 (g : (⟨S500x64, .f32⟩ : BufTy).Contents (Elt F)) (w : (⟨S64x10, .f32⟩ : BufTy).Contents (Elt F)) (b : (⟨S10, .f32⟩ : BufTy).Contents (Elt F)) : (⟨S500x10, .f32⟩ : BufTy).Contents (Elt F) :=
  addf (Host.dotGeneral dot_S500x64_S64x10_S500x10_1_0_0_1_n_n none g w) (val_main_v108 (F := F) b)

def mlpR (g : (⟨S500x128, .f32⟩ : BufTy).Contents (Elt F)) (w1 : (⟨S128x128, .f32⟩ : BufTy).Contents (Elt F)) (b1 : (⟨S128, .f32⟩ : BufTy).Contents (Elt F)) (w2 : (⟨S128x64, .f32⟩ : BufTy).Contents (Elt F)) (b2 : (⟨S64, .f32⟩ : BufTy).Contents (Elt F))
    (w3 : (⟨S64x10, .f32⟩ : BufTy).Contents (Elt F)) (b3 : (⟨S10, .f32⟩ : BufTy).Contents (Elt F)) : (⟨S500x10, .f32⟩ : BufTy).Contents (Elt F) :=
  logSoftmaxR (dense3 (dense2 (dense1 g w1 b1) w2 b2) w3 b3)

/-! ## The repeated constants and index arrays -/

theorem z53 : val_main_v53 (F := F) = val_main_v29 (F := F) := rfl
theorem z77 : val_main_v77 (F := F) = val_main_v29 (F := F) := rfl
theorem d54 (x1 : (⟨S2x800000, .i32⟩ : BufTy).Contents (Elt F)) : val_main_v54 (F := F) x1 = broadcastInDim S800000x1 ![0] bcast_S800000_S800000x1_0 (val_main_v3 (F := F) x1) := rfl
theorem d78 (x1 : (⟨S2x800000, .i32⟩ : BufTy).Contents (Elt F)) : val_main_v78 (F := F) x1 = broadcastInDim S800000x1 ![0] bcast_S800000_S800000x1_0 (val_main_v3 (F := F) x1) := rfl
theorem d30 (x1 : (⟨S2x800000, .i32⟩ : BufTy).Contents (Elt F)) : val_main_v30 (F := F) x1 = broadcastInDim S800000x1 ![0] bcast_S800000_S800000x1_0 (val_main_v3 (F := F) x1) := rfl
theorem i27 (x1 : (⟨S2x800000, .i32⟩ : BufTy).Contents (Elt F)) : val_main_v27 (F := F) x1 = broadcastInDim S800000x1 ![0] bcast_S800000_S800000x1_0
    (select (cmpi .slt (val_main_v1 (F := F) x1) (val_main_v22 (F := F))) (addi (val_main_v1 (F := F) x1) (val_main_v24 (F := F))) (val_main_v1 (F := F) x1)) := rfl
theorem i51 (x1 : (⟨S2x800000, .i32⟩ : BufTy).Contents (Elt F)) : val_main_v51 (F := F) x1 = broadcastInDim S800000x1 ![0] bcast_S800000_S800000x1_0
    (select (cmpi .slt (val_main_v1 (F := F) x1) (val_main_v22 (F := F))) (addi (val_main_v1 (F := F) x1) (val_main_v24 (F := F))) (val_main_v1 (F := F) x1)) := rfl
theorem i75 (x1 : (⟨S2x800000, .i32⟩ : BufTy).Contents (Elt F)) : val_main_v75 (F := F) x1 = broadcastInDim S800000x1 ![0] bcast_S800000_S800000x1_0
    (select (cmpi .slt (val_main_v1 (F := F) x1) (val_main_v22 (F := F))) (addi (val_main_v1 (F := F) x1) (val_main_v24 (F := F))) (val_main_v1 (F := F) x1)) := rfl
theorem s32 (x1 : (⟨S2x800000, .i32⟩ : BufTy).Contents (Elt F)) : val_main_v32 (F := F) x1 = broadcastInDim S50000x128 ![0, 1] bcast_S50000x1_S50000x128_0_1 (val_main_v12 (F := F) x1) := rfl
theorem s56 (x1 : (⟨S2x800000, .i32⟩ : BufTy).Contents (Elt F)) : val_main_v56 (F := F) x1 = broadcastInDim S50000x128 ![0, 1] bcast_S50000x1_S50000x128_0_1 (val_main_v12 (F := F) x1) := rfl
theorem s80 (x1 : (⟨S2x800000, .i32⟩ : BufTy).Contents (Elt F)) : val_main_v80 (F := F) x1 = broadcastInDim S50000x128 ![0, 1] bcast_S50000x1_S50000x128_0_1 (val_main_v12 (F := F) x1) := rfl
theorem r1 : val_main_call1_v0 (F := F) = val_main_call0_v0 (F := F) := rfl
theorem r2 : val_main_call2_v0 (F := F) = val_main_call0_v0 (F := F) := rfl
theorem b62 (b : (⟨S128, .f32⟩ : BufTy).Contents (Elt F)) : val_main_v62 (F := F) b = val_main_v38 (F := F) b := rfl
theorem b86 (b : (⟨S128, .f32⟩ : BufTy).Contents (Elt F)) : val_main_v86 (F := F) b = val_main_v38 (F := F) b := rfl
theorem p65 : val_main_v65 (F := F) = val_main_v41 (F := F) := rfl
theorem p89 : val_main_v89 (F := F) = val_main_v41 (F := F) := rfl
theorem q42 (x2 : (⟨S50000, .i32⟩ : BufTy).Contents (Elt F)) : val_main_v42 (F := F) x2 = broadcastInDim S50000x1 ![0] bcast_S50000_S50000x1_0 x2 := rfl
theorem q66 (x2 : (⟨S50000, .i32⟩ : BufTy).Contents (Elt F)) : val_main_v66 (F := F) x2 = broadcastInDim S50000x1 ![0] bcast_S50000_S50000x1_0 x2 := rfl
theorem q90 (x2 : (⟨S50000, .i32⟩ : BufTy).Contents (Elt F)) : val_main_v90 (F := F) x2 = broadcastInDim S50000x1 ![0] bcast_S50000_S50000x1_0 x2 := rfl
theorem c44 (x2 : (⟨S50000, .i32⟩ : BufTy).Contents (Elt F)) : val_main_v44 (F := F) x2 = broadcastInDim S500x128 ![0, 1] bcast_S500x1_S500x128_0_1 (val_main_v21 (F := F) x2) := rfl
theorem c68 (x2 : (⟨S50000, .i32⟩ : BufTy).Contents (Elt F)) : val_main_v68 (F := F) x2 = broadcastInDim S500x128 ![0, 1] bcast_S500x1_S500x128_0_1 (val_main_v21 (F := F) x2) := rfl
theorem c92 (x2 : (⟨S50000, .i32⟩ : BufTy).Contents (Elt F)) : val_main_v92 (F := F) x2 = broadcastInDim S500x128 ![0, 1] bcast_S500x1_S500x128_0_1 (val_main_v21 (F := F) x2) := rfl

/-! ## The generated stage functions are these -/

theorem agg1_eq (x0 : (⟨S50000x128, .f32⟩ : BufTy).Contents (Elt F)) (x1 : (⟨S2x800000, .i32⟩ : BufTy).Contents (Elt F)) : val_main_v33 (F := F) x0 x1 = aggR x1 x0 := by
  unfold val_main_v33 val_main_v31 val_main_v28 aggR aggOf scatterNodesR dstColR gatherR idxColR dinvBcR
  rw [d30, i27, s32]

theorem h1_eq (x0 : (⟨S50000x128, .f32⟩ : BufTy).Contents (Elt F)) (x1 : (⟨S2x800000, .i32⟩ : BufTy).Contents (Elt F)) (x3 x4 : (⟨S128x128, .f32⟩ : BufTy).Contents (Elt F)) (x5 : (⟨S128, .f32⟩ : BufTy).Contents (Elt F)) : val_main_v40 (F := F) x0 x1 x3 x4 x5 = sageR x0 (aggR x1 x0) x3 x4 x5 := by
  unfold val_main_v40 val_main_v39 val_main_v36 val_main_v34 val_main_v35 sageR
  rw [agg1_eq]

theorem agg2_eq (x0 : (⟨S50000x128, .f32⟩ : BufTy).Contents (Elt F)) (x1 : (⟨S2x800000, .i32⟩ : BufTy).Contents (Elt F)) (x3 x4 : (⟨S128x128, .f32⟩ : BufTy).Contents (Elt F)) (x5 : (⟨S128, .f32⟩ : BufTy).Contents (Elt F)) : val_main_v57 (F := F) x0 x1 x3 x4 x5 = aggR x1 (val_main_v40 (F := F) x0 x1 x3 x4 x5) := by
  unfold val_main_v57 val_main_v55 val_main_v52 aggR aggOf scatterNodesR dstColR gatherR idxColR dinvBcR
  rw [z53, d54, i51, s56]

theorem h2_eq (x0 : (⟨S50000x128, .f32⟩ : BufTy).Contents (Elt F)) (x1 : (⟨S2x800000, .i32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) : val_main_v64 (F := F) x0 x1 x3 x4 x5 x6 x7 x8 = sageR (val_main_v40 (F := F) x0 x1 x3 x4 x5) (aggR x1 (val_main_v40 (F := F) x0 x1 x3 x4 x5)) x6 x7 x8 := by
  unfold val_main_v64 val_main_v63 val_main_v60 val_main_v58 val_main_v59 sageR
  rw [agg2_eq, b62, r1]

theorem agg3_eq (x0 : (⟨S50000x128, .f32⟩ : BufTy).Contents (Elt F)) (x1 : (⟨S2x800000, .i32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) : val_main_v81 (F := F) x0 x1 x3 x4 x5 x6 x7 x8 = aggR x1 (val_main_v64 (F := F) x0 x1 x3 x4 x5 x6 x7 x8) := by
  unfold val_main_v81 val_main_v79 val_main_v76 aggR aggOf scatterNodesR dstColR gatherR idxColR dinvBcR
  rw [z77, d78, i75, s80]

theorem h3_eq (x0 : (⟨S50000x128, .f32⟩ : BufTy).Contents (Elt F)) (x1 : (⟨S2x800000, .i32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) (x9 x10 : (⟨S128x128, .f32⟩ : BufTy).Contents (Elt F)) (x11 : (⟨S128, .f32⟩ : BufTy).Contents (Elt F)) : val_main_v88 (F := F) x0 x1 x3 x4 x5 x6 x7 x8 x9 x10 x11 = sageR (val_main_v64 (F := F) x0 x1 x3 x4 x5 x6 x7 x8) (aggR x1 (val_main_v64 (F := F) x0 x1 x3 x4 x5 x6 x7 x8)) x9 x10 x11 := by
  unfold val_main_v88 val_main_v87 val_main_v84 val_main_v82 val_main_v83 sageR
  rw [agg3_eq, b86, r2]

theorem pooled_eq (x0 : (⟨S50000x128, .f32⟩ : BufTy).Contents (Elt F)) (x1 : (⟨S2x800000, .i32⟩ : BufTy).Contents (Elt F)) (x2 : (⟨S50000, .i32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) (x9 x10 : (⟨S128x128, .f32⟩ : BufTy).Contents (Elt F)) (x11 : (⟨S128, .f32⟩ : BufTy).Contents (Elt F)) :
    val_main_v95 (F := F) x0 x1 x2 x3 x4 x5 x6 x7 x8 x9 x10 x11
      = addf (addf (poolR x2 (val_main_v40 (F := F) x0 x1 x3 x4 x5)) (poolR x2 (val_main_v64 (F := F) x0 x1 x3 x4 x5 x6 x7 x8))) (poolR x2 (val_main_v88 (F := F) x0 x1 x3 x4 x5 x6 x7 x8 x9 x10 x11)) := by
  unfold val_main_v95 val_main_v94 val_main_v45 val_main_v43 val_main_v69 val_main_v67 val_main_v93 val_main_v91 poolR poolOf scatterGraphsR batchColR cinvBcR
  rw [q42, c44, p65, q66, c68, p89, q90, c92]

theorem out_eq (x0 : (⟨S50000x128, .f32⟩ : BufTy).Contents (Elt F)) (x1 : (⟨S2x800000, .i32⟩ : BufTy).Contents (Elt F)) (x2 : (⟨S50000, .i32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) (x9 x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x64, .f32⟩ : BufTy).Contents (Elt F)) (x15 : (⟨S64, .f32⟩ : BufTy).Contents (Elt F)) (x16 : (⟨S64x10, .f32⟩ : BufTy).Contents (Elt F)) (x17 : (⟨S10, .f32⟩ : BufTy).Contents (Elt F)) :
    val_main_v110 (F := F) x0 x1 x2 x3 x4 x5 x6 x7 x8 x9 x10 x11 x12 x13 x14 x15 x16 x17
      = mlpR (val_main_v95 (F := F) x0 x1 x2 x3 x4 x5 x6 x7 x8 x9 x10 x11) x12 x13 x14 x15 x16 x17 := by
  unfold val_main_v110 val_main_call5_v10 val_main_call5_v9 val_main_call5_v8 val_main_call5_v7 val_main_call5_v6 val_main_call5_v5
    val_main_call5_v4 val_main_call5_v3 val_main_call5_v2 val_main_call5_v0 val_main_v109 val_main_v106 val_main_v105 val_main_v104
    val_main_v101 val_main_v100 val_main_v99 val_main_v96 mlpR logSoftmaxR lseColR shiftR maxColR dense3 dense2 dense1
  rfl

end Cert.ReferenceIdeal.Fns

end
-- ==== Proof.MlpBridge.lean ====
/-
  The head, kernel against reference, on the extended reals. The kernel's body and the reference apply the same
  chain to the pooled features: three dense layers (a matrix product into a zero accumulator IS the host's
  `dot_general` — the same sum over the contraction index; the bias kept as a row and spread over the rows IS the
  bias broadcast; the changes of float format are identities), then the row-wise log-softmax: the row maximum (the
  reference takes one more maximum with −∞, the fold's own starting value, which changes nothing), the shift, and
  the log of the row's sum of exponentials (the host's sum starts from the zero word).
-/
import proofs.«120171_j13091060318589_2_alg».proof.Proof.Mlp
import proofs.«120171_j13091060318589_2_alg».proof.Proof.RefFns
import Idealize.ShloMosaic.PureOps.Ideal.Laws
import Idealize.ShloMosaic.Lib.ValueLayout
import Idealize.ShloMosaic.Lib.Pipeline.Value

set_option maxRecDepth 16384

noncomputable section

namespace Cert.KernelIdeal.MlpBridge

open Cert.KernelIdeal Cert.KernelIdeal.Gen Cert.KernelIdeal.Mlp
open Cert.ReferenceIdeal.Fns Cert.ReferenceIdeal.Read
open Idealize.ShloMosaic Idealize.ShloMosaic.TcCoe Idealize.ShloMosaic.ValueIdx

/-! ## Dense layers -/

/-- A matrix product into the zero accumulator is the host's product: the same sum over the contraction index. -/
theorem mm0_eq_dot {sl sr so : Shape} {φ₁ φ₂ : FTy} (d : DotDims sl sr so) (l : FVec Ideal sl φ₁) (r : FVec Ideal sr φ₂) :
    FloatOps.matmul (F := Ideal) d none l r (constant (F := Ideal) so .f32 0x00000000#32)
      = FloatOps.dotGeneral (F := Ideal) d none .single l r := by
  funext j
  rw [Ideal.matmul_constant_zero_apply, Ideal.dotGeneral_apply]

/-- A bias cast to a 1 × n row and spread over `a` rows reads, at any entry, the bias under the entry's column. -/
theorem biasRow_apply {a n : Nat} (b : (⟨1, ![n]⟩ : Shape).Idx → EReal) (hc : (⟨1, ![n]⟩ : Shape).ShapeCasts ⟨2, ![1, n]⟩)
    (hb : (⟨2, ![1, n]⟩ : Shape).Broadcasts ⟨2, ![a, n]⟩) (i : (⟨2, ![a, n]⟩ : Shape).Idx) :
    broadcastTo ⟨2, ![a, n]⟩ (shapeCast ⟨2, ![1, n]⟩ b hc) hb i = b (ix1 (i 1)) := by
  obtain ⟨p, q, rfl⟩ : ∃ (p : Fin a) (q : Fin n), i = ix2 p q := ⟨i 0, i 1, eq_ix2 i⟩
  rw [broadcastTo_1b_ab_apply, shapeCast_a_1a_apply]
  rfl

theorem bias98 (b : (⟨S128, .f32⟩ : BufTy).Contents (Elt Ideal)) (hc : S128.ShapeCasts S1x128) :
    broadcastTo S500x128 (shapeCast S1x128 b hc) broadcasts_S1x128_S500x128 = val_main_v98 (F := Ideal) b := by
  funext i
  rw [biasRow_apply, val_main_v98_apply, val_main_v97_apply]
  exact congrArg b (funext fun a => by match a with | ⟨0, _⟩ => rfl)

theorem bias103 (b : (⟨S64, .f32⟩ : BufTy).Contents (Elt Ideal)) (hc : S64.ShapeCasts S1x64) :
    broadcastTo S500x64 (shapeCast S1x64 b hc) broadcasts_S1x64_S500x64 = val_main_v103 (F := Ideal) b := by
  funext i
  rw [biasRow_apply, val_main_v103_apply, val_main_v102_apply]
  exact congrArg b (funext fun a => by match a with | ⟨0, _⟩ => rfl)

theorem bias108 (b : (⟨S10, .f32⟩ : BufTy).Contents (Elt Ideal)) (hc : S10.ShapeCasts S1x10) :
    broadcastTo S500x10 (shapeCast S1x10 b hc) broadcasts_S1x10_S500x10 = val_main_v108 (F := Ideal) b := by
  funext i
  rw [biasRow_apply, val_main_v108_apply, val_main_v107_apply]
  exact congrArg b (funext fun a => by match a with | ⟨0, _⟩ => rfl)

/-- The zero the dense layers clamp at, spread over the array: the same float word on both sides. -/
theorem zero3 : broadcast S500x128 (Scalar.ofBits (F := Ideal) .f32 0x00000000#32) = val_main_call3_v0 (F := Ideal) := by
  funext i
  rw [val_main_call3_v0_apply, val_main_call3_cst_apply]
  rfl

theorem zero4 : broadcast S500x64 (Scalar.ofBits (F := Ideal) .f32 0x00000000#32) = val_main_call4_v0 (F := Ideal) := by
  funext i
  rw [val_main_call4_v0_apply, val_main_call4_cst_apply]
  rfl

/-! ## A per-row value spread back over the row -/

/-- A 500 × 1 column spread over 10 columns reads, at entry (p, q), the column at row p. -/
theorem spreadK_apply {α : Type} (w : S500x1.Idx → α) (p : Fin 500) (q : Fin 10) :
    broadcastTo S500x10 w broadcasts_S500x1_S500x10 (ix2 p q) = w (ix2 p (0 : Fin 1)) :=
  broadcastTo_apply w broadcasts_S500x1_S500x10 (ix2 p q) (ix2 p (0 : Fin 1)) (fun a => match a with
    | ⟨0, _⟩ => by show p.val = if (500 : Nat) = 1 then 0 else p.val; rw [if_neg (by decide)]
    | ⟨1, _⟩ => by show 0 = if (1 : Nat) = 1 then 0 else q.val; rw [if_pos rfl])

/-- A length-500 vector cast to a 500 × 1 column reads, at row `p`, the vector at `p`. -/
theorem castCol_apply {α : Type} (v : S500.Idx → α) (p : Fin 500) :
    shapeCast S500x1 v shapeCasts_S500_S500x1 (ix2 p (0 : Fin 1)) = v (ix1 p) :=
  shapeCast_apply v shapeCasts_S500_S500x1 (ix2 p (0 : Fin 1)) (ix1 p) (by
    rw [Shape.rowMajor_val_two, Shape.rowMajor_val_one]
    show p.val = p.val * 1 + 0
    omega)

/-- The same two steps through the host's broadcasts. -/
theorem spreadR_apply {α : Type} (w : (⟨2, ![500, 1]⟩ : Shape).Idx → α)
    (h2 : (⟨2, ![500, 1]⟩ : Shape).BroadcastsInDim ⟨2, ![500, 10]⟩ ![0, 1]) (p : Fin 500) (q : Fin 10) :
    broadcastInDim ⟨2, ![500, 10]⟩ ![0, 1] h2 w (ix2 p q) = w (ix2 p (0 : Fin 1)) :=
  broadcastInDim_apply _ h2 w (ix2 p q) (ix2 p (0 : Fin 1)) (fun a => match a with
    | ⟨0, _⟩ => by show p.val = if (500 : Nat) = 1 then 0 else p.val; rw [if_neg (by decide)]
    | ⟨1, _⟩ => by show 0 = if (1 : Nat) = 1 then 0 else q.val; rw [if_pos rfl])

theorem colR_apply {α : Type} (v : (⟨1, ![500]⟩ : Shape).Idx → α)
    (h1 : (⟨1, ![500]⟩ : Shape).BroadcastsInDim ⟨2, ![500, 1]⟩ ![0]) (p : Fin 500) :
    broadcastInDim ⟨2, ![500, 1]⟩ ![0] h1 v (ix2 p (0 : Fin 1)) = v (ix1 p) :=
  broadcastInDim_apply _ h1 v (ix2 p (0 : Fin 1)) (ix1 p) (fun a => match a with
    | ⟨0, _⟩ => by show p.val = if (500 : Nat) = 1 then 0 else p.val; rw [if_neg (by decide)])

theorem log_apply {s : Shape} (w : FVec Ideal s .f32) (j : s.Idx) : log (F := Ideal) w j = Ideal.log (w j) := rfl
theorem hostLog_apply {s : Shape} (w : FVec Ideal s .f32) (j : s.Idx) : Host.log (F := Ideal) w j = Ideal.log (w j) := rfl
theorem hostExp_eq {s : Shape} (w : FVec Ideal s .f32) : Host.exp (F := Ideal) w = exp (F := Ideal) w := rfl

/-! ## The log-softmax -/

set_option maxHeartbeats 1000000 in
/-- The row maximum: the kernel folds `max` from −∞ over the row; the reference folds the same and then takes the
    maximum with −∞ once more, which the fold's starting value already is below. -/
theorem maxCol_eq (z : FVec Ideal S500x10 .f32) :
    broadcastTo S500x10 (shapeCast S500x1 (multiReduction (F := Ideal) .maximumf [1] S500 z 0xFF800000#32 reduces_S500x10_S500 (.inl rfl) rfl)
      shapeCasts_S500_S500x1) broadcasts_S500x1_S500x10 = maxColR (F := Ideal) z := by
  funext i
  obtain ⟨p, q, rfl⟩ : ∃ (p : Fin 500) (q : Fin 10), i = ix2 p q := ⟨i 0, i 1, eq_ix2 i⟩
  unfold maxColR
  rw [spreadK_apply, castCol_apply, spreadR_apply, colR_apply]
  refine (Ideal.multiReduction_maximumf_single z _ reduces_S500x10_S500 _ _ (ix1 p)).trans ?_
  rw [maximumf_apply, Host.reduce_eq_fold_single FloatOps.maximumf z _ _ reduces_S500x10_S500 _ (ix1 p), val_main_call5_v1_apply, val_main_call5_cst_0_apply]
  exact (max_eq_right ((_root_.Finset.le_fold_max _).mpr (Or.inl le_rfl))).symm

set_option maxHeartbeats 1000000 in
/-- The log of the row sum of exponentials: the kernel's lane sum and the host's sum from the zero word are the
    same finite sum; `exp` and `log` are the same functions on both sides. -/
theorem lseCol_eq (s : FVec Ideal S500x10 .f32) :
    broadcastTo S500x10 (log (F := Ideal) (shapeCast S500x1 (multiReduction (F := Ideal) .add [1] S500 (exp (F := Ideal) s) 0x00000000#32 reduces_S500x10_S500 (.inl rfl) rfl)
      shapeCasts_S500_S500x1)) broadcasts_S500x1_S500x10 = lseColR (F := Ideal) s := by
  funext i
  obtain ⟨p, q, rfl⟩ : ∃ (p : Fin 500) (q : Fin 10), i = ix2 p q := ⟨i 0, i 1, eq_ix2 i⟩
  unfold lseColR
  rw [spreadK_apply, log_apply, castCol_apply, spreadR_apply, hostLog_apply, colR_apply, hostExp_eq]
  refine congrArg Ideal.log ?_
  refine (Ideal.multiReduction_add_single (exp (F := Ideal) s) _ reduces_S500x10_S500 _ _ (ix1 p)).trans ?_
  unfold Host.reduceAdd
  rw [Ideal.hostReduceAdd_def, Ideal.hostReduceAdd_single _ reduces_S500x10_S500 (exp (F := Ideal) s) _ (ix1 p)]
  show _ = Ideal.ofBits .f32 0x00000000#32 + _
  rw [Ideal.ofBits_zero_f32, zero_add]

/-! ## The head -/

theorem pay2_eq (g : (⟨S500x128, .f32⟩ : BufTy).Contents (Elt Ideal)) (w1 : (⟨S128x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal))
    (w3 : (⟨S64x10, .f32⟩ : BufTy).Contents (Elt Ideal)) (b3 : (⟨S10, .f32⟩ : BufTy).Contents (Elt Ideal)) :
    k3_pay2 (F := Ideal) g w1 (shapeCast S1x128 b1 shapeCasts_S128_S1x128) w2 (shapeCast S1x64 b2 shapeCasts_S64_S1x64) w3 (shapeCast S1x10 b3 shapeCasts_S10_S1x10)
      = shiftR (F := Ideal) (dense3 (dense2 (dense1 g w1 b1) w2 b2) w3 b3) := by
  unfold k3_pay2
  simp only [shapeCast_self]
  rw [bias98, bias103, bias108, zero3, zero4, maxCol_eq]
  simp only [matmul]
  rw [mm0_eq_dot, mm0_eq_dot, mm0_eq_dot]
  rfl

/-- THE HEAD: the kernel body's arithmetic of the pooled features, the weights and the biases (kept as rows) is the
    reference's head of them. -/
theorem mlp_eq (g : (⟨S500x128, .f32⟩ : BufTy).Contents (Elt Ideal)) (w1 : (⟨S128x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal))
    (w3 : (⟨S64x10, .f32⟩ : BufTy).Contents (Elt Ideal)) (b3 : (⟨S10, .f32⟩ : BufTy).Contents (Elt Ideal)) :
    mlpK g w1 (shapeCast S1x128 b1 shapeCasts_S128_S1x128) w2 (shapeCast S1x64 b2 shapeCasts_S64_S1x64) w3 (shapeCast S1x10 b3 shapeCasts_S10_S1x10)
      = mlpR (F := Ideal) g w1 b1 w2 b2 w3 b3 := by
  unfold mlpK k3_pay3 k3_pay1
  simp only [shapeCast_self]
  rw [pay2_eq, lseCol_eq]
  rfl

end Cert.KernelIdeal.MlpBridge

end
-- ==== Proof.SageBridge.lean ====
/-
  The reference's layer, entry by entry, is the row formula: its two `dot_general`s are the two length-128 dot
  products of the row with the weight columns, its two broadcasts of the bias read the bias under the entry's
  column, and its clamp is the maximum with the zero word. (The kernel keeps the bias as a 1 × 128 row obtained by
  a shape cast; read at (0, q) that row is the bias at q.)
-/
import proofs.«120171_j13091060318589_2_alg».proof.Proof.RefFns
import proofs.«120171_j13091060318589_2_alg».proof.Proof.Spec
import Idealize.ShloMosaic.Lib.ValueLayout

noncomputable section

namespace Cert.ReferenceIdeal.Bridge

open Cert.ReferenceIdeal Cert.ReferenceIdeal.Gen Cert.ReferenceIdeal.Read Cert.ReferenceIdeal.Fns
open Idealize.ShloMosaic Idealize.ShloMosaic.TcCoe Cert.Spec

theorem sageR_eq (h agg : (⟨S50000x128, .f32⟩ : BufTy).Contents (Elt Ideal)) (wl wr : (⟨S128x128, .f32⟩ : BufTy).Contents (Elt Ideal)) (b : (⟨S128, .f32⟩ : BufTy).Contents (Elt Ideal))
    (hc : S128.ShapeCasts S1x128) :
    sageR (F := Ideal) h agg wl wr b = sageG h agg wl wr (shapeCast S1x128 b hc) := by
  funext i
  have e1 := val_main_v34_apply h wl i
  have e2 := val_main_v34_apply agg wr i
  unfold val_main_v34 at e1 e2
  unfold sageR sageG sageAt
  show max ((Host.dotGeneral (F := Ideal) dot_S50000x128_S128x128_S50000x128_1_0_0_1_n_n none h wl i
      + Host.dotGeneral (F := Ideal) dot_S50000x128_S128x128_S50000x128_1_0_0_1_n_n none agg wr i)
      + val_main_v38 (F := Ideal) b i) (val_main_call0_v0 (F := Ideal) i) = _
  rw [e1, e2, val_main_v38_apply, val_main_v37_apply, val_main_call0_v0_apply, val_main_call0_cst_apply]
  have hb : shapeCast S1x128 b hc (biasCol i) = b (idx_main_v37 (idx_main_v38 i)) := by
    have := ValueIdx.shapeCast_a_1a_apply b hc (0 : Fin 1) ⟨(i 1).val, (i 1).isLt⟩
    refine Eq.trans (congrArg (shapeCast S1x128 b hc) ?_) (this.trans (congrArg b ?_))
    · funext a; match a with
      | ⟨0, _⟩ => rfl
      | ⟨1, _⟩ => rfl
    · funext a; match a with
      | ⟨0, _⟩ => rfl
  rw [hb]
  have hl : ∀ k, lidx_main_v34 i k = rowK i k := fun k => funext fun a => by
    match a with
    | ⟨0, _⟩ => rfl
    | ⟨1, _⟩ => rfl
  have hr : ∀ k, ridx_main_v34 i k = kCol i k := fun k => funext fun a => by
    match a with
    | ⟨0, _⟩ => rfl
    | ⟨1, _⟩ => rfl
  exact congrArg₂ max (congrArg₂ (· + ·) (congrArg₂ (· + ·)
    (Finset.sum_congr rfl fun k _ => by rw [hl k, hr k]) (Finset.sum_congr rfl fun k _ => by rw [hl k, hr k])) rfl) rfl

end Cert.ReferenceIdeal.Bridge

end
-- ==== Proof.KFns.lean ====
/-
  The kernel program's host-side stages as functions of arbitrary operands, spelt with the kernel program's own
  constants and in its own float formats (activations cross the gather/scatter boundary in bf16 and are widened
  before every sum): the source and destination node of each edge, the inverse in-degree and inverse graph-size
  columns, the mean aggregation over incoming edges and the mean pool over graphs.
-/
import proofs.«120171_j13091060318589_2_alg».proof.Proof.Gen.KernelIdeal.Launch

noncomputable section

namespace Cert.KernelIdeal.Fns

open Cert.KernelIdeal Cert.KernelIdeal.Gen Idealize.ShloMosaic Idealize.ShloMosaic.TcCoe

variable {F : FTy → Type} [FloatOps F]

/-- Row 0 of the edge list: each edge's source node. -/
def srcK (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- Row 1 of the edge list: each edge's destination node. -/
def dstK (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- 1 / max(in-degree, 1) of every node, as a column. -/
def dinvK (ei : (⟨S2x800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32))
      (maximumf (Host.scatterAdd scatter_S50000_S800000x1_S800000_n_0_0_1
          (broadcastInDim S50000 ![] bcast_S_S50000 (constant S_ .f32 0x00000000#32))
          (broadcastInDim S800000x1 ![0] bcast_S800000_S800000x1_0 (dstK ei))
          (broadcastInDim S800000 ![] bcast_S_S800000 (constant S_ .f32 0x3F800000#32)))
        (broadcastInDim S50000 ![] bcast_S_S50000 (constant S_ .f32 0x3F800000#32))))

/-- 1 / max(graph size, 1) of every graph, as a column. -/
def cinvK (batch : (⟨S50000, .i32⟩ : BufTy).Contents (Elt F)) : (⟨S500x1, .f32⟩ : BufTy).Contents (Elt F) :=
  broadcastInDim S500x1 ![0] bcast_S500_S500x1_0
    (Host.divf (broadcastInDim S500 ![] bcast_S_S500 (constant S_ .f32 0x3F800000#32))
      (maximumf (Host.scatterAdd scatter_S500_S50000x1_S50000_n_0_0_1
          (broadcastInDim S500 ![] bcast_S_S500 (constant S_ .f32 0x00000000#32))
          (broadcastInDim S50000x1 ![0] bcast_S50000_S50000x1_0 batch)
          (broadcastInDim S50000 ![] bcast_S_S50000 (constant S_ .f32 0x3F800000#32)))
        (broadcastInDim S500 ![] bcast_S_S500 (constant S_ .f32 0x3F800000#32))))

/-- Mean aggregation of bf16 node features over incoming edges, back in bf16. -/
def aggOfK (dinv : (⟨S50000x1, .f32⟩ : BufTy).Contents (Elt F)) (src dst : (⟨S800000, .i32⟩ : BufTy).Contents (Elt F)) (h : (⟨S50000x128, .bf16⟩ : BufTy).Contents (Elt F)) : (⟨S50000x128, .bf16⟩ : BufTy).Contents (Elt F) :=
  truncf .bf16 (mulf (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (extf .f32 (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))) bitsLt_bf16_f32))
    (broadcastInDim S50000x128 ![0, 1] bcast_S50000x1_S50000x128_0_1 dinv)) bitsLt_bf16_f32

/-- Mean pool of bf16 node features over graphs, in f32. -/
def poolOfK (cinv : (⟨S500x1, .f32⟩ : BufTy).Contents (Elt F)) (batch : (⟨S50000, .i32⟩ : BufTy).Contents (Elt F)) (h : (⟨S50000x128, .bf16⟩ : BufTy).Contents (Elt F)) : (⟨S500x128, .f32⟩ : BufTy).Contents (Elt F) :=
  mulf (Host.scatterAdd scatter_S500x128_S50000x1_S50000x128_1_0_0_1
      (broadcastInDim S500x128 ![] bcast_S_S500x128 (constant S_ .f32 0x00000000#32))
      (broadcastInDim S50000x1 ![0] bcast_S50000_S50000x1_0 batch)
      (extf .f32 h bitsLt_bf16_f32))
    (broadcastInDim S500x128 ![0, 1] bcast_S500x1_S500x128_0_1 cinv)

end Cert.KernelIdeal.Fns

end
-- ==== Proof.FnBridge.lean ====
/-
  The kernel program's host-side stages and the reference's are the same functions on the extended reals. The two
  programs print the same operations with their own copies of each constant and side condition, and the kernel
  carries its activations in bf16 across the gather/scatter boundary, widening before every sum — a change of float
  format is the identity here. Each operation is identified on its own, over arbitrary operands, so that no large
  term is ever compared by unfolding.
-/
import proofs.«120171_j13091060318589_2_alg».proof.Proof.KFns
import proofs.«120171_j13091060318589_2_alg».proof.Proof.RefFns

noncomputable section

namespace Cert.FnBridge

open Cert.KernelIdeal Cert.KernelIdeal.Gen Cert.KernelIdeal.Fns
open Cert.ReferenceIdeal.Fns (aggOf poolOf dstColR idxColR dinvBcR gatherR scatterNodesR batchColR cinvBcR scatterGraphsR countNodesR invNodesR countGraphsR invGraphsR dinvR_eq cinvR_eq)
open Cert.ReferenceIdeal.Read (val_main_v1 val_main_v3 val_main_v12 val_main_v21 val_main_v29 val_main_v41)
open Idealize.ShloMosaic Idealize.ShloMosaic.TcCoe

/-! ## One operation at a time -/

theorem zero_nodes : broadcastInDim S50000x128 ![] bcast_S_S50000x128 (constant (F := Ideal) S_ .f32 0x00000000#32) = val_main_v29 (F := Ideal) := rfl

theorem dstCol (dst : (⟨S800000, .i32⟩ : BufTy).Contents (Elt Ideal)) :
    broadcastInDim S800000x1 ![0] bcast_S800000_S800000x1_0 dst = dstColR (F := Ideal) dst := rfl

theorem idxCol (src : (⟨S800000, .i32⟩ : BufTy).Contents (Elt Ideal)) :
    broadcastInDim S800000x1 ![0] bcast_S800000_S800000x1_0
      (select (cmpi .slt src (broadcastInDim S800000 ![] bcast_S_S800000 (constantI S_ 32 0#32)))
        (addi src (broadcastInDim S800000 ![] bcast_S_S800000 (constantI S_ 32 50000#32))) src) = idxColR (F := Ideal) src := rfl

theorem dinvBc (dinv : (⟨S50000x1, .f32⟩ : BufTy).Contents (Elt Ideal)) :
    broadcastInDim S50000x128 ![0, 1] bcast_S50000x1_S50000x128_0_1 dinv = dinvBcR (F := Ideal) dinv := rfl

/-- Gathering bf16 rows and widening them is gathering the rows. -/
theorem gather (h : (⟨S50000x128, .bf16⟩ : BufTy).Contents (Elt Ideal)) (idx : (⟨S800000x1, .i32⟩ : BufTy).Contents (Elt Ideal)) :
    extf (F := Ideal) .f32 (Host.gather gather_S50000x128_S800000x1_S800000x128_1_0_n_n_0_1_1128 h idx) bitsLt_bf16_f32 = gatherR (F := Ideal) h idx := rfl

theorem scatterNodes (z : (⟨S50000x128, .f32⟩ : BufTy).Contents (Elt Ideal)) (idx : (⟨S800000x1, .i32⟩ : BufTy).Contents (Elt Ideal)) (u : (⟨S800000x128, .f32⟩ : BufTy).Contents (Elt Ideal)) :
    Host.scatterAdd (F := Ideal) (φ := .f32) scatter_S50000x128_S800000x1_S800000x128_1_0_0_1 z idx u = scatterNodesR (F := Ideal) z idx u := rfl

theorem zero_graphs : broadcastInDim S500x128 ![] bcast_S_S500x128 (constant (F := Ideal) S_ .f32 0x00000000#32) = val_main_v41 (F := Ideal) := rfl

theorem batchCol (batch : (⟨S50000, .i32⟩ : BufTy).Contents (Elt Ideal)) :
    broadcastInDim S50000x1 ![0] bcast_S50000_S50000x1_0 batch = batchColR (F := Ideal) batch := rfl

theorem cinvBc (cinv : (⟨S500x1, .f32⟩ : BufTy).Contents (Elt Ideal)) :
    broadcastInDim S500x128 ![0, 1] bcast_S500x1_S500x128_0_1 cinv = cinvBcR (F := Ideal) cinv := rfl

theorem scatterGraphs (z : (⟨S500x128, .f32⟩ : BufTy).Contents (Elt Ideal)) (idx : (⟨S50000x1, .i32⟩ : BufTy).Contents (Elt Ideal)) (u : (⟨S50000x128, .f32⟩ : BufTy).Contents (Elt Ideal)) :
    Host.scatterAdd (F := Ideal) (φ := .f32) scatter_S500x128_S50000x1_S50000x128_1_0_0_1 z idx u = scatterGraphsR (F := Ideal) z idx u := rfl

/-- Narrowing to bf16 and widening to f32 are the identity on extended reals. -/
theorem narrow_id {s : Shape} (a : FVec Ideal s .f32) :
    (truncf (F := Ideal) .bf16 a bitsLt_bf16_f32 : s.Idx → EReal) = a := rfl

theorem widen_id {s : Shape} (a : FVec Ideal s .bf16) :
    (extf (F := Ideal) .f32 a bitsLt_bf16_f32 : s.Idx → EReal) = a := rfl

/-! ## The stages -/

theorem src_eq (ei : (⟨S2x800000, .i32⟩ : BufTy).Contents (Elt Ideal)) : srcK (F := Ideal) ei = val_main_v1 (F := Ideal) ei := rfl

theorem dst_eq (ei : (⟨S2x800000, .i32⟩ : BufTy).Contents (Elt Ideal)) : dstK (F := Ideal) ei = val_main_v3 (F := Ideal) ei := rfl

/-- The edge count per node, from an index column. -/
theorem countNodes (dc : (⟨S800000x1, .i32⟩ : BufTy).Contents (Elt Ideal)) :
    Host.scatterAdd (F := Ideal) (φ := .f32) scatter_S50000_S800000x1_S800000_n_0_0_1
      (broadcastInDim S50000 ![] bcast_S_S50000 (constant (F := Ideal) S_ .f32 0x00000000#32)) dc
      (broadcastInDim S800000 ![] bcast_S_S800000 (constant (F := Ideal) S_ .f32 0x3F800000#32)) = countNodesR (F := Ideal) dc := rfl

theorem invNodes (cnt : (⟨S50000, .f32⟩ : BufTy).Contents (Elt Ideal)) :
    broadcastInDim S50000x1 ![0] bcast_S50000_S50000x1_0
      (Host.divf (F := Ideal) (φ := .f32) (broadcastInDim S50000 ![] bcast_S_S50000 (constant (F := Ideal) S_ .f32 0x3F800000#32))
        (maximumf (F := Ideal) (φ := .f32) cnt (broadcastInDim S50000 ![] bcast_S_S50000 (constant (F := Ideal) S_ .f32 0x3F800000#32)))) = invNodesR (F := Ideal) cnt := rfl

theorem countGraphs (bc : (⟨S50000x1, .i32⟩ : BufTy).Contents (Elt Ideal)) :
    Host.scatterAdd (F := Ideal) (φ := .f32) scatter_S500_S50000x1_S50000_n_0_0_1
      (broadcastInDim S500 ![] bcast_S_S500 (constant (F := Ideal) S_ .f32 0x00000000#32)) bc
      (broadcastInDim S50000 ![] bcast_S_S50000 (constant (F := Ideal) S_ .f32 0x3F800000#32)) = countGraphsR (F := Ideal) bc := rfl

theorem invGraphs (cnt : (⟨S500, .f32⟩ : BufTy).Contents (Elt Ideal)) :
    broadcastInDim S500x1 ![0] bcast_S500_S500x1_0
      (Host.divf (F := Ideal) (φ := .f32) (broadcastInDim S500 ![] bcast_S_S500 (constant (F := Ideal) S_ .f32 0x3F800000#32))
        (maximumf (F := Ideal) (φ := .f32) cnt (broadcastInDim S500 ![] bcast_S_S500 (constant (F := Ideal) S_ .f32 0x3F800000#32)))) = invGraphsR (F := Ideal) cnt := rfl

theorem dinv_eq (ei : (⟨S2x800000, .i32⟩ : BufTy).Contents (Elt Ideal)) : dinvK (F := Ideal) ei = val_main_v12 (F := Ideal) ei := by
  unfold dinvK
  rw [dstCol, countNodes, invNodes, dst_eq]
  exact (dinvR_eq _).symm

theorem cinv_eq (batch : (⟨S50000, .i32⟩ : BufTy).Contents (Elt Ideal)) : cinvK (F := Ideal) batch = val_main_v21 (F := Ideal) batch := by
  unfold cinvK
  rw [batchCol, countGraphs, invGraphs]
  exact (cinvR_eq _).symm

/-- Mean aggregation: the kernel's (bf16 in, bf16 out) is the reference's. -/
theorem agg_eq (dinv : (⟨S50000x1, .f32⟩ : BufTy).Contents (Elt Ideal)) (src dst : (⟨S800000, .i32⟩ : BufTy).Contents (Elt Ideal)) (h : (⟨S50000x128, .bf16⟩ : BufTy).Contents (Elt Ideal)) :
    aggOfK (F := Ideal) dinv src dst h = aggOf (F := Ideal) dinv src dst h := by
  unfold aggOfK aggOf
  rw [zero_nodes, dstCol, idxCol, dinvBc, gather, scatterNodes]
  exact narrow_id _

/-- Mean pooling: the kernel's (bf16 in) is the reference's. -/
theorem pool_eq (cinv : (⟨S500x1, .f32⟩ : BufTy).Contents (Elt Ideal)) (batch : (⟨S50000, .i32⟩ : BufTy).Contents (Elt Ideal)) (h : (⟨S50000x128, .bf16⟩ : BufTy).Contents (Elt Ideal)) :
    poolOfK (F := Ideal) cinv batch h = poolOf (F := Ideal) cinv batch h := by
  unfold poolOfK poolOf
  rw [zero_graphs, batchCol, cinvBc, widen_id, scatterGraphs]

end Cert.FnBridge

end
-- ==== Proof.Stretch0Keep.lean ====
/-
  Host stretch 0: the buffers it writes, and that every other buffer keeps its contents through it.
-/
import proofs.«120171_j13091060318589_2_alg».proof.Proof.Gen.KernelIdeal.Launch
import proofs.«120171_j13091060318589_2_alg».proof.Proof.RefFns
import Idealize.ShloMosaic.Lib.StableHlo.Run

set_option maxRecDepth 16384

noncomputable section

namespace Cert.KernelIdeal.Stretch0Keep

open Cert.KernelIdeal Cert.KernelIdeal.Gen Idealize.ShloMosaic Idealize.ShloMosaic.TcCoe Idealize.SL.Sem Idealize.ShloMosaic.StableHlo
open Cert.ReferenceIdeal.Fns

/-- The buffers the stretch's operations write, in order. -/
def written : List (Ref sig .tc) :=
  [main_call0_v0, main_call0_v1, main_call0_v2, main_call0_v3, main_call0_cst, main_call0_v4, main_call0_cst_0, main_call0_v5, main_call0_v6, main_call0_v7, main_call0_cst_1, main_call0_v8, main_call0_v9, main_call0_cst_2, main_call0_v10, main_call0_v11, main_call0_v12, main_call0_cst_3, main_call0_v13, main_call0_cst_4, main_call0_v14, main_call0_v15, main_call0_v16, main_call0_cst_5, main_call0_v17, main_call0_v18, main_call0_cst_6, main_call0_v19, main_call0_v20, main_call0_v21, main_call0_v22, main_call0_c, main_call0_v23, main_call0_v24, main_call0_c_7, main_call0_v25, main_call0_v26, main_call0_v27, main_call0_v28, main_call0_v29, main_call0_v30, main_call0_cst_8, main_call0_v31, main_call0_v32, main_call0_v33, main_call0_v34, main_call0_v35, main_call0_v36, main_call0_v37]

theorem written_sub : (hostOps0 (F := Ideal)).Forall fun op => op.writes ⊆ (written.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- A buffer the stretch does not write keeps its contents. -/
theorem keep (W : Valuation τ sig (Elt Ideal)) (b : Ref sig .tc) (hb : b ∉ written) :
    StableHlo.after (hostOps0 (F := Ideal)) W (Proc.devRef .tc b) = W (Proc.devRef .tc b) :=
  StableHlo.after_of_writes_sub _ W written_sub hb

end Cert.KernelIdeal.Stretch0Keep

end
-- ==== Proof.Stretch0A.lean ====
/-
  The host operations before the first kernel region, from ANY contents `W` of the buffers: the node features in
  the kernel's input format (the format change is the identity on extended reals), the first layer's mean-aggregated
  messages, the bias as a row, and the edge- and batch-derived arrays later stretches read again (the source and
  destination node of each edge, the inverse in-degree and inverse graph-size columns).
-/
import proofs.«120171_j13091060318589_2_alg».proof.Proof.Gen.KernelIdeal.Launch
import proofs.«120171_j13091060318589_2_alg».proof.Proof.KFns
import Idealize.ShloMosaic.Lib.StableHlo.Run
import Idealize.ShloMosaic.PureOps.Ideal

set_option maxRecDepth 16384

noncomputable section

namespace Cert.KernelIdeal.Stretch0A

open Cert.KernelIdeal Cert.KernelIdeal.Gen Idealize.ShloMosaic Idealize.ShloMosaic.TcCoe Idealize.SL.Sem Idealize.ShloMosaic.StableHlo
open Cert.KernelIdeal.Fns

theorem feat (W : Valuation τ sig (Elt Ideal)) : StableHlo.after (hostOps0 (F := Ideal)) W (Proc.devRef .tc main_call0_v22)
    = truncf (F := Ideal) .bf16 (W (Proc.devRef .tc main_arg0)) bitsLt_bf16_f32 := by
  after_results_simp <;> rfl

theorem bias (W : Valuation τ sig (Elt Ideal)) : StableHlo.after (hostOps0 (F := Ideal)) W (Proc.devRef .tc main_call0_v37)
    = shapeCast S1x128 (W (Proc.devRef .tc main_arg5)) shapeCasts_S128_S1x128 := by
  after_results_simp <;> rfl

theorem src (W : Valuation τ sig (Elt Ideal)) : StableHlo.after (hostOps0 (F := Ideal)) W (Proc.devRef .tc main_call0_v1)
    = srcK (F := Ideal) (W (Proc.devRef .tc main_arg1)) := by
  after_results_simp <;> rfl

theorem dst (W : Valuation τ sig (Elt Ideal)) : StableHlo.after (hostOps0 (F := Ideal)) W (Proc.devRef .tc main_call0_v3)
    = dstK (F := Ideal) (W (Proc.devRef .tc main_arg1)) := by
  after_results_simp <;> rfl

end Cert.KernelIdeal.Stretch0A

end
-- ==== Proof.Casts.lean ====
/-
  Contents read or written through a typed reference to a buffer are the contents themselves: the transport is
  along an equation of buffer types that holds by computation. Stated once in general for a write followed by a
  read at the same reference, and per buffer — over ARBITRARY contents — for the result buffers and the entry
  buffers of the host stretches, so that a stretch's composed term can be cleaned by rewriting alone.
-/
import proofs.«120171_j13091060318589_2_alg».proof.Proof.Gen.KernelIdeal.Launch
import Idealize.ShloMosaic.PureOps.Ideal

noncomputable section

namespace Cert.KernelIdeal.Casts

open Cert.KernelIdeal Cert.KernelIdeal.Gen Idealize.ShloMosaic Idealize.ShloMosaic.TcCoe Idealize.ShloMosaic.StableHlo

/-- Reading back what was written through the same typed reference. -/
theorem ofBuf_toBuf {Val : EltTy → Type} {T : BufTy} (x : TRef sig T) (v : T.Contents Val) : x.ofBuf (x.toBuf v) = v := by
  obtain ⟨r, h, h2, h3⟩ := x
  subst h
  rfl

theorem toBuf_v22 (p1 p2 p3) (v : (⟨S50000x128, .bf16⟩ : BufTy).Contents (Elt Ideal)) :
    (TRef.of (sig := sig) (T := ⟨S50000x128, .bf16⟩) main_call0_v22 p1 p2 p3).toBuf v = v := rfl

theorem toBuf_v37 (p1 p2 p3) (v : (⟨S1x128, .f32⟩ : BufTy).Contents (Elt Ideal)) :
    (TRef.of (sig := sig) (T := ⟨S1x128, .f32⟩) main_call0_v37 p1 p2 p3).toBuf v = v := rfl

theorem toBuf_v1 (p1 p2 p3) (v : (⟨S800000, .i32⟩ : BufTy).Contents (Elt Ideal)) :
    (TRef.of (sig := sig) (T := ⟨S800000, .i32⟩) main_call0_v1 p1 p2 p3).toBuf v = v := rfl

theorem toBuf_v3 (p1 p2 p3) (v : (⟨S800000, .i32⟩ : BufTy).Contents (Elt Ideal)) :
    (TRef.of (sig := sig) (T := ⟨S800000, .i32⟩) main_call0_v3 p1 p2 p3).toBuf v = v := rfl

theorem toBuf_v12 (p1 p2 p3) (v : (⟨S50000x1, .f32⟩ : BufTy).Contents (Elt Ideal)) :
    (TRef.of (sig := sig) (T := ⟨S50000x1, .f32⟩) main_call0_v12 p1 p2 p3).toBuf v = v := rfl

theorem toBuf_v21 (p1 p2 p3) (v : (⟨S500x1, .f32⟩ : BufTy).Contents (Elt Ideal)) :
    (TRef.of (sig := sig) (T := ⟨S500x1, .f32⟩) main_call0_v21 p1 p2 p3).toBuf v = v := rfl

theorem toBuf_v36 (p1 p2 p3) (v : (⟨S50000x128, .bf16⟩ : BufTy).Contents (Elt Ideal)) :
    (TRef.of (sig := sig) (T := ⟨S50000x128, .bf16⟩) main_call0_v36 p1 p2 p3).toBuf v = v := rfl

theorem toBuf_v44 (p1 p2 p3) (v : (⟨S500x128, .f32⟩ : BufTy).Contents (Elt Ideal)) :
    (TRef.of (sig := sig) (T := ⟨S500x128, .f32⟩) main_call0_v44 p1 p2 p3).toBuf v = v := rfl

theorem toBuf_v58 (p1 p2 p3) (v : (⟨S50000x128, .bf16⟩ : BufTy).Contents (Elt Ideal)) :
    (TRef.of (sig := sig) (T := ⟨S50000x128, .bf16⟩) main_call0_v58 p1 p2 p3).toBuf v = v := rfl

theorem toBuf_v59 (p1 p2 p3) (v : (⟨S1x128, .f32⟩ : BufTy).Contents (Elt Ideal)) :
    (TRef.of (sig := sig) (T := ⟨S1x128, .f32⟩) main_call0_v59 p1 p2 p3).toBuf v = v := rfl

theorem toBuf_v66 (p1 p2 p3) (v : (⟨S500x128, .f32⟩ : BufTy).Contents (Elt Ideal)) :
    (TRef.of (sig := sig) (T := ⟨S500x128, .f32⟩) main_call0_v66 p1 p2 p3).toBuf v = v := rfl

theorem toBuf_v80 (p1 p2 p3) (v : (⟨S50000x128, .bf16⟩ : BufTy).Contents (Elt Ideal)) :
    (TRef.of (sig := sig) (T := ⟨S50000x128, .bf16⟩) main_call0_v80 p1 p2 p3).toBuf v = v := rfl

theorem toBuf_v81 (p1 p2 p3) (v : (⟨S1x128, .f32⟩ : BufTy).Contents (Elt Ideal)) :
    (TRef.of (sig := sig) (T := ⟨S1x128, .f32⟩) main_call0_v81 p1 p2 p3).toBuf v = v := rfl

theorem ofBuf_arg0 (p1 p2 p3) (v : (Proc.devRef (τ := τ) .tc main_arg0).ty.Contents (Elt Ideal)) :
    (TRef.of (sig := sig) (T := ⟨S50000x128, .f32⟩) main_arg0 p1 p2 p3).ofBuf v = v := rfl

theorem ofBuf_arg1 (p1 p2 p3) (v : (Proc.devRef (τ := τ) .tc main_arg1).ty.Contents (Elt Ideal)) :
    (TRef.of (sig := sig) (T := ⟨S2x800000, .i32⟩) main_arg1 p1 p2 p3).ofBuf v = v := rfl

theorem ofBuf_arg2 (p1 p2 p3) (v : (Proc.devRef (τ := τ) .tc main_arg2).ty.Contents (Elt Ideal)) :
    (TRef.of (sig := sig) (T := ⟨S50000, .i32⟩) main_arg2 p1 p2 p3).ofBuf v = v := rfl

theorem ofBuf_arg5 (p1 p2 p3) (v : (Proc.devRef (τ := τ) .tc main_arg5).ty.Contents (Elt Ideal)) :
    (TRef.of (sig := sig) (T := ⟨S128, .f32⟩) main_arg5 p1 p2 p3).ofBuf v = v := rfl

theorem ofBuf_arg8 (p1 p2 p3) (v : (Proc.devRef (τ := τ) .tc main_arg8).ty.Contents (Elt Ideal)) :
    (TRef.of (sig := sig) (T := ⟨S128, .f32⟩) main_arg8 p1 p2 p3).ofBuf v = v := rfl

theorem ofBuf_arg11 (p1 p2 p3) (v : (Proc.devRef (τ := τ) .tc main_arg11).ty.Contents (Elt Ideal)) :
    (TRef.of (sig := sig) (T := ⟨S128, .f32⟩) main_arg11 p1 p2 p3).ofBuf v = v := rfl

theorem ofBuf_v38 (p1 p2 p3) (v : (Proc.devRef (τ := τ) .tc main_call0_v38).ty.Contents (Elt Ideal)) :
    (TRef.of (sig := sig) (T := ⟨S50000x128, .bf16⟩) main_call0_v38 p1 p2 p3).ofBuf v = v := rfl

theorem ofBuf_v60 (p1 p2 p3) (v : (Proc.devRef (τ := τ) .tc main_call0_v60).ty.Contents (Elt Ideal)) :
    (TRef.of (sig := sig) (T := ⟨S50000x128, .bf16⟩) main_call0_v60 p1 p2 p3).ofBuf v = v := rfl

theorem ofBuf_v21 (p1 p2 p3) (v : (Proc.devRef (τ := τ) .tc main_call0_v21).ty.Contents (Elt Ideal)) :
    (TRef.of (sig := sig) (T := ⟨S500x1, .f32⟩) main_call0_v21 p1 p2 p3).ofBuf v = v := rfl

theorem ofBuf_v12 (p1 p2 p3) (v : (Proc.devRef (τ := τ) .tc main_call0_v12).ty.Contents (Elt Ideal)) :
    (TRef.of (sig := sig) (T := ⟨S50000x1, .f32⟩) main_call0_v12 p1 p2 p3).ofBuf v = v := rfl

theorem ofBuf_v1 (p1 p2 p3) (v : (Proc.devRef (τ := τ) .tc main_call0_v1).ty.Contents (Elt Ideal)) :
    (TRef.of (sig := sig) (T := ⟨S800000, .i32⟩) main_call0_v1 p1 p2 p3).ofBuf v = v := rfl

theorem ofBuf_v3 (p1 p2 p3) (v : (Proc.devRef (τ := τ) .tc main_call0_v3).ty.Contents (Elt Ideal)) :
    (TRef.of (sig := sig) (T := ⟨S800000, .i32⟩) main_call0_v3 p1 p2 p3).ofBuf v = v := rfl

end Cert.KernelIdeal.Casts

end
-- ==== Proof.Stretch0B.lean ====
/-
  The host operations before the first kernel region, from ANY contents `W` of the buffers: the node features in
  the kernel's input format (the format change is the identity on extended reals), the first layer's mean-aggregated
  messages, the bias as a row, and the edge- and batch-derived arrays later stretches read again (the source and
  destination node of each edge, the inverse in-degree and inverse graph-size columns).
-/
import proofs.«120171_j13091060318589_2_alg».proof.Proof.Gen.KernelIdeal.Launch
import proofs.«120171_j13091060318589_2_alg».proof.Proof.KFns
import proofs.«120171_j13091060318589_2_alg».proof.Proof.Casts
import Idealize.ShloMosaic.Lib.StableHlo.Run
import Idealize.ShloMosaic.PureOps.Ideal

set_option maxRecDepth 16384

noncomputable section

namespace Cert.KernelIdeal.Stretch0B

open Cert.KernelIdeal Cert.KernelIdeal.Gen Idealize.ShloMosaic Idealize.ShloMosaic.TcCoe Idealize.SL.Sem Idealize.ShloMosaic.StableHlo
open Cert.KernelIdeal.Fns

theorem dinv (W : Valuation τ sig (Elt Ideal)) : StableHlo.after (hostOps0 (F := Ideal)) W (Proc.devRef .tc main_call0_v12)
    = dinvK (F := Ideal) (W (Proc.devRef .tc main_arg1)) := by
  after_results_simp
  simp only [Casts.ofBuf_toBuf, Casts.toBuf_v22, Casts.toBuf_v37, Casts.toBuf_v1, Casts.toBuf_v3, Casts.toBuf_v12, Casts.toBuf_v21, Casts.toBuf_v36, Casts.toBuf_v44, Casts.toBuf_v58, Casts.toBuf_v59, Casts.toBuf_v66, Casts.toBuf_v80, Casts.toBuf_v81, Casts.ofBuf_arg0, Casts.ofBuf_arg1, Casts.ofBuf_arg2, Casts.ofBuf_arg5, Casts.ofBuf_arg8, Casts.ofBuf_arg11, Casts.ofBuf_v38, Casts.ofBuf_v60, Casts.ofBuf_v21, Casts.ofBuf_v12, Casts.ofBuf_v1, Casts.ofBuf_v3]
  unfold dinvK dstK
  rfl

theorem cinv (W : Valuation τ sig (Elt Ideal)) : StableHlo.after (hostOps0 (F := Ideal)) W (Proc.devRef .tc main_call0_v21)
    = cinvK (F := Ideal) (W (Proc.devRef .tc main_arg2)) := by
  after_results_simp
  simp only [Casts.ofBuf_toBuf, Casts.toBuf_v22, Casts.toBuf_v37, Casts.toBuf_v1, Casts.toBuf_v3, Casts.toBuf_v12, Casts.toBuf_v21, Casts.toBuf_v36, Casts.toBuf_v44, Casts.toBuf_v58, Casts.toBuf_v59, Casts.toBuf_v66, Casts.toBuf_v80, Casts.toBuf_v81, Casts.ofBuf_arg0, Casts.ofBuf_arg1, Casts.ofBuf_arg2, Casts.ofBuf_arg5, Casts.ofBuf_arg8, Casts.ofBuf_arg11, Casts.ofBuf_v38, Casts.ofBuf_v60, Casts.ofBuf_v21, Casts.ofBuf_v12, Casts.ofBuf_v1, Casts.ofBuf_v3]
  unfold cinvK
  rfl

end Cert.KernelIdeal.Stretch0B

end
-- ==== Proof.Stretch0C.lean ====
/-
  The host operations before the first kernel region, from ANY contents `W` of the buffers: the node features in
  the kernel's input format (the format change is the identity on extended reals), the first layer's mean-aggregated
  messages, the bias as a row, and the edge- and batch-derived arrays later stretches read again (the source and
  destination node of each edge, the inverse in-degree and inverse graph-size columns).
-/
import proofs.«120171_j13091060318589_2_alg».proof.Proof.Gen.KernelIdeal.Launch
import proofs.«120171_j13091060318589_2_alg».proof.Proof.KFns
import proofs.«120171_j13091060318589_2_alg».proof.Proof.Casts
import Idealize.ShloMosaic.Lib.StableHlo.Run
import Idealize.ShloMosaic.PureOps.Ideal

set_option maxRecDepth 16384

noncomputable section

namespace Cert.KernelIdeal.Stretch0C

open Cert.KernelIdeal Cert.KernelIdeal.Gen Idealize.ShloMosaic Idealize.ShloMosaic.TcCoe Idealize.SL.Sem Idealize.ShloMosaic.StableHlo
open Cert.KernelIdeal.Fns

theorem agg (W : Valuation τ sig (Elt Ideal)) : StableHlo.after (hostOps0 (F := Ideal)) W (Proc.devRef .tc main_call0_v36)
    = aggOfK (F := Ideal) (dinvK (F := Ideal) (W (Proc.devRef .tc main_arg1))) (srcK (F := Ideal) (W (Proc.devRef .tc main_arg1))) (dstK (F := Ideal) (W (Proc.devRef .tc main_arg1))) (truncf (F := Ideal) .bf16 (W (Proc.devRef .tc main_arg0)) bitsLt_bf16_f32) := by
  after_results_simp
  simp only [Casts.ofBuf_toBuf, Casts.toBuf_v22, Casts.toBuf_v37, Casts.toBuf_v1, Casts.toBuf_v3, Casts.toBuf_v12, Casts.toBuf_v21, Casts.toBuf_v36, Casts.toBuf_v44, Casts.toBuf_v58, Casts.toBuf_v59, Casts.toBuf_v66, Casts.toBuf_v80, Casts.toBuf_v81, Casts.ofBuf_arg0, Casts.ofBuf_arg1, Casts.ofBuf_arg2, Casts.ofBuf_arg5, Casts.ofBuf_arg8, Casts.ofBuf_arg11, Casts.ofBuf_v38, Casts.ofBuf_v60, Casts.ofBuf_v21, Casts.ofBuf_v12, Casts.ofBuf_v1, Casts.ofBuf_v3]
  unfold aggOfK dinvK srcK dstK
  rfl

end Cert.KernelIdeal.Stretch0C

end
-- ==== Proof.Stretch1Keep.lean ====
/-
  Host stretch 1: the buffers it writes, and that every other buffer keeps its contents through it.
-/
import proofs.«120171_j13091060318589_2_alg».proof.Proof.Gen.KernelIdeal.Launch
import proofs.«120171_j13091060318589_2_alg».proof.Proof.RefFns
import Idealize.ShloMosaic.Lib.StableHlo.Run

set_option maxRecDepth 16384

noncomputable section

namespace Cert.KernelIdeal.Stretch1Keep

open Cert.KernelIdeal Cert.KernelIdeal.Gen Idealize.ShloMosaic Idealize.ShloMosaic.TcCoe Idealize.SL.Sem Idealize.ShloMosaic.StableHlo
open Cert.ReferenceIdeal.Fns

/-- The buffers the stretch's operations write, in order. -/
def written : List (Ref sig .tc) :=
  [main_call0_v39, main_call0_cst_9, main_call0_v40, main_call0_v41, main_call0_v42, main_call0_v43, main_call0_v44, main_call0_c_10, main_call0_v45, main_call0_v46, main_call0_c_11, main_call0_v47, main_call0_v48, main_call0_v49, main_call0_v50, main_call0_v51, main_call0_v52, main_call0_cst_12, main_call0_v53, main_call0_v54, main_call0_v55, main_call0_v56, main_call0_v57, main_call0_v58, main_call0_v59]

theorem written_sub : (hostOps1 (F := Ideal)).Forall fun op => op.writes ⊆ (written.map (Proc.devRef (τ := τ) .tc)).toFinset := by
  simp only [hostOps1, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- A buffer the stretch does not write keeps its contents. -/
theorem keep (W : Valuation τ sig (Elt Ideal)) (b : Ref sig .tc) (hb : b ∉ written) :
    StableHlo.after (hostOps1 (F := Ideal)) W (Proc.devRef .tc b) = W (Proc.devRef .tc b) :=
  StableHlo.after_of_writes_sub _ W written_sub hb

end Cert.KernelIdeal.Stretch1Keep

end
-- ==== Proof.Stretch1A.lean ====
/-
  The host operations between kernel regions 0 and 1, from ANY contents `W` of the buffers: the mean pool of the
  layer just computed, its mean aggregation over the edges for the next layer, and the next bias as a row — each a
  function of the layer's output and of the edge- and batch-derived arrays computed before the first region.
-/
import proofs.«120171_j13091060318589_2_alg».proof.Proof.Gen.KernelIdeal.Launch
import proofs.«120171_j13091060318589_2_alg».proof.Proof.KFns
import Idealize.ShloMosaic.Lib.StableHlo.Run
import Idealize.ShloMosaic.PureOps.Ideal

set_option maxRecDepth 16384

noncomputable section

namespace Cert.KernelIdeal.Stretch1A

open Cert.KernelIdeal Cert.KernelIdeal.Gen Idealize.ShloMosaic Idealize.ShloMosaic.TcCoe Idealize.SL.Sem Idealize.ShloMosaic.StableHlo
open Cert.KernelIdeal.Fns

theorem pooled (W : Valuation τ sig (Elt Ideal)) : StableHlo.after (hostOps1 (F := Ideal)) W (Proc.devRef .tc main_call0_v44)
    = poolOfK (F := Ideal) (W (Proc.devRef .tc main_call0_v21)) (W (Proc.devRef .tc main_arg2)) (W (Proc.devRef .tc main_call0_v38)) := by
  after_results_simp <;> rfl

theorem bias (W : Valuation τ sig (Elt Ideal)) : StableHlo.after (hostOps1 (F := Ideal)) W (Proc.devRef .tc main_call0_v59)
    = shapeCast S1x128 (W (Proc.devRef .tc main_arg8)) shapeCasts_S128_S1x128 := by
  after_results_simp <;> rfl

end Cert.KernelIdeal.Stretch1A

end
-- ==== Proof.Stretch1B.lean ====
/-
  The host operations between kernel regions 0 and 1, from ANY contents `W` of the buffers: the mean pool of the
  layer just computed, its mean aggregation over the edges for the next layer, and the next bias as a row — each a
  function of the layer's output and of the edge- and batch-derived arrays computed before the first region.
-/
import proofs.«120171_j13091060318589_2_alg».proof.Proof.Gen.KernelIdeal.Launch
import proofs.«120171_j13091060318589_2_alg».proof.Proof.KFns
import proofs.«120171_j13091060318589_2_alg».proof.Proof.Casts
import Idealize.ShloMosaic.Lib.StableHlo.Run
import Idealize.ShloMosaic.PureOps.Ideal

set_option maxRecDepth 16384

noncomputable section

namespace Cert.KernelIdeal.Stretch1B

open Cert.KernelIdeal Cert.KernelIdeal.Gen Idealize.ShloMosaic Idealize.ShloMosaic.TcCoe Idealize.SL.Sem Idealize.ShloMosaic.StableHlo
open Cert.KernelIdeal.Fns

theorem agg (W : Valuation τ sig (Elt Ideal)) : StableHlo.after (hostOps1 (F := Ideal)) W (Proc.devRef .tc main_call0_v58)
    = aggOfK (F := Ideal) (W (Proc.devRef .tc main_call0_v12)) (W (Proc.devRef .tc main_call0_v1)) (W (Proc.devRef .tc main_call0_v3)) (W (Proc.devRef .tc main_call0_v38)) := by
  after_results_simp
  simp only [Casts.ofBuf_toBuf, Casts.toBuf_v22, Casts.toBuf_v37, Casts.toBuf_v1, Casts.toBuf_v3, Casts.toBuf_v12, Casts.toBuf_v21, Casts.toBuf_v36, Casts.toBuf_v44, Casts.toBuf_v58, Casts.toBuf_v59, Casts.toBuf_v66, Casts.toBuf_v80, Casts.toBuf_v81, Casts.ofBuf_arg0, Casts.ofBuf_arg1, Casts.ofBuf_arg2, Casts.ofBuf_arg5, Casts.ofBuf_arg8, Casts.ofBuf_arg11, Casts.ofBuf_v38, Casts.ofBuf_v60, Casts.ofBuf_v21, Casts.ofBuf_v12, Casts.ofBuf_v1, Casts.ofBuf_v3]
  unfold aggOfK
  rfl

end Cert.KernelIdeal.Stretch1B

end
-- ==== Proof.Stretch2Keep.lean ====
/-
  Host stretch 2: the buffers it writes, and that every other buffer keeps its contents through it.
-/
import proofs.«120171_j13091060318589_2_alg».proof.Proof.Gen.KernelIdeal.Launch
import proofs.«120171_j13091060318589_2_alg».proof.Proof.RefFns
import Idealize.ShloMosaic.Lib.StableHlo.Run

set_option maxRecDepth 16384

noncomputable section

namespace Cert.KernelIdeal.Stretch2Keep

open Cert.KernelIdeal Cert.KernelIdeal.Gen Idealize.ShloMosaic Idealize.ShloMosaic.TcCoe Idealize.SL.Sem Idealize.ShloMosaic.StableHlo
open Cert.ReferenceIdeal.Fns

/-- The buffers the stretch's operations write, in order. -/
def written : List (Ref sig .tc) :=
  [main_call0_v61, main_call0_cst_13, main_call0_v62, main_call0_v63, main_call0_v64, main_call0_v65, main_call0_v66, main_call0_c_14, main_call0_v67, main_call0_v68, main_call0_c_15, main_call0_v69, main_call0_v70, main_call0_v71, main_call0_v72, main_call0_v73, main_call0_v74, main_call0_cst_16, main_call0_v75, main_call0_v76, main_call0_v77, main_call0_v78, main_call0_v79, main_call0_v80, main_call0_v81]

theorem written_sub : (hostOps2 (F := Ideal)).Forall fun op => op.writes ⊆ (written.map (Proc.devRef (τ := τ) .tc)).toFinset := by
  simp only [hostOps2, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- A buffer the stretch does not write keeps its contents. -/
theorem keep (W : Valuation τ sig (Elt Ideal)) (b : Ref sig .tc) (hb : b ∉ written) :
    StableHlo.after (hostOps2 (F := Ideal)) W (Proc.devRef .tc b) = W (Proc.devRef .tc b) :=
  StableHlo.after_of_writes_sub _ W written_sub hb

end Cert.KernelIdeal.Stretch2Keep

end
-- ==== Proof.Stretch2A.lean ====
/-
  The host operations between kernel regions 1 and 2, from ANY contents `W` of the buffers: the mean pool of the
  layer just computed, its mean aggregation over the edges for the next layer, and the next bias as a row — each a
  function of the layer's output and of the edge- and batch-derived arrays computed before the first region.
-/
import proofs.«120171_j13091060318589_2_alg».proof.Proof.Gen.KernelIdeal.Launch
import proofs.«120171_j13091060318589_2_alg».proof.Proof.KFns
import Idealize.ShloMosaic.Lib.StableHlo.Run
import Idealize.ShloMosaic.PureOps.Ideal

set_option maxRecDepth 16384

noncomputable section

namespace Cert.KernelIdeal.Stretch2A

open Cert.KernelIdeal Cert.KernelIdeal.Gen Idealize.ShloMosaic Idealize.ShloMosaic.TcCoe Idealize.SL.Sem Idealize.ShloMosaic.StableHlo
open Cert.KernelIdeal.Fns

theorem pooled (W : Valuation τ sig (Elt Ideal)) : StableHlo.after (hostOps2 (F := Ideal)) W (Proc.devRef .tc main_call0_v66)
    = poolOfK (F := Ideal) (W (Proc.devRef .tc main_call0_v21)) (W (Proc.devRef .tc main_arg2)) (W (Proc.devRef .tc main_call0_v60)) := by
  after_results_simp <;> rfl

theorem bias (W : Valuation τ sig (Elt Ideal)) : StableHlo.after (hostOps2 (F := Ideal)) W (Proc.devRef .tc main_call0_v81)
    = shapeCast S1x128 (W (Proc.devRef .tc main_arg11)) shapeCasts_S128_S1x128 := by
  after_results_simp <;> rfl

end Cert.KernelIdeal.Stretch2A

end
-- ==== Proof.Stretch2B.lean ====
/-
  The host operations between kernel regions 1 and 2, from ANY contents `W` of the buffers: the mean pool of the
  layer just computed, its mean aggregation over the edges for the next layer, and the next bias as a row — each a
  function of the layer's output and of the edge- and batch-derived arrays computed before the first region.
-/
import proofs.«120171_j13091060318589_2_alg».proof.Proof.Gen.KernelIdeal.Launch
import proofs.«120171_j13091060318589_2_alg».proof.Proof.KFns
import proofs.«120171_j13091060318589_2_alg».proof.Proof.Casts
import Idealize.ShloMosaic.Lib.StableHlo.Run
import Idealize.ShloMosaic.PureOps.Ideal

set_option maxRecDepth 16384

noncomputable section

namespace Cert.KernelIdeal.Stretch2B

open Cert.KernelIdeal Cert.KernelIdeal.Gen Idealize.ShloMosaic Idealize.ShloMosaic.TcCoe Idealize.SL.Sem Idealize.ShloMosaic.StableHlo
open Cert.KernelIdeal.Fns

theorem agg (W : Valuation τ sig (Elt Ideal)) : StableHlo.after (hostOps2 (F := Ideal)) W (Proc.devRef .tc main_call0_v80)
    = aggOfK (F := Ideal) (W (Proc.devRef .tc main_call0_v12)) (W (Proc.devRef .tc main_call0_v1)) (W (Proc.devRef .tc main_call0_v3)) (W (Proc.devRef .tc main_call0_v60)) := by
  after_results_simp
  simp only [Casts.ofBuf_toBuf, Casts.toBuf_v22, Casts.toBuf_v37, Casts.toBuf_v1, Casts.toBuf_v3, Casts.toBuf_v12, Casts.toBuf_v21, Casts.toBuf_v36, Casts.toBuf_v44, Casts.toBuf_v58, Casts.toBuf_v59, Casts.toBuf_v66, Casts.toBuf_v80, Casts.toBuf_v81, Casts.ofBuf_arg0, Casts.ofBuf_arg1, Casts.ofBuf_arg2, Casts.ofBuf_arg5, Casts.ofBuf_arg8, Casts.ofBuf_arg11, Casts.ofBuf_v38, Casts.ofBuf_v60, Casts.ofBuf_v21, Casts.ofBuf_v12, Casts.ofBuf_v1, Casts.ofBuf_v3]
  unfold aggOfK
  rfl

end Cert.KernelIdeal.Stretch2B

end
-- ==== Proof.Stretch3.lean ====
/-
  The host operations before the last kernel region, from ANY contents `W` of the buffers: the mean pool of the third
  layer added to the two pooled layers kept from before, and the head's three biases as rows. Every other buffer
  keeps its contents.
-/
import proofs.«120171_j13091060318589_2_alg».proof.Proof.Gen.KernelIdeal.Launch
import proofs.«120171_j13091060318589_2_alg».proof.Proof.KFns
import Idealize.ShloMosaic.Lib.StableHlo.Run
import Idealize.ShloMosaic.PureOps.Ideal

set_option maxRecDepth 16384

noncomputable section

namespace Cert.KernelIdeal.Stretch3

open Cert.KernelIdeal Cert.KernelIdeal.Gen Idealize.ShloMosaic Idealize.ShloMosaic.TcCoe Idealize.SL.Sem Idealize.ShloMosaic.StableHlo
open Cert.KernelIdeal.Fns

theorem pooledSum (W : Valuation τ sig (Elt Ideal)) : StableHlo.after (hostOps3 (F := Ideal)) W (Proc.devRef .tc main_call0_v90)
    = addf (F := Ideal) (φ := .f32) (addf (F := Ideal) (φ := .f32) (W (Proc.devRef .tc main_call0_v44)) (W (Proc.devRef .tc main_call0_v66))) (poolOfK (F := Ideal) (W (Proc.devRef .tc main_call0_v21)) (W (Proc.devRef .tc main_arg2)) (W (Proc.devRef .tc main_call0_v82))) := by
  after_results_simp <;> rfl

theorem bias1 (W : Valuation τ sig (Elt Ideal)) : StableHlo.after (hostOps3 (F := Ideal)) W (Proc.devRef .tc main_call0_v91)
    = shapeCast S1x128 (W (Proc.devRef .tc main_arg13)) shapeCasts_S128_S1x128 := by
  after_results_simp <;> rfl

theorem bias2 (W : Valuation τ sig (Elt Ideal)) : StableHlo.after (hostOps3 (F := Ideal)) W (Proc.devRef .tc main_call0_v92)
    = shapeCast S1x64 (W (Proc.devRef .tc main_arg15)) shapeCasts_S64_S1x64 := by
  after_results_simp <;> rfl

theorem bias3 (W : Valuation τ sig (Elt Ideal)) : StableHlo.after (hostOps3 (F := Ideal)) W (Proc.devRef .tc main_call0_v93)
    = shapeCast S1x10 (W (Proc.devRef .tc main_arg17)) shapeCasts_S10_S1x10 := by
  after_results_simp <;> rfl

theorem keep_main_arg12 (W : Valuation τ sig (Elt Ideal)) : StableHlo.after (hostOps3 (F := Ideal)) W (Proc.devRef .tc main_arg12) = W (Proc.devRef .tc main_arg12) := by
  after_results_simp <;> rfl

theorem keep_main_arg14 (W : Valuation τ sig (Elt Ideal)) : StableHlo.after (hostOps3 (F := Ideal)) W (Proc.devRef .tc main_arg14) = W (Proc.devRef .tc main_arg14) := by
  after_results_simp <;> rfl

theorem keep_main_arg16 (W : Valuation τ sig (Elt Ideal)) : StableHlo.after (hostOps3 (F := Ideal)) W (Proc.devRef .tc main_arg16) = W (Proc.devRef .tc main_arg16) := by
  after_results_simp <;> rfl

end Cert.KernelIdeal.Stretch3

end
-- ==== Proof.KValue.lean ====
/-
  THE KERNEL PROGRAM'S RESULT, as the reference's function of the arguments. The fold through @main is walked
  boundary by boundary: at every boundary each buffer a later step still reads is pinned to its value in the
  reference's own terms — the node features and the edge- and batch-derived arrays after the first host stretch;
  after each kernel region its layer (the region's row-blocked computation is the whole-array layer, and the layer
  is the reference's); after each later host stretch the layer's mean pool and its aggregation for the next layer;
  at the last region's entry the three pooled layers added; and after the last region the head of that. Buffers a
  step does not write keep their contents.
-/
import proofs.«120171_j13091060318589_2_alg».proof.Proof.Gen.KernelIdeal.Frame
import proofs.«120171_j13091060318589_2_alg».proof.Proof.Sage0
import proofs.«120171_j13091060318589_2_alg».proof.Proof.Sage1
import proofs.«120171_j13091060318589_2_alg».proof.Proof.Sage2
import proofs.«120171_j13091060318589_2_alg».proof.Proof.Mlp
import proofs.«120171_j13091060318589_2_alg».proof.Proof.MlpBridge
import proofs.«120171_j13091060318589_2_alg».proof.Proof.SageBridge
import proofs.«120171_j13091060318589_2_alg».proof.Proof.FnBridge
import proofs.«120171_j13091060318589_2_alg».proof.Proof.Stretch0Keep
import proofs.«120171_j13091060318589_2_alg».proof.Proof.Stretch0A
import proofs.«120171_j13091060318589_2_alg».proof.Proof.Stretch0B
import proofs.«120171_j13091060318589_2_alg».proof.Proof.Stretch0C
import proofs.«120171_j13091060318589_2_alg».proof.Proof.Stretch1Keep
import proofs.«120171_j13091060318589_2_alg».proof.Proof.Stretch1A
import proofs.«120171_j13091060318589_2_alg».proof.Proof.Stretch1B
import proofs.«120171_j13091060318589_2_alg».proof.Proof.Stretch2Keep
import proofs.«120171_j13091060318589_2_alg».proof.Proof.Stretch2A
import proofs.«120171_j13091060318589_2_alg».proof.Proof.Stretch2B
import proofs.«120171_j13091060318589_2_alg».proof.Proof.Stretch3

set_option maxRecDepth 16384

noncomputable section

namespace Cert.KernelIdeal.Walk

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## Boundary 1: after host stretch 0 (entry of region 0) -/

/-- The node features in the kernel's input format are the node features. -/
theorem f1_v22 : V1 m ρ c main_call0_v22 = (m ((c.tc : Thread nD τ).loc main_arg0)) :=
  (Stretch0A.feat (W0 m ρ c)).trans rfl

/-- The first layer's aggregated messages. -/
theorem f1_v36 : V1 m ρ c main_call0_v36 = (Cert.ReferenceIdeal.Fns.aggR (F := Ideal) (m ((c.tc : Thread nD τ).loc main_arg1)) (m ((c.tc : Thread nD τ).loc main_arg0))) :=
  (Stretch0C.agg (W0 m ρ c)).trans ((Cert.FnBridge.agg_eq _ _ _ _).trans (by rw [Cert.FnBridge.dinv_eq, Cert.FnBridge.src_eq, Cert.FnBridge.dst_eq]; rfl))

theorem f1_arg3 : V1 m ρ c main_arg3 = (m ((c.tc : Thread nD τ).loc main_arg3)) :=
  (Stretch0Keep.keep (W0 m ρ c) main_arg3 (by decide)).trans rfl

theorem f1_arg4 : V1 m ρ c main_arg4 = (m ((c.tc : Thread nD τ).loc main_arg4)) :=
  (Stretch0Keep.keep (W0 m ρ c) main_arg4 (by decide)).trans rfl

theorem f1_v37 : V1 m ρ c main_call0_v37 = (shapeCast S1x128 (m ((c.tc : Thread nD τ).loc main_arg5)) shapeCasts_S128_S1x128) :=
  (Stretch0A.bias (W0 m ρ c)).trans rfl

theorem f1_v21 : V1 m ρ c main_call0_v21 = (Cert.ReferenceIdeal.Read.val_main_v21 (F := Ideal) (m ((c.tc : Thread nD τ).loc main_arg2))) :=
  (Stretch0B.cinv (W0 m ρ c)).trans (Cert.FnBridge.cinv_eq _)

theorem f1_arg2 : V1 m ρ c main_arg2 = (m ((c.tc : Thread nD τ).loc main_arg2)) :=
  (Stretch0Keep.keep (W0 m ρ c) main_arg2 (by decide)).trans rfl

theorem f1_v12 : V1 m ρ c main_call0_v12 = (Cert.ReferenceIdeal.Read.val_main_v12 (F := Ideal) (m ((c.tc : Thread nD τ).loc main_arg1))) :=
  (Stretch0B.dinv (W0 m ρ c)).trans (Cert.FnBridge.dinv_eq _)

theorem f1_v1 : V1 m ρ c main_call0_v1 = (Cert.ReferenceIdeal.Read.val_main_v1 (F := Ideal) (m ((c.tc : Thread nD τ).loc main_arg1))) :=
  (Stretch0A.src (W0 m ρ c)).trans (Cert.FnBridge.src_eq _)

theorem f1_v3 : V1 m ρ c main_call0_v3 = (Cert.ReferenceIdeal.Read.val_main_v3 (F := Ideal) (m ((c.tc : Thread nD τ).loc main_arg1))) :=
  (Stretch0A.dst (W0 m ρ c)).trans (Cert.FnBridge.dst_eq _)

theorem f1_arg8 : V1 m ρ c main_arg8 = (m ((c.tc : Thread nD τ).loc main_arg8)) :=
  (Stretch0Keep.keep (W0 m ρ c) main_arg8 (by decide)).trans rfl

theorem f1_arg6 : V1 m ρ c main_arg6 = (m ((c.tc : Thread nD τ).loc main_arg6)) :=
  (Stretch0Keep.keep (W0 m ρ c) main_arg6 (by decide)).trans rfl

theorem f1_arg7 : V1 m ρ c main_arg7 = (m ((c.tc : Thread nD τ).loc main_arg7)) :=
  (Stretch0Keep.keep (W0 m ρ c) main_arg7 (by decide)).trans rfl

theorem f1_arg11 : V1 m ρ c main_arg11 = (m ((c.tc : Thread nD τ).loc main_arg11)) :=
  (Stretch0Keep.keep (W0 m ρ c) main_arg11 (by decide)).trans rfl

theorem f1_arg9 : V1 m ρ c main_arg9 = (m ((c.tc : Thread nD τ).loc main_arg9)) :=
  (Stretch0Keep.keep (W0 m ρ c) main_arg9 (by decide)).trans rfl

theorem f1_arg10 : V1 m ρ c main_arg10 = (m ((c.tc : Thread nD τ).loc main_arg10)) :=
  (Stretch0Keep.keep (W0 m ρ c) main_arg10 (by decide)).trans rfl

theorem f1_arg13 : V1 m ρ c main_arg13 = (m ((c.tc : Thread nD τ).loc main_arg13)) :=
  (Stretch0Keep.keep (W0 m ρ c) main_arg13 (by decide)).trans rfl

theorem f1_arg15 : V1 m ρ c main_arg15 = (m ((c.tc : Thread nD τ).loc main_arg15)) :=
  (Stretch0Keep.keep (W0 m ρ c) main_arg15 (by decide)).trans rfl

theorem f1_arg17 : V1 m ρ c main_arg17 = (m ((c.tc : Thread nD τ).loc main_arg17)) :=
  (Stretch0Keep.keep (W0 m ρ c) main_arg17 (by decide)).trans rfl

theorem f1_arg12 : V1 m ρ c main_arg12 = (m ((c.tc : Thread nD τ).loc main_arg12)) :=
  (Stretch0Keep.keep (W0 m ρ c) main_arg12 (by decide)).trans rfl

theorem f1_arg14 : V1 m ρ c main_arg14 = (m ((c.tc : Thread nD τ).loc main_arg14)) :=
  (Stretch0Keep.keep (W0 m ρ c) main_arg14 (by decide)).trans rfl

theorem f1_arg16 : V1 m ρ c main_arg16 = (m ((c.tc : Thread nD τ).loc main_arg16)) :=
  (Stretch0Keep.keep (W0 m ρ c) main_arg16 (by decide)).trans rfl

/-! ## Boundary 2: after region 0 -/

/-- Layer 1: what region 0 leaves is the reference's layer 1. -/
theorem f2_v38 : W2 m ρ c (Proc.devRef .tc main_call0_v38) = (Cert.ReferenceIdeal.Read.val_main_v40 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  (W2_arr m ρ c 5).trans ((Sage0.final (V1 m ρ) c).trans (by
    rw [(f1_v22 m ρ c), (f1_v36 m ρ c), (f1_arg3 m ρ c), (f1_arg4 m ρ c), (f1_v37 m ρ c)]
    exact (Cert.ReferenceIdeal.Bridge.sageR_eq _ _ _ _ _ _).symm.trans (Cert.ReferenceIdeal.Fns.h1_eq ..).symm))

theorem f2_v21 : W2 m ρ c (Proc.devRef .tc main_call0_v21) = (Cert.ReferenceIdeal.Read.val_main_v21 (F := Ideal) (m ((c.tc : Thread nD τ).loc main_arg2))) :=
  (W2_of_ne m ρ c main_call0_v21 (by decide)).trans (f1_v21 m ρ c)

theorem f2_arg2 : W2 m ρ c (Proc.devRef .tc main_arg2) = (m ((c.tc : Thread nD τ).loc main_arg2)) :=
  (W2_of_ne m ρ c main_arg2 (by decide)).trans (f1_arg2 m ρ c)

theorem f2_v12 : W2 m ρ c (Proc.devRef .tc main_call0_v12) = (Cert.ReferenceIdeal.Read.val_main_v12 (F := Ideal) (m ((c.tc : Thread nD τ).loc main_arg1))) :=
  (W2_of_ne m ρ c main_call0_v12 (by decide)).trans (f1_v12 m ρ c)

theorem f2_v1 : W2 m ρ c (Proc.devRef .tc main_call0_v1) = (Cert.ReferenceIdeal.Read.val_main_v1 (F := Ideal) (m ((c.tc : Thread nD τ).loc main_arg1))) :=
  (W2_of_ne m ρ c main_call0_v1 (by decide)).trans (f1_v1 m ρ c)

theorem f2_v3 : W2 m ρ c (Proc.devRef .tc main_call0_v3) = (Cert.ReferenceIdeal.Read.val_main_v3 (F := Ideal) (m ((c.tc : Thread nD τ).loc main_arg1))) :=
  (W2_of_ne m ρ c main_call0_v3 (by decide)).trans (f1_v3 m ρ c)

theorem f2_arg8 : W2 m ρ c (Proc.devRef .tc main_arg8) = (m ((c.tc : Thread nD τ).loc main_arg8)) :=
  (W2_of_ne m ρ c main_arg8 (by decide)).trans (f1_arg8 m ρ c)

theorem f2_arg6 : W2 m ρ c (Proc.devRef .tc main_arg6) = (m ((c.tc : Thread nD τ).loc main_arg6)) :=
  (W2_of_ne m ρ c main_arg6 (by decide)).trans (f1_arg6 m ρ c)

theorem f2_arg7 : W2 m ρ c (Proc.devRef .tc main_arg7) = (m ((c.tc : Thread nD τ).loc main_arg7)) :=
  (W2_of_ne m ρ c main_arg7 (by decide)).trans (f1_arg7 m ρ c)

theorem f2_arg11 : W2 m ρ c (Proc.devRef .tc main_arg11) = (m ((c.tc : Thread nD τ).loc main_arg11)) :=
  (W2_of_ne m ρ c main_arg11 (by decide)).trans (f1_arg11 m ρ c)

theorem f2_arg9 : W2 m ρ c (Proc.devRef .tc main_arg9) = (m ((c.tc : Thread nD τ).loc main_arg9)) :=
  (W2_of_ne m ρ c main_arg9 (by decide)).trans (f1_arg9 m ρ c)

theorem f2_arg10 : W2 m ρ c (Proc.devRef .tc main_arg10) = (m ((c.tc : Thread nD τ).loc main_arg10)) :=
  (W2_of_ne m ρ c main_arg10 (by decide)).trans (f1_arg10 m ρ c)

theorem f2_arg13 : W2 m ρ c (Proc.devRef .tc main_arg13) = (m ((c.tc : Thread nD τ).loc main_arg13)) :=
  (W2_of_ne m ρ c main_arg13 (by decide)).trans (f1_arg13 m ρ c)

theorem f2_arg15 : W2 m ρ c (Proc.devRef .tc main_arg15) = (m ((c.tc : Thread nD τ).loc main_arg15)) :=
  (W2_of_ne m ρ c main_arg15 (by decide)).trans (f1_arg15 m ρ c)

theorem f2_arg17 : W2 m ρ c (Proc.devRef .tc main_arg17) = (m ((c.tc : Thread nD τ).loc main_arg17)) :=
  (W2_of_ne m ρ c main_arg17 (by decide)).trans (f1_arg17 m ρ c)

theorem f2_arg12 : W2 m ρ c (Proc.devRef .tc main_arg12) = (m ((c.tc : Thread nD τ).loc main_arg12)) :=
  (W2_of_ne m ρ c main_arg12 (by decide)).trans (f1_arg12 m ρ c)

theorem f2_arg14 : W2 m ρ c (Proc.devRef .tc main_arg14) = (m ((c.tc : Thread nD τ).loc main_arg14)) :=
  (W2_of_ne m ρ c main_arg14 (by decide)).trans (f1_arg14 m ρ c)

theorem f2_arg16 : W2 m ρ c (Proc.devRef .tc main_arg16) = (m ((c.tc : Thread nD τ).loc main_arg16)) :=
  (W2_of_ne m ρ c main_arg16 (by decide)).trans (f1_arg16 m ρ c)

/-! ## Boundary 3: after host stretch 1 (entry of region 1) -/

theorem f3_v38 : V3 m ρ c main_call0_v38 = (Cert.ReferenceIdeal.Read.val_main_v40 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  (Stretch1Keep.keep (W2 m ρ c) main_call0_v38 (by decide)).trans (f2_v38 m ρ c)

/-- Layer 1's output aggregated for layer 2. -/
theorem f3_v58 : V3 m ρ c main_call0_v58 = (Cert.ReferenceIdeal.Fns.aggR (F := Ideal) (m ((c.tc : Thread nD τ).loc main_arg1)) (Cert.ReferenceIdeal.Read.val_main_v40 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))) :=
  (Stretch1B.agg (W2 m ρ c)).trans ((Cert.FnBridge.agg_eq _ _ _ _).trans (by
    rw [(f2_v12 m ρ c), (f2_v1 m ρ c), (f2_v3 m ρ c), (f2_v38 m ρ c)]; rfl))

theorem f3_arg6 : V3 m ρ c main_arg6 = (m ((c.tc : Thread nD τ).loc main_arg6)) :=
  (Stretch1Keep.keep (W2 m ρ c) main_arg6 (by decide)).trans (f2_arg6 m ρ c)

theorem f3_arg7 : V3 m ρ c main_arg7 = (m ((c.tc : Thread nD τ).loc main_arg7)) :=
  (Stretch1Keep.keep (W2 m ρ c) main_arg7 (by decide)).trans (f2_arg7 m ρ c)

theorem f3_v59 : V3 m ρ c main_call0_v59 = (shapeCast S1x128 (m ((c.tc : Thread nD τ).loc main_arg8)) shapeCasts_S128_S1x128) :=
  (Stretch1A.bias (W2 m ρ c)).trans (by rw [(f2_arg8 m ρ c)])

theorem f3_v21 : V3 m ρ c main_call0_v21 = (Cert.ReferenceIdeal.Read.val_main_v21 (F := Ideal) (m ((c.tc : Thread nD τ).loc main_arg2))) :=
  (Stretch1Keep.keep (W2 m ρ c) main_call0_v21 (by decide)).trans (f2_v21 m ρ c)

theorem f3_arg2 : V3 m ρ c main_arg2 = (m ((c.tc : Thread nD τ).loc main_arg2)) :=
  (Stretch1Keep.keep (W2 m ρ c) main_arg2 (by decide)).trans (f2_arg2 m ρ c)

theorem f3_v12 : V3 m ρ c main_call0_v12 = (Cert.ReferenceIdeal.Read.val_main_v12 (F := Ideal) (m ((c.tc : Thread nD τ).loc main_arg1))) :=
  (Stretch1Keep.keep (W2 m ρ c) main_call0_v12 (by decide)).trans (f2_v12 m ρ c)

theorem f3_v1 : V3 m ρ c main_call0_v1 = (Cert.ReferenceIdeal.Read.val_main_v1 (F := Ideal) (m ((c.tc : Thread nD τ).loc main_arg1))) :=
  (Stretch1Keep.keep (W2 m ρ c) main_call0_v1 (by decide)).trans (f2_v1 m ρ c)

theorem f3_v3 : V3 m ρ c main_call0_v3 = (Cert.ReferenceIdeal.Read.val_main_v3 (F := Ideal) (m ((c.tc : Thread nD τ).loc main_arg1))) :=
  (Stretch1Keep.keep (W2 m ρ c) main_call0_v3 (by decide)).trans (f2_v3 m ρ c)

theorem f3_arg11 : V3 m ρ c main_arg11 = (m ((c.tc : Thread nD τ).loc main_arg11)) :=
  (Stretch1Keep.keep (W2 m ρ c) main_arg11 (by decide)).trans (f2_arg11 m ρ c)

theorem f3_arg9 : V3 m ρ c main_arg9 = (m ((c.tc : Thread nD τ).loc main_arg9)) :=
  (Stretch1Keep.keep (W2 m ρ c) main_arg9 (by decide)).trans (f2_arg9 m ρ c)

theorem f3_arg10 : V3 m ρ c main_arg10 = (m ((c.tc : Thread nD τ).loc main_arg10)) :=
  (Stretch1Keep.keep (W2 m ρ c) main_arg10 (by decide)).trans (f2_arg10 m ρ c)

/-- The mean pool of layer 1. -/
theorem f3_v44 : V3 m ρ c main_call0_v44 = (Cert.ReferenceIdeal.Fns.poolR (F := Ideal) (m ((c.tc : Thread nD τ).loc main_arg2)) (Cert.ReferenceIdeal.Read.val_main_v40 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))) :=
  (Stretch1A.pooled (W2 m ρ c)).trans ((Cert.FnBridge.pool_eq _ _ _).trans (by
    rw [(f2_v21 m ρ c), (f2_arg2 m ρ c), (f2_v38 m ρ c)]; rfl))

theorem f3_arg13 : V3 m ρ c main_arg13 = (m ((c.tc : Thread nD τ).loc main_arg13)) :=
  (Stretch1Keep.keep (W2 m ρ c) main_arg13 (by decide)).trans (f2_arg13 m ρ c)

theorem f3_arg15 : V3 m ρ c main_arg15 = (m ((c.tc : Thread nD τ).loc main_arg15)) :=
  (Stretch1Keep.keep (W2 m ρ c) main_arg15 (by decide)).trans (f2_arg15 m ρ c)

theorem f3_arg17 : V3 m ρ c main_arg17 = (m ((c.tc : Thread nD τ).loc main_arg17)) :=
  (Stretch1Keep.keep (W2 m ρ c) main_arg17 (by decide)).trans (f2_arg17 m ρ c)

theorem f3_arg12 : V3 m ρ c main_arg12 = (m ((c.tc : Thread nD τ).loc main_arg12)) :=
  (Stretch1Keep.keep (W2 m ρ c) main_arg12 (by decide)).trans (f2_arg12 m ρ c)

theorem f3_arg14 : V3 m ρ c main_arg14 = (m ((c.tc : Thread nD τ).loc main_arg14)) :=
  (Stretch1Keep.keep (W2 m ρ c) main_arg14 (by decide)).trans (f2_arg14 m ρ c)

theorem f3_arg16 : V3 m ρ c main_arg16 = (m ((c.tc : Thread nD τ).loc main_arg16)) :=
  (Stretch1Keep.keep (W2 m ρ c) main_arg16 (by decide)).trans (f2_arg16 m ρ c)

/-! ## Boundary 4: after region 1 -/

/-- Layer 2: what region 1 leaves is the reference's layer 2. -/
theorem f4_v60 : W4 m ρ c (Proc.devRef .tc main_call0_v60) = (Cert.ReferenceIdeal.Read.val_main_v64 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W4_arr m ρ c 5).trans ((Sage1.final (V3 m ρ) c).trans (by
    rw [(f3_v38 m ρ c), (f3_v58 m ρ c), (f3_arg6 m ρ c), (f3_arg7 m ρ c), (f3_v59 m ρ c)]
    exact (Cert.ReferenceIdeal.Bridge.sageR_eq _ _ _ _ _ _).symm.trans (Cert.ReferenceIdeal.Fns.h2_eq ..).symm))

theorem f4_v21 : W4 m ρ c (Proc.devRef .tc main_call0_v21) = (Cert.ReferenceIdeal.Read.val_main_v21 (F := Ideal) (m ((c.tc : Thread nD τ).loc main_arg2))) :=
  (W4_of_ne m ρ c main_call0_v21 (by decide)).trans (f3_v21 m ρ c)

theorem f4_arg2 : W4 m ρ c (Proc.devRef .tc main_arg2) = (m ((c.tc : Thread nD τ).loc main_arg2)) :=
  (W4_of_ne m ρ c main_arg2 (by decide)).trans (f3_arg2 m ρ c)

theorem f4_v12 : W4 m ρ c (Proc.devRef .tc main_call0_v12) = (Cert.ReferenceIdeal.Read.val_main_v12 (F := Ideal) (m ((c.tc : Thread nD τ).loc main_arg1))) :=
  (W4_of_ne m ρ c main_call0_v12 (by decide)).trans (f3_v12 m ρ c)

theorem f4_v1 : W4 m ρ c (Proc.devRef .tc main_call0_v1) = (Cert.ReferenceIdeal.Read.val_main_v1 (F := Ideal) (m ((c.tc : Thread nD τ).loc main_arg1))) :=
  (W4_of_ne m ρ c main_call0_v1 (by decide)).trans (f3_v1 m ρ c)

theorem f4_v3 : W4 m ρ c (Proc.devRef .tc main_call0_v3) = (Cert.ReferenceIdeal.Read.val_main_v3 (F := Ideal) (m ((c.tc : Thread nD τ).loc main_arg1))) :=
  (W4_of_ne m ρ c main_call0_v3 (by decide)).trans (f3_v3 m ρ c)

theorem f4_arg11 : W4 m ρ c (Proc.devRef .tc main_arg11) = (m ((c.tc : Thread nD τ).loc main_arg11)) :=
  (W4_of_ne m ρ c main_arg11 (by decide)).trans (f3_arg11 m ρ c)

theorem f4_arg9 : W4 m ρ c (Proc.devRef .tc main_arg9) = (m ((c.tc : Thread nD τ).loc main_arg9)) :=
  (W4_of_ne m ρ c main_arg9 (by decide)).trans (f3_arg9 m ρ c)

theorem f4_arg10 : W4 m ρ c (Proc.devRef .tc main_arg10) = (m ((c.tc : Thread nD τ).loc main_arg10)) :=
  (W4_of_ne m ρ c main_arg10 (by decide)).trans (f3_arg10 m ρ c)

theorem f4_v44 : W4 m ρ c (Proc.devRef .tc main_call0_v44) = (Cert.ReferenceIdeal.Fns.poolR (F := Ideal) (m ((c.tc : Thread nD τ).loc main_arg2)) (Cert.ReferenceIdeal.Read.val_main_v40 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))) :=
  (W4_of_ne m ρ c main_call0_v44 (by decide)).trans (f3_v44 m ρ c)

theorem f4_arg13 : W4 m ρ c (Proc.devRef .tc main_arg13) = (m ((c.tc : Thread nD τ).loc main_arg13)) :=
  (W4_of_ne m ρ c main_arg13 (by decide)).trans (f3_arg13 m ρ c)

theorem f4_arg15 : W4 m ρ c (Proc.devRef .tc main_arg15) = (m ((c.tc : Thread nD τ).loc main_arg15)) :=
  (W4_of_ne m ρ c main_arg15 (by decide)).trans (f3_arg15 m ρ c)

theorem f4_arg17 : W4 m ρ c (Proc.devRef .tc main_arg17) = (m ((c.tc : Thread nD τ).loc main_arg17)) :=
  (W4_of_ne m ρ c main_arg17 (by decide)).trans (f3_arg17 m ρ c)

theorem f4_arg12 : W4 m ρ c (Proc.devRef .tc main_arg12) = (m ((c.tc : Thread nD τ).loc main_arg12)) :=
  (W4_of_ne m ρ c main_arg12 (by decide)).trans (f3_arg12 m ρ c)

theorem f4_arg14 : W4 m ρ c (Proc.devRef .tc main_arg14) = (m ((c.tc : Thread nD τ).loc main_arg14)) :=
  (W4_of_ne m ρ c main_arg14 (by decide)).trans (f3_arg14 m ρ c)

theorem f4_arg16 : W4 m ρ c (Proc.devRef .tc main_arg16) = (m ((c.tc : Thread nD τ).loc main_arg16)) :=
  (W4_of_ne m ρ c main_arg16 (by decide)).trans (f3_arg16 m ρ c)

/-! ## Boundary 5: after host stretch 2 (entry of region 2) -/

theorem f5_v60 : V5 m ρ c main_call0_v60 = (Cert.ReferenceIdeal.Read.val_main_v64 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (Stretch2Keep.keep (W4 m ρ c) main_call0_v60 (by decide)).trans (f4_v60 m ρ c)

/-- Layer 2's output aggregated for layer 3. -/
theorem f5_v80 : V5 m ρ c main_call0_v80 = (Cert.ReferenceIdeal.Fns.aggR (F := Ideal) (m ((c.tc : Thread nD τ).loc main_arg1)) (Cert.ReferenceIdeal.Read.val_main_v64 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) :=
  (Stretch2B.agg (W4 m ρ c)).trans ((Cert.FnBridge.agg_eq _ _ _ _).trans (by
    rw [(f4_v12 m ρ c), (f4_v1 m ρ c), (f4_v3 m ρ c), (f4_v60 m ρ c)]; rfl))

theorem f5_arg9 : V5 m ρ c main_arg9 = (m ((c.tc : Thread nD τ).loc main_arg9)) :=
  (Stretch2Keep.keep (W4 m ρ c) main_arg9 (by decide)).trans (f4_arg9 m ρ c)

theorem f5_arg10 : V5 m ρ c main_arg10 = (m ((c.tc : Thread nD τ).loc main_arg10)) :=
  (Stretch2Keep.keep (W4 m ρ c) main_arg10 (by decide)).trans (f4_arg10 m ρ c)

theorem f5_v81 : V5 m ρ c main_call0_v81 = (shapeCast S1x128 (m ((c.tc : Thread nD τ).loc main_arg11)) shapeCasts_S128_S1x128) :=
  (Stretch2A.bias (W4 m ρ c)).trans (by rw [(f4_arg11 m ρ c)])

theorem f5_v21 : V5 m ρ c main_call0_v21 = (Cert.ReferenceIdeal.Read.val_main_v21 (F := Ideal) (m ((c.tc : Thread nD τ).loc main_arg2))) :=
  (Stretch2Keep.keep (W4 m ρ c) main_call0_v21 (by decide)).trans (f4_v21 m ρ c)

theorem f5_arg2 : V5 m ρ c main_arg2 = (m ((c.tc : Thread nD τ).loc main_arg2)) :=
  (Stretch2Keep.keep (W4 m ρ c) main_arg2 (by decide)).trans (f4_arg2 m ρ c)

theorem f5_v44 : V5 m ρ c main_call0_v44 = (Cert.ReferenceIdeal.Fns.poolR (F := Ideal) (m ((c.tc : Thread nD τ).loc main_arg2)) (Cert.ReferenceIdeal.Read.val_main_v40 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))) :=
  (Stretch2Keep.keep (W4 m ρ c) main_call0_v44 (by decide)).trans (f4_v44 m ρ c)

/-- The mean pool of layer 2. -/
theorem f5_v66 : V5 m ρ c main_call0_v66 = (Cert.ReferenceIdeal.Fns.poolR (F := Ideal) (m ((c.tc : Thread nD τ).loc main_arg2)) (Cert.ReferenceIdeal.Read.val_main_v64 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) :=
  (Stretch2A.pooled (W4 m ρ c)).trans ((Cert.FnBridge.pool_eq _ _ _).trans (by
    rw [(f4_v21 m ρ c), (f4_arg2 m ρ c), (f4_v60 m ρ c)]; rfl))

theorem f5_arg13 : V5 m ρ c main_arg13 = (m ((c.tc : Thread nD τ).loc main_arg13)) :=
  (Stretch2Keep.keep (W4 m ρ c) main_arg13 (by decide)).trans (f4_arg13 m ρ c)

theorem f5_arg15 : V5 m ρ c main_arg15 = (m ((c.tc : Thread nD τ).loc main_arg15)) :=
  (Stretch2Keep.keep (W4 m ρ c) main_arg15 (by decide)).trans (f4_arg15 m ρ c)

theorem f5_arg17 : V5 m ρ c main_arg17 = (m ((c.tc : Thread nD τ).loc main_arg17)) :=
  (Stretch2Keep.keep (W4 m ρ c) main_arg17 (by decide)).trans (f4_arg17 m ρ c)

theorem f5_arg12 : V5 m ρ c main_arg12 = (m ((c.tc : Thread nD τ).loc main_arg12)) :=
  (Stretch2Keep.keep (W4 m ρ c) main_arg12 (by decide)).trans (f4_arg12 m ρ c)

theorem f5_arg14 : V5 m ρ c main_arg14 = (m ((c.tc : Thread nD τ).loc main_arg14)) :=
  (Stretch2Keep.keep (W4 m ρ c) main_arg14 (by decide)).trans (f4_arg14 m ρ c)

theorem f5_arg16 : V5 m ρ c main_arg16 = (m ((c.tc : Thread nD τ).loc main_arg16)) :=
  (Stretch2Keep.keep (W4 m ρ c) main_arg16 (by decide)).trans (f4_arg16 m ρ c)

/-! ## Boundary 6: after region 2 -/

/-- Layer 3: what region 2 leaves is the reference's layer 3. -/
theorem f6_v82 : W6 m ρ c (Proc.devRef .tc main_call0_v82) = (Cert.ReferenceIdeal.Read.val_main_v88 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
  (W6_arr m ρ c 5).trans ((Sage2.final (V5 m ρ) c).trans (by
    rw [(f5_v60 m ρ c), (f5_v80 m ρ c), (f5_arg9 m ρ c), (f5_arg10 m ρ c), (f5_v81 m ρ c)]
    exact (Cert.ReferenceIdeal.Bridge.sageR_eq _ _ _ _ _ _).symm.trans (Cert.ReferenceIdeal.Fns.h3_eq ..).symm))

theorem f6_v21 : W6 m ρ c (Proc.devRef .tc main_call0_v21) = (Cert.ReferenceIdeal.Read.val_main_v21 (F := Ideal) (m ((c.tc : Thread nD τ).loc main_arg2))) :=
  (W6_of_ne m ρ c main_call0_v21 (by decide)).trans (f5_v21 m ρ c)

theorem f6_arg2 : W6 m ρ c (Proc.devRef .tc main_arg2) = (m ((c.tc : Thread nD τ).loc main_arg2)) :=
  (W6_of_ne m ρ c main_arg2 (by decide)).trans (f5_arg2 m ρ c)

theorem f6_v44 : W6 m ρ c (Proc.devRef .tc main_call0_v44) = (Cert.ReferenceIdeal.Fns.poolR (F := Ideal) (m ((c.tc : Thread nD τ).loc main_arg2)) (Cert.ReferenceIdeal.Read.val_main_v40 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))) :=
  (W6_of_ne m ρ c main_call0_v44 (by decide)).trans (f5_v44 m ρ c)

theorem f6_v66 : W6 m ρ c (Proc.devRef .tc main_call0_v66) = (Cert.ReferenceIdeal.Fns.poolR (F := Ideal) (m ((c.tc : Thread nD τ).loc main_arg2)) (Cert.ReferenceIdeal.Read.val_main_v64 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) :=
  (W6_of_ne m ρ c main_call0_v66 (by decide)).trans (f5_v66 m ρ c)

theorem f6_arg13 : W6 m ρ c (Proc.devRef .tc main_arg13) = (m ((c.tc : Thread nD τ).loc main_arg13)) :=
  (W6_of_ne m ρ c main_arg13 (by decide)).trans (f5_arg13 m ρ c)

theorem f6_arg15 : W6 m ρ c (Proc.devRef .tc main_arg15) = (m ((c.tc : Thread nD τ).loc main_arg15)) :=
  (W6_of_ne m ρ c main_arg15 (by decide)).trans (f5_arg15 m ρ c)

theorem f6_arg17 : W6 m ρ c (Proc.devRef .tc main_arg17) = (m ((c.tc : Thread nD τ).loc main_arg17)) :=
  (W6_of_ne m ρ c main_arg17 (by decide)).trans (f5_arg17 m ρ c)

theorem f6_arg12 : W6 m ρ c (Proc.devRef .tc main_arg12) = (m ((c.tc : Thread nD τ).loc main_arg12)) :=
  (W6_of_ne m ρ c main_arg12 (by decide)).trans (f5_arg12 m ρ c)

theorem f6_arg14 : W6 m ρ c (Proc.devRef .tc main_arg14) = (m ((c.tc : Thread nD τ).loc main_arg14)) :=
  (W6_of_ne m ρ c main_arg14 (by decide)).trans (f5_arg14 m ρ c)

theorem f6_arg16 : W6 m ρ c (Proc.devRef .tc main_arg16) = (m ((c.tc : Thread nD τ).loc main_arg16)) :=
  (W6_of_ne m ρ c main_arg16 (by decide)).trans (f5_arg16 m ρ c)

/-! ## Boundary 7: after host stretch 3 (entry of region 3) -/

/-- The three pooled layers added: the head's input. -/
theorem f7_v90 : V7 m ρ c main_call0_v90 = (Cert.ReferenceIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
  (Stretch3.pooledSum (W6 m ρ c)).trans (by
    rw [Cert.FnBridge.pool_eq, (f6_v44 m ρ c), (f6_v66 m ρ c), (f6_v21 m ρ c), (f6_arg2 m ρ c), (f6_v82 m ρ c)]
    exact (Cert.ReferenceIdeal.Fns.pooled_eq ..).symm)

theorem f7_arg12 : V7 m ρ c main_arg12 = (m ((c.tc : Thread nD τ).loc main_arg12)) :=
  (Stretch3.keep_main_arg12 (W6 m ρ c)).trans (f6_arg12 m ρ c)

theorem f7_v91 : V7 m ρ c main_call0_v91 = (shapeCast S1x128 (m ((c.tc : Thread nD τ).loc main_arg13)) shapeCasts_S128_S1x128) :=
  (Stretch3.bias1 (W6 m ρ c)).trans (by rw [(f6_arg13 m ρ c)])

theorem f7_arg14 : V7 m ρ c main_arg14 = (m ((c.tc : Thread nD τ).loc main_arg14)) :=
  (Stretch3.keep_main_arg14 (W6 m ρ c)).trans (f6_arg14 m ρ c)

theorem f7_v92 : V7 m ρ c main_call0_v92 = (shapeCast S1x64 (m ((c.tc : Thread nD τ).loc main_arg15)) shapeCasts_S64_S1x64) :=
  (Stretch3.bias2 (W6 m ρ c)).trans (by rw [(f6_arg15 m ρ c)])

theorem f7_arg16 : V7 m ρ c main_arg16 = (m ((c.tc : Thread nD τ).loc main_arg16)) :=
  (Stretch3.keep_main_arg16 (W6 m ρ c)).trans (f6_arg16 m ρ c)

theorem f7_v93 : V7 m ρ c main_call0_v93 = (shapeCast S1x10 (m ((c.tc : Thread nD τ).loc main_arg17)) shapeCasts_S10_S1x10) :=
  (Stretch3.bias3 (W6 m ρ c)).trans (by rw [(f6_arg17 m ρ c)])

/-! ## The result -/

/-- After the last region the result array holds the reference's function of the arguments. -/
theorem out : W8 m ρ c (Proc.devRef .tc main_v0)
    = Cert.ReferenceIdeal.Read.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (W8_arr m ρ c 7).trans ((Mlp.final (V7 m ρ) c).trans (by
    rw [(f7_v90 m ρ c), (f7_arg12 m ρ c), (f7_v91 m ρ c), (f7_arg14 m ρ c), (f7_v92 m ρ c), (f7_arg16 m ρ c), (f7_v93 m ρ c)]
    exact (Cert.KernelIdeal.MlpBridge.mlp_eq _ _ _ _ _ _ _).trans (Cert.ReferenceIdeal.Fns.out_eq ..).symm))

end Cert.KernelIdeal.Walk

end
-- ==== Proof.lean ====
/-
  The certificate of a three-layer GraphSAGE network with mean pooling and an MLP head, a kernel program against
  its plain reference, on the extended reals.

  Both programs compute, from node features x, an edge list and a graph assignment:
    dinv = 1 / max(in-degree, 1),  cinv = 1 / max(graph size, 1);
    h₁ = max(x·Wl₁ + agg(x)·Wr₁ + b₁, 0), h₂, h₃ likewise from h₁, h₂, where agg(h) gathers the rows of h at the
    edges' sources, adds them up at the edges' destinations and scales each row by dinv;
    g = pool(h₁) + pool(h₂) + pool(h₃), where pool adds the node rows up per graph and scales by cinv;
    the result is log-softmax along the rows of the head (two dense layers clamped at zero, a third dense layer) of g.

  The kernel program computes each layer in a kernel region over five blocks of 10000 node rows, and the head in a
  fourth region over one block; between the regions it runs the same gathers, scatter-additions and scalings on the
  host, carrying the activations in bf16 and widening them before every sum. Read on the extended reals a change of
  float format is the identity, a matrix product into a zero accumulator is the host's product, and a row of a layer
  depends on the same row of its inputs only, so the blocked layers are the whole-array layers; the reference's one
  extra maximum with −∞ in its log-softmax changes nothing. No law used needs finiteness, so the precondition is never
  opened. The two idealized programs therefore end with the same result, entry by entry. The three frames are the
  generated frame statements (the reference's from its generated run); the idealization rewrote no operation, so
  `preserves` asks nothing.
-/
import proofs.«120171_j13091060318589_2_alg».proof.Defs
import proofs.«120171_j13091060318589_2_alg».proof.Proof.Gen.Kernel
import proofs.«120171_j13091060318589_2_alg».proof.Proof.Gen.Kernel.Skeleton
import proofs.«120171_j13091060318589_2_alg».proof.Proof.Gen.Kernel.Launch
import proofs.«120171_j13091060318589_2_alg».proof.Proof.Gen.Kernel.Points
import proofs.«120171_j13091060318589_2_alg».proof.Proof.Gen.Kernel.Frame
import proofs.«120171_j13091060318589_2_alg».proof.Proof.Gen.KernelIdeal
import proofs.«120171_j13091060318589_2_alg».proof.Proof.Gen.KernelIdeal.Skeleton
import proofs.«120171_j13091060318589_2_alg».proof.Proof.Gen.KernelIdeal.Launch
import proofs.«120171_j13091060318589_2_alg».proof.Proof.Gen.KernelIdeal.Points
import proofs.«120171_j13091060318589_2_alg».proof.Proof.Gen.KernelIdeal.Frame
import proofs.«120171_j13091060318589_2_alg».proof.Proof.Gen.ReferenceIdeal
import proofs.«120171_j13091060318589_2_alg».proof.Proof.Gen.ReferenceIdeal.Run
import proofs.«120171_j13091060318589_2_alg».proof.Proof.Gen.ReferenceIdeal.Read
import proofs.«120171_j13091060318589_2_alg».proof.Proof.Gen.Pre_finite_inputs
import proofs.«120171_j13091060318589_2_alg».proof.Proof.KRun
import proofs.«120171_j13091060318589_2_alg».proof.Proof.KValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the reference's function of the arguments: the kernel program by the walk
    through its host stretches and regions, the reference by its generated run; the arguments agree. -/
theorem algebraic : Cert.algebraic_KernelIdeal_ReferenceIdeal := by
  intro m ρ m' ρ' _ hagree
  refine ⟨fun c => Cert.ReferenceIdeal.Read.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono (fun r h c => ⟨(h c).1.trans (Cert.KernelIdeal.Walk.out m ρ c), (h c).2⟩)
      (Cert.KernelIdeal.Out.run_out (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v110_eq]
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
